-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S500000 : Shape := ⟨1, ![500000]⟩
abbrev S256x256 : Shape := ⟨2, ![256, 256]⟩
abbrev S1x256 : Shape := ⟨2, ![1, 256]⟩
abbrev S256 : Shape := ⟨1, ![256]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S1x256 : S_.BroadcastsInDim S1x256 (![] : Fin 0 → Fin S1x256.rank)
  reducesTo_S1x256_S_d0_1 : S1x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg11 : FVec F S256 .f32) (main_v33 : IVec S_ 1) : IVec S_ 1 :=
  let main_v34 : FVec F S256 .f32 := Host.absf main_arg11
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  main_v38

def fn_part1 {F : FTy → Type} [FloatOps F] (main_arg8 : FVec F S1x256 .f32) (main_arg9 : FVec F S1x256 .f32) (main_arg10 : FVec F S256 .f32) (main_arg11 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S1x256 .f32 := Host.absf main_arg8
  let main_cst_6 : FVec F S_ .f32 := constant S_ .f32 0x7F800000#32
  let main_v20 : FVec F S1x256 .f32 := broadcastInDim S1x256 ![] bcast_S_S1x256 main_cst_6
  let main_v21 : IVec S1x256 1 := cmpf .olt main_v19 main_v20
  let main_c_7 : IVec S_ 1 := constantI S_ 1 1#1
  let main_v22 : IVec S_ 1 := (fun x v => Host.reduce IntOp.andi x v reducesTo_S1x256_S_d0_1 h_S_) main_v21 main_c_7
  let main_v23 : IVec S_ 1 := andi main_v18 main_v22
  let main_v24 : FVec F S1x256 .f32 := Host.absf main_arg9
  let main_cst_8 : FVec F S_ .f32 := constant S_ .f32 0x7F800000#32
  let main_v25 : FVec F S1x256 .f32 := broadcastInDim S1x256 ![] bcast_S_S1x256 main_cst_8
  let main_v26 : IVec S1x256 1 := cmpf .olt main_v24 main_v25
  let main_c_9 : IVec S_ 1 := constantI S_ 1 1#1
  let main_v27 : IVec S_ 1 := (fun x v => Host.reduce IntOp.andi x v reducesTo_S1x256_S_d0_1 h_S_) main_v26 main_c_9
  let main_v28 : IVec S_ 1 := andi main_v23 main_v27
  let main_v29 : FVec F S256 .f32 := Host.absf main_arg10
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg11 main_v33

def fn {F : FTy → Type} [FloatOps F] (main_arg0 : FVec F S100000x256 .f32) (main_arg1 : FVec F S100000x256 .f32) (main_arg2 : IVec S500000 32) (main_arg3 : IVec S500000 32) (main_arg4 : IVec S500000 32) (main_arg5 : IVec S500000 32) (main_arg6 : FVec F S256x256 .f32) (main_arg7 : FVec F S256x256 .f32) (main_arg8 : FVec F S1x256 .f32) (main_arg9 : FVec F S1x256 .f32) (main_arg10 : FVec F S256 .f32) (main_arg11 : FVec F S256 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S100000x256 .f32 := Host.absf main_arg1
  let main_cst_0 : FVec F S_ .f32 := constant S_ .f32 0x7F800000#32
  let main_v5 : FVec F S100000x256 .f32 := broadcastInDim S100000x256 ![] bcast_S_S100000x256 main_cst_0
  let main_v6 : IVec S100000x256 1 := cmpf .olt main_v4 main_v5
  let main_c_1 : IVec S_ 1 := constantI S_ 1 1#1
  let main_v7 : IVec S_ 1 := (fun x v => Host.reduce IntOp.andi x v reducesTo_S100000x256_S_d0_1 h_S_) main_v6 main_c_1
  let main_v8 : IVec S_ 1 := andi main_v3 main_v7
  let main_v9 : FVec F S256x256 .f32 := Host.absf main_arg6
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg7
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg8 main_arg9 main_arg10 main_arg11 main_v13 main_v16
-- ==== Kernel.lean ====
abbrev S100000x256 : Shape := ⟨2, ![100000, 256]⟩
abbrev S500000 : Shape := ⟨1, ![500000]⟩
abbrev S256x256 : Shape := ⟨2, ![256, 256]⟩
abbrev S1x256 : Shape := ⟨2, ![1, 256]⟩
abbrev S256 : Shape := ⟨1, ![256]⟩
abbrev S10000x256 : Shape := ⟨2, ![10000, 256]⟩
abbrev S_ : Shape := ⟨0, ![]⟩
abbrev S500000x1 : Shape := ⟨2, ![500000, 1]⟩
abbrev S500000x256 : Shape := ⟨2, ![500000, 256]⟩
abbrev S100000x1 : Shape := ⟨2, ![100000, 1]⟩
abbrev S10000 : Shape := ⟨1, ![10000]⟩
abbrev S10000x1 : Shape := ⟨2, ![10000, 1]⟩
abbrev S1x100000x256 : Shape := ⟨3, ![1, 100000, 256]⟩
abbrev S2x100000x256 : Shape := ⟨3, ![2, 100000, 256]⟩

abbrev nBuf : Space → Nat
  | .hbm => 127
  | .vmem => 22
  | .smem => 0
  | _ => 0

abbrev bufTy : (tb : Table) → Fin (tcTables nBuf tb) → BufTy
  | .hbm, ⟨0, _⟩ => ⟨S100000x256, .f32⟩
  | .hbm, ⟨1, _⟩ => ⟨S100000x256, .f32⟩
  | .hbm, ⟨2, _⟩ => ⟨S500000, .i32⟩
  | .hbm, ⟨3, _⟩ => ⟨S500000, .i32⟩
  | .hbm, ⟨4, _⟩ => ⟨S500000, .i32⟩
  | .hbm, ⟨5, _⟩ => ⟨S500000, .i32⟩
  | .hbm, ⟨6, _⟩ => ⟨S256x256, .f32⟩
  | .hbm, ⟨7, _⟩ => ⟨S256x256, .f32⟩
  | .hbm, ⟨8, _⟩ => ⟨S1x256, .f32⟩
  | .hbm, ⟨9, _⟩ => ⟨S1x256, .f32⟩
  | .hbm, ⟨10, _⟩ => ⟨S256, .f32⟩
  | .hbm, ⟨11, _⟩ => ⟨S256, .f32⟩
  | .hbm, ⟨12, _⟩ => ⟨S256x256, .f32⟩
  | .hbm, ⟨13, _⟩ => ⟨S100000x256, .f32⟩
  | .hbm, ⟨14, _⟩ => ⟨S_, .i32⟩
  | .hbm, ⟨15, _⟩ => ⟨S500000, .i32⟩
  | .hbm, ⟨16, _⟩ => ⟨S500000, .i1⟩
  | .hbm, ⟨17, _⟩ => ⟨S_, .i32⟩
  | .hbm, ⟨18, _⟩ => ⟨S500000, .i32⟩
  | .hbm, ⟨19, _⟩ => ⟨S500000, .i32⟩
  | .hbm, ⟨20, _⟩ => ⟨S500000, .i32⟩
  | .hbm, ⟨21, _⟩ => ⟨S500000x1, .i32⟩
  | .hbm, ⟨22, _⟩ => ⟨S500000x256, .f32⟩
  | .hbm, ⟨23, _⟩ => ⟨S_, .i32⟩
  | .hbm, ⟨24, _⟩ => ⟨S500000, .i32⟩
  | .hbm, ⟨25, _⟩ => ⟨S500000, .i1⟩
  | .hbm, ⟨26, _⟩ => ⟨S_, .i32⟩
  | .hbm, ⟨27, _⟩ => ⟨S500000, .i32⟩
  | .hbm, ⟨28, _⟩ => ⟨S500000, .i32⟩
  | .hbm, ⟨29, _⟩ => ⟨S500000, .i32⟩
  | .hbm, ⟨30, _⟩ => ⟨S500000x1, .i32⟩
  | .hbm, ⟨31, _⟩ => ⟨S500000x256, .f32⟩
  | .hbm, ⟨32, _⟩ => ⟨S500000x256, .f32⟩
  | .hbm, ⟨33, _⟩ => ⟨S500000x256, .f32⟩
  | .hbm, ⟨34, _⟩ => ⟨S500000x256, .f32⟩
  | .hbm, ⟨35, _⟩ => ⟨S_, .f32⟩
  | .hbm, ⟨36, _⟩ => ⟨S500000, .f32⟩
  | .hbm, ⟨37, _⟩ => ⟨S500000x1, .f32⟩
  | .hbm, ⟨38, _⟩ => ⟨S500000x1, .f32⟩
  | .hbm, ⟨39, _⟩ => ⟨S_, .i32⟩
  | .hbm, ⟨40, _⟩ => ⟨S500000, .i32⟩
  | .hbm, ⟨41, _⟩ => ⟨S500000, .i1⟩
  | .hbm, ⟨42, _⟩ => ⟨S_, .i32⟩
  | .hbm, ⟨43, _⟩ => ⟨S500000, .i32⟩
  | .hbm, ⟨44, _⟩ => ⟨S500000, .i32⟩
  | .hbm, ⟨45, _⟩ => ⟨S500000, .i32⟩
  | .hbm, ⟨46, _⟩ => ⟨S500000x1, .i32⟩
  | .hbm, ⟨47, _⟩ => ⟨S500000x256, .f32⟩
  | .hbm, ⟨48, _⟩ => ⟨S500000x256, .f32⟩
  | .hbm, ⟨49, _⟩ => ⟨S500000x256, .f32⟩
  | .hbm, ⟨50, _⟩ => ⟨S_, .f32⟩
  | .hbm, ⟨51, _⟩ => ⟨S100000x256, .f32⟩
  | .hbm, ⟨52, _⟩ => ⟨S500000x1, .i32⟩
  | .hbm, ⟨53, _⟩ => ⟨S100000x256, .f32⟩
  | .hbm, ⟨54, _⟩ => ⟨S_, .f32⟩
  | .hbm, ⟨55, _⟩ => ⟨S100000x1, .f32⟩
  | .hbm, ⟨56, _⟩ => ⟨S500000x1, .i32⟩
  | .hbm, ⟨57, _⟩ => ⟨S100000x1, .f32⟩
  | .hbm, ⟨58, _⟩ => ⟨S_, .f32⟩
  | .hbm, ⟨59, _⟩ => ⟨S100000x1, .f32⟩
  | .hbm, ⟨60, _⟩ => ⟨S100000x1, .i1⟩
  | .hbm, ⟨61, _⟩ => ⟨S_, .f32⟩
  | .hbm, ⟨62, _⟩ => ⟨S100000x1, .f32⟩
  | .hbm, ⟨63, _⟩ => ⟨S100000x1, .f32⟩
  | .hbm, ⟨64, _⟩ => ⟨S100000x256, .f32⟩
  | .hbm, ⟨65, _⟩ => ⟨S100000x256, .f32⟩
  | .hbm, ⟨66, _⟩ => ⟨S256x256, .f32⟩
  | .hbm, ⟨67, _⟩ => ⟨S100000x256, .f32⟩
  | .hbm, ⟨68, _⟩ => ⟨S_, .i32⟩
  | .hbm, ⟨69, _⟩ => ⟨S500000, .i32⟩
  | .hbm, ⟨70, _⟩ => ⟨S500000, .i1⟩
  | .hbm, ⟨71, _⟩ => ⟨S_, .i32⟩
  | .hbm, ⟨72, _⟩ => ⟨S500000, .i32⟩
  | .hbm, ⟨73, _⟩ => ⟨S500000, .i32⟩
  | .hbm, ⟨74, _⟩ => ⟨S500000, .i32⟩
  | .hbm, ⟨75, _⟩ => ⟨S500000x1, .i32⟩
  | .hbm, ⟨76, _⟩ => ⟨S500000x256, .f32⟩
  | .hbm, ⟨77, _⟩ => ⟨S_, .i32⟩
  | .hbm, ⟨78, _⟩ => ⟨S500000, .i32⟩
  | .hbm, ⟨79, _⟩ => ⟨S500000, .i1⟩
  | .hbm, ⟨80, _⟩ => ⟨S_, .i32⟩
  | .hbm, ⟨81, _⟩ => ⟨S500000, .i32⟩
  | .hbm, ⟨82, _⟩ => ⟨S500000, .i32⟩
  | .hbm, ⟨83, _⟩ => ⟨S500000, .i32⟩
  | .hbm, ⟨84, _⟩ => ⟨S500000x1, .i32⟩
  | .hbm, ⟨85, _⟩ => ⟨S500000x256, .f32⟩
  | .hbm, ⟨86, _⟩ => ⟨S500000x256, .f32⟩
  | .hbm, ⟨87, _⟩ => ⟨S500000x256, .f32⟩
  | .hbm, ⟨88, _⟩ => ⟨S500000x256, .f32⟩
  | .hbm, ⟨89, _⟩ => ⟨S_, .f32⟩
  | .hbm, ⟨90, _⟩ => ⟨S500000, .f32⟩
  | .hbm, ⟨91, _⟩ => ⟨S500000x1, .f32⟩
  | .hbm, ⟨92, _⟩ => ⟨S500000x1, .f32⟩
  | .hbm, ⟨93, _⟩ => ⟨S_, .i32⟩
  | .hbm, ⟨94, _⟩ => ⟨S500000, .i32⟩
  | .hbm, ⟨95, _⟩ => ⟨S500000, .i1⟩
  | .hbm, ⟨96, _⟩ => ⟨S_, .i32⟩
  | .hbm, ⟨97, _⟩ => ⟨S500000, .i32⟩
  | .hbm, ⟨98, _⟩ => ⟨S500000, .i32⟩
  | .hbm, ⟨99, _⟩ => ⟨S500000, .i32⟩
  | .hbm, ⟨100, _⟩ => ⟨S500000x1, .i32⟩
  | .hbm, ⟨101, _⟩ => ⟨S500000x256, .f32⟩
  | .hbm, ⟨102, _⟩ => ⟨S500000x256, .f32⟩
  | .hbm, ⟨103, _⟩ => ⟨S500000x256, .f32⟩
  | .hbm, ⟨104, _⟩ => ⟨S_, .f32⟩
  | .hbm, ⟨105, _⟩ => ⟨S100000x256, .f32⟩
  | .hbm, ⟨106, _⟩ => ⟨S500000x1, .i32⟩
  | .hbm, ⟨107, _⟩ => ⟨S100000x256, .f32⟩
  | .hbm, ⟨108, _⟩ => ⟨S_, .f32⟩
  | .hbm, ⟨109, _⟩ => ⟨S100000x1, .f32⟩
  | .hbm, ⟨110, _⟩ => ⟨S500000x1, .i32⟩
  | .hbm, ⟨111, _⟩ => ⟨S100000x1, .f32⟩
  | .hbm, ⟨112, _⟩ => ⟨S_, .f32⟩
  | .hbm, ⟨113, _⟩ => ⟨S100000x1, .f32⟩
  | .hbm, ⟨114, _⟩ => ⟨S100000x1, .i1⟩
  | .hbm, ⟨115, _⟩ => ⟨S_, .f32⟩
  | .hbm, ⟨116, _⟩ => ⟨S100000x1, .f32⟩
  | .hbm, ⟨117, _⟩ => ⟨S100000x1, .f32⟩
  | .hbm, ⟨118, _⟩ => ⟨S100000x256, .f32⟩
  | .hbm, ⟨119, _⟩ => ⟨S100000x256, .f32⟩
  | .hbm, ⟨120, _⟩ => ⟨S1x256, .f32⟩
  | .hbm, ⟨121, _⟩ => ⟨S1x256, .f32⟩
  | .hbm, ⟨122, _⟩ => ⟨S100000x256, .f32⟩
  | .hbm, ⟨123, _⟩ => ⟨S100000x256, .f32⟩
  | .hbm, ⟨124, _⟩ => ⟨S1x100000x256, .f32⟩
  | .hbm, ⟨125, _⟩ => ⟨S1x100000x256, .f32⟩
  | .hbm, ⟨126, _⟩ => ⟨S2x100000x256, .f32⟩
  | .local _ .vmem, ⟨0, _⟩ => ⟨S10000x256, .f32⟩
  | .local _ .vmem, ⟨1, _⟩ => ⟨S10000x256, .f32⟩
  | .local _ .vmem, ⟨2, _⟩ => ⟨S256x256, .f32⟩
  | .local _ .vmem, ⟨3, _⟩ => ⟨S10000x256, .f32⟩
  | .local _ .vmem, ⟨4, _⟩ => ⟨S10000x256, .f32⟩
  | .local _ .vmem, ⟨5, _⟩ => ⟨S10000x256, .f32⟩
  | .local _ .vmem, ⟨6, _⟩ => ⟨S10000x256, .f32⟩
  | .local _ .vmem, ⟨7, _⟩ => ⟨S256x256, .f32⟩
  | .local _ .vmem, ⟨8, _⟩ => ⟨S10000x256, .f32⟩
  | .local _ .vmem, ⟨9, _⟩ => ⟨S10000x256, .f32⟩
  | .local _ .vmem, ⟨10, _⟩ => ⟨S10000x256, .f32⟩
  | .local _ .vmem, ⟨11, _⟩ => ⟨S10000x256, .f32⟩
  | .local _ .vmem, ⟨12, _⟩ => ⟨S1x256, .f32⟩
  | .local _ .vmem, ⟨13, _⟩ => ⟨S1x256, .f32⟩
  | .local _ .vmem, ⟨14, _⟩ => ⟨S10000x256, .f32⟩
  | .local _ .vmem, ⟨15, _⟩ => ⟨S10000x256, .f32⟩
  | .local _ .vmem, ⟨16, _⟩ => ⟨S10000x256, .f32⟩
  | .local _ .vmem, ⟨17, _⟩ => ⟨S10000x256, .f32⟩
  | .local _ .vmem, ⟨18, _⟩ => ⟨S1x256, .f32⟩
  | .local _ .vmem, ⟨19, _⟩ => ⟨S1x256, .f32⟩
  | .local _ .vmem, ⟨20, _⟩ => ⟨S10000x256, .f32⟩
  | .local _ .vmem, ⟨21, _⟩ => ⟨S10000x256, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_c_1 : Ref sig .tc := ⟨.hbm, 23, rfl⟩
abbrev main_v9 : Ref sig .tc := ⟨.hbm, 24, rfl⟩
abbrev main_v10 : Ref sig .tc := ⟨.hbm, 25, rfl⟩
abbrev main_c_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_3 : Ref sig .tc := ⟨.hbm, 39, rfl⟩
abbrev main_v22 : Ref sig .tc := ⟨.hbm, 40, rfl⟩
abbrev main_v23 : Ref sig .tc := ⟨.hbm, 41, rfl⟩
abbrev main_c_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_6 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_7 : Ref sig .tc := ⟨.hbm, 58, rfl⟩
abbrev main_v37 : Ref sig .tc := ⟨.hbm, 59, rfl⟩
abbrev main_v38 : Ref sig .tc := ⟨.hbm, 60, rfl⟩
abbrev main_cst_8 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_c_9 : Ref sig .tc := ⟨.hbm, 68, rfl⟩
abbrev main_v45 : Ref sig .tc := ⟨.hbm, 69, rfl⟩
abbrev main_v46 : Ref sig .tc := ⟨.hbm, 70, rfl⟩
abbrev main_c_10 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_c_11 : Ref sig .tc := ⟨.hbm, 77, rfl⟩
abbrev main_v52 : Ref sig .tc := ⟨.hbm, 78, rfl⟩
abbrev main_v53 : Ref sig .tc := ⟨.hbm, 79, rfl⟩
abbrev main_c_12 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_13 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_c_14 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_16 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_17 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_18 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem3_0 : DmaSem sig := 20
abbrev cc3_sem3_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  transposes_S256x256_S256x256_1_0 : S256x256.Transposes [1, 0] S256x256
  inb_S10000x256_S10000x256_0_0 : ∀ a, (![0, 0] : Fin 2 → Nat) a + S10000x256.size a ≤ S10000x256.size a
  h_S10000x256 : 0 < S10000x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bcast_S_S500000 : S_.BroadcastsInDim S500000 (![] : Fin 0 → Fin S500000.rank)
  bcast_S500000_S500000x1_0 : S500000.BroadcastsInDim S500000x1 (![0] : Fin 1 → Fin S500000x1.rank)
  bcast_S1x256_S500000x256_0_1 : S1x256.BroadcastsInDim S500000x256 (![0, 1] : Fin 2 → Fin S500000x256.rank)
  reducesTo_S500000x256_S500000_d1 : S500000x256.ReducesTo [1] S500000
  h_S_ : 0 < S_.numel
  bcast_S500000x1_S500000x256_0_1 : S500000x1.BroadcastsInDim S500000x256 (![0, 1] : Fin 2 → Fin S500000x256.rank)
  bcast_S_S100000x256 : S_.BroadcastsInDim S100000x256 (![] : Fin 0 → Fin S100000x256.rank)
  bcast_S_S100000x1 : S_.BroadcastsInDim S100000x1 (![] : Fin 0 → Fin S100000x1.rank)
  bcast_S100000x1_S100000x256_0_1 : S100000x1.BroadcastsInDim S100000x256 (![0, 1] : Fin 2 → Fin S100000x256.rank)
  shapeCasts_S256_S1x256 : S256.ShapeCasts S1x256
  shapeCasts_S10000x256_S10000x256 : S10000x256.ShapeCasts S10000x256
  reduces_S10000x256_S10000 : S10000x256.Reduces [1] S10000
  shapeCasts_S10000_S10000x1 : S10000.ShapeCasts S10000x1
  broadcasts_S10000x1_S10000x256 : S10000x1.Broadcasts S10000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S10000x256 : S1x256.Broadcasts S10000x256
  bcast_S100000x256_S1x100000x256_1_2 : S100000x256.BroadcastsInDim S1x100000x256 (![1, 2] : Fin 2 → Fin S1x100000x256.rank)
  concatenates_S1x100000x256_S1x100000x256_S2x100000x256_d0 : Shape.Concatenates [S1x100000x256, S1x100000x256] S2x100000x256 0
  dot_S10000x256_S256x256_S10000x256_1_0_0_1_n_n_wf : DotDims.WF S10000x256 S256x256 S10000x256 [1] [0] [0] [1] [] []
  gather_S100000x256_S500000x1_S500000x256_1_0_n_n_0_1_1256_wf : GatherDims.WF S100000x256 S500000x1 S500000x256 [1] [0] [] [0] [] 1 ![1, 256]
  scatter_S100000x256_S500000x1_S500000x256_1_0_0_1_wf : ScatterDims.WF S100000x256 S500000x1 S500000x256 [1] [0] [0] 1
  scatter_S100000x1_S500000x1_S500000x1_1_0_0_1_wf : ScatterDims.WF S100000x1 S500000x1 S500000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S100000x256.size a
  hwx0_0 : ∀ i : grid0.Coords, EltTy.bits .f32 = 32 ∨ (Rect.block (s := S100000x256) S10000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x256.size a ≤ S100000x256.size a
  hwx0_2 : ∀ i : grid0.Coords, EltTy.bits .f32 = 32 ∨ (Rect.block (s := S100000x256) S10000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x256.size a ≤ S100000x256.size a
  hwx1_0 : ∀ i : grid1.Coords, EltTy.bits .f32 = 32 ∨ (Rect.block (s := S100000x256) S10000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x256.size a ≤ S100000x256.size a
  hwx1_2 : ∀ i : grid1.Coords, EltTy.bits .f32 = 32 ∨ (Rect.block (s := S100000x256) S10000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x256.size a ≤ S100000x256.size a
  hwx2_0 : ∀ i : grid2.Coords, EltTy.bits .f32 = 32 ∨ (Rect.block (s := S100000x256) S10000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x256.size a
  hwx2_1 : ∀ i : grid2.Coords, EltTy.bits .f32 = 32 ∨ (Rect.block (s := S1x256) S1x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x256.size a ≤ S100000x256.size a
  hwx2_3 : ∀ i : grid2.Coords, EltTy.bits .f32 = 32 ∨ (Rect.block (s := S100000x256) S10000x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x256.size a ≤ S100000x256.size a
  hwx3_0 : ∀ i : grid3.Coords, EltTy.bits .f32 = 32 ∨ (Rect.block (s := S100000x256) S10000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x256.size a ≤ S100000x256.size a
  hwx3_3 : ∀ i : grid3.Coords, EltTy.bits .f32 = 32 ∨ (Rect.block (s := S100000x256) S10000x256.size (cc3_transform_3 i) (hinb3_3 i)).WholeWords (EltTy.packing .f32)

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def gather_S100000x256_S500000x1_S500000x256_1_0_n_n_0_1_1256 : GatherDims S100000x256 S500000x1 S500000x256 where
  offsetDims := [1]
  collapsedSliceDims := [0]
  operandBatchingDims := []
  startIndicesBatchingDims := []
  startIndexMap := [0]
  indexVectorDim := 1
  sliceSizes := ![1, 256]
  wf := gather_S100000x256_S500000x1_S500000x256_1_0_n_n_0_1_1256_wf
def scatter_S100000x256_S500000x1_S500000x256_1_0_0_1 : ScatterDims S100000x256 S500000x1 S500000x256 where
  updateWindowDims := [1]
  insertedWindowDims := [0]
  scatterDimsToOperandDims := [0]
  indexVectorDim := 1
  wf := scatter_S100000x256_S500000x1_S500000x256_1_0_0_1_wf
def scatter_S100000x1_S500000x1_S500000x1_1_0_0_1 : ScatterDims S100000x1 S500000x1 S500000x1 where
  updateWindowDims := [1]
  insertedWindowDims := [0]
  scatterDimsToOperandDims := [0]
  indexVectorDim := 1
  wf := scatter_S100000x1_S500000x1_S500000x1_1_0_0_1_wf

abbrev win0_0 : Pipeline.Window sig grid0 :=
  Pipeline.Window.ofSpec (Memref.whole main_arg0) S10000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S10000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S10000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S10000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v85) S10000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v86) S1x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v87) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v88) S10000x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v42) S10000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v86) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v87) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v89) S10000x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x256 : Shape := ⟨2, ![100000, 256]⟩
abbrev S500000 : Shape := ⟨1, ![500000]⟩
abbrev S256x256 : Shape := ⟨2, ![256, 256]⟩
abbrev S1x256 : Shape := ⟨2, ![1, 256]⟩
abbrev S256 : Shape := ⟨1, ![256]⟩
abbrev S_ : Shape := ⟨0, ![]⟩
abbrev S500000x1 : Shape := ⟨2, ![500000, 1]⟩
abbrev S500000x256 : Shape := ⟨2, ![500000, 256]⟩
abbrev S256x1 : Shape := ⟨2, ![256, 1]⟩
abbrev S100000x1 : Shape := ⟨2, ![100000, 1]⟩
abbrev S100000 : Shape := ⟨1, ![100000]⟩
abbrev S1x100000x256 : Shape := ⟨3, ![1, 100000, 256]⟩
abbrev S2x100000x256 : Shape := ⟨3, ![2, 100000, 256]⟩

abbrev nBuf : Space → Nat
  | .hbm => 185
  | .vmem => 0
  | .smem => 0
  | _ => 0

abbrev hbmTy0_0 (i : Nat) : BufTy := match i % 128 with
  | 0 => ⟨S100000x256, .f32⟩
  | 1 => ⟨S100000x256, .f32⟩
  | 2 => ⟨S500000, .i32⟩
  | 3 => ⟨S500000, .i32⟩
  | 4 => ⟨S500000, .i32⟩
  | 5 => ⟨S500000, .i32⟩
  | 6 => ⟨S256x256, .f32⟩
  | 7 => ⟨S256x256, .f32⟩
  | 8 => ⟨S1x256, .f32⟩
  | 9 => ⟨S1x256, .f32⟩
  | 10 => ⟨S256, .f32⟩
  | 11 => ⟨S256, .f32⟩
  | 12 => ⟨S256x256, .f32⟩
  | 13 => ⟨S100000x256, .f32⟩
  | 14 => ⟨S_, .i32⟩
  | 15 => ⟨S500000, .i32⟩
  | 16 => ⟨S500000, .i1⟩
  | 17 => ⟨S_, .i32⟩
  | 18 => ⟨S500000, .i32⟩
  | 19 => ⟨S500000, .i32⟩
  | 20 => ⟨S500000, .i32⟩
  | 21 => ⟨S500000x1, .i32⟩
  | 22 => ⟨S500000x256, .f32⟩
  | 23 => ⟨S_, .i32⟩
  | 24 => ⟨S500000, .i32⟩
  | 25 => ⟨S500000, .i1⟩
  | 26 => ⟨S_, .i32⟩
  | 27 => ⟨S500000, .i32⟩
  | 28 => ⟨S500000, .i32⟩
  | 29 => ⟨S500000, .i32⟩
  | 30 => ⟨S500000x1, .i32⟩
  | 31 => ⟨S500000x256, .f32⟩
  | 32 => ⟨S500000x256, .f32⟩
  | 33 => ⟨S256x1, .f32⟩
  | 34 => ⟨S500000x1, .f32⟩
  | 35 => ⟨S500000x1, .f32⟩
  | 36 => ⟨S_, .f32⟩
  | 37 => ⟨S100000x1, .f32⟩
  | 38 => ⟨S500000x1, .i32⟩
  | 39 => ⟨S100000x1, .f32⟩
  | 40 => ⟨S_, .i32⟩
  | 41 => ⟨S500000, .i32⟩
  | 42 => ⟨S500000, .i1⟩
  | 43 => ⟨S_, .i32⟩
  | 44 => ⟨S500000, .i32⟩
  | 45 => ⟨S500000, .i32⟩
  | 46 => ⟨S500000, .i32⟩
  | 47 => ⟨S500000x1, .i32⟩
  | 48 => ⟨S500000x1, .f32⟩
  | 49 => ⟨S500000x1, .f32⟩
  | 50 => ⟨S_, .i32⟩
  | 51 => ⟨S500000, .i32⟩
  | 52 => ⟨S500000, .i1⟩
  | 53 => ⟨S_, .i32⟩
  | 54 => ⟨S500000, .i32⟩
  | 55 => ⟨S500000, .i32⟩
  | 56 => ⟨S500000, .i32⟩
  | 57 => ⟨S500000x1, .i32⟩
  | 58 => ⟨S500000x256, .f32⟩
  | 59 => ⟨S500000x256, .f32⟩
  | 60 => ⟨S500000x256, .f32⟩
  | 61 => ⟨S_, .f32⟩
  | 62 => ⟨S100000x256, .f32⟩
  | 63 => ⟨S500000x1, .i32⟩
  | 64 => ⟨S100000x256, .f32⟩
  | 65 => ⟨S256x256, .f32⟩
  | 66 => ⟨S100000x256, .f32⟩
  | 67 => ⟨S_, .i32⟩
  | 68 => ⟨S500000, .i32⟩
  | 69 => ⟨S500000, .i1⟩
  | 70 => ⟨S_, .i32⟩
  | 71 => ⟨S500000, .i32⟩
  | 72 => ⟨S500000, .i32⟩
  | 73 => ⟨S500000, .i32⟩
  | 74 => ⟨S500000x1, .i32⟩
  | 75 => ⟨S500000x256, .f32⟩
  | 76 => ⟨S_, .i32⟩
  | 77 => ⟨S500000, .i32⟩
  | 78 => ⟨S500000, .i1⟩
  | 79 => ⟨S_, .i32⟩
  | 80 => ⟨S500000, .i32⟩
  | 81 => ⟨S500000, .i32⟩
  | 82 => ⟨S500000, .i32⟩
  | 83 => ⟨S500000x1, .i32⟩
  | 84 => ⟨S500000x256, .f32⟩
  | 85 => ⟨S500000x256, .f32⟩
  | 86 => ⟨S256x1, .f32⟩
  | 87 => ⟨S500000x1, .f32⟩
  | 88 => ⟨S500000x1, .f32⟩
  | 89 => ⟨S_, .f32⟩
  | 90 => ⟨S100000x1, .f32⟩
  | 91 => ⟨S500000x1, .i32⟩
  | 92 => ⟨S100000x1, .f32⟩
  | 93 => ⟨S_, .i32⟩
  | 94 => ⟨S500000, .i32⟩
  | 95 => ⟨S500000, .i1⟩
  | 96 => ⟨S_, .i32⟩
  | 97 => ⟨S500000, .i32⟩
  | 98 => ⟨S500000, .i32⟩
  | 99 => ⟨S500000, .i32⟩
  | 100 => ⟨S500000x1, .i32⟩
  | 101 => ⟨S500000x1, .f32⟩
  | 102 => ⟨S500000x1, .f32⟩
  | 103 => ⟨S_, .i32⟩
  | 104 => ⟨S500000, .i32⟩
  | 105 => ⟨S500000, .i1⟩
  | 106 => ⟨S_, .i32⟩
  | 107 => ⟨S500000, .i32⟩
  | 108 => ⟨S500000, .i32⟩
  | 109 => ⟨S500000, .i32⟩
  | 110 => ⟨S500000x1, .i32⟩
  | 111 => ⟨S500000x256, .f32⟩
  | 112 => ⟨S500000x256, .f32⟩
  | 113 => ⟨S500000x256, .f32⟩
  | 114 => ⟨S_, .f32⟩
  | 115 => ⟨S100000x256, .f32⟩
  | 116 => ⟨S500000x1, .i32⟩
  | 117 => ⟨S100000x256, .f32⟩
  | 118 => ⟨S_, .f32⟩
  | 119 => ⟨S100000x256, .f32⟩
  | 120 => ⟨S100000x256, .f32⟩
  | 121 => ⟨S_, .f32⟩
  | 122 => ⟨S100000, .f32⟩
  | 123 => ⟨S100000x1, .f32⟩
  | 124 => ⟨S_, .f32⟩
  | 125 => ⟨S100000x1, .f32⟩
  | 126 => ⟨S100000x1, .f32⟩
  | 127 => ⟨S100000x256, .f32⟩
  | _ => ⟨S100000x256, .f32⟩

abbrev hbmTy0_1 (i : Nat) : BufTy := match i % 128 with
  | 0 => ⟨S100000x256, .f32⟩
  | 1 => ⟨S100000x256, .f32⟩
  | 2 => ⟨S_, .f32⟩
  | 3 => ⟨S100000, .f32⟩
  | 4 => ⟨S100000x1, .f32⟩
  | 5 => ⟨S_, .f32⟩
  | 6 => ⟨S100000x1, .f32⟩
  | 7 => ⟨S100000x1, .f32⟩
  | 8 => ⟨S100000x256, .f32⟩
  | 9 => ⟨S100000x256, .f32⟩
  | 10 => ⟨S_, .f32⟩
  | 11 => ⟨S100000x1, .f32⟩
  | 12 => ⟨S100000x1, .f32⟩
  | 13 => ⟨S100000x1, .f32⟩
  | 14 => ⟨S100000x256, .f32⟩
  | 15 => ⟨S100000x256, .f32⟩
  | 16 => ⟨S1x256, .f32⟩
  | 17 => ⟨S100000x256, .f32⟩
  | 18 => ⟨S100000x256, .f32⟩
  | 19 => ⟨S1x256, .f32⟩
  | 20 => ⟨S100000x256, .f32⟩
  | 21 => ⟨S100000x256, .f32⟩
  | 22 => ⟨S_, .f32⟩
  | 23 => ⟨S100000x256, .f32⟩
  | 24 => ⟨S100000x256, .f32⟩
  | 25 => ⟨S_, .f32⟩
  | 26 => ⟨S100000, .f32⟩
  | 27 => ⟨S100000x1, .f32⟩
  | 28 => ⟨S_, .f32⟩
  | 29 => ⟨S100000x1, .f32⟩
  | 30 => ⟨S100000x1, .f32⟩
  | 31 => ⟨S100000x256, .f32⟩
  | 32 => ⟨S100000x256, .f32⟩
  | 33 => ⟨S100000x256, .f32⟩
  | 34 => ⟨S_, .f32⟩
  | 35 => ⟨S100000, .f32⟩
  | 36 => ⟨S100000x1, .f32⟩
  | 37 => ⟨S_, .f32⟩
  | 38 => ⟨S100000x1, .f32⟩
  | 39 => ⟨S100000x1, .f32⟩
  | 40 => ⟨S100000x256, .f32⟩
  | 41 => ⟨S100000x256, .f32⟩
  | 42 => ⟨S_, .f32⟩
  | 43 => ⟨S100000x1, .f32⟩
  | 44 => ⟨S100000x1, .f32⟩
  | 45 => ⟨S100000x1, .f32⟩
  | 46 => ⟨S100000x256, .f32⟩
  | 47 => ⟨S100000x256, .f32⟩
  | 48 => ⟨S1x256, .f32⟩
  | 49 => ⟨S100000x256, .f32⟩
  | 50 => ⟨S100000x256, .f32⟩
  | 51 => ⟨S1x256, .f32⟩
  | 52 => ⟨S100000x256, .f32⟩
  | 53 => ⟨S100000x256, .f32⟩
  | 54 => ⟨S1x100000x256, .f32⟩
  | 55 => ⟨S1x100000x256, .f32⟩
  | 56 => ⟨S2x100000x256, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_c_1 : Ref sig .tc := ⟨.hbm, 23, rfl⟩
abbrev main_v9 : Ref sig .tc := ⟨.hbm, 24, rfl⟩
abbrev main_v10 : Ref sig .tc := ⟨.hbm, 25, rfl⟩
abbrev main_c_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_3 : Ref sig .tc := ⟨.hbm, 40, rfl⟩
abbrev main_v23 : Ref sig .tc := ⟨.hbm, 41, rfl⟩
abbrev main_v24 : Ref sig .tc := ⟨.hbm, 42, rfl⟩
abbrev main_c_4 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_5 : Ref sig .tc := ⟨.hbm, 50, rfl⟩
abbrev main_v31 : Ref sig .tc := ⟨.hbm, 51, rfl⟩
abbrev main_v32 : Ref sig .tc := ⟨.hbm, 52, rfl⟩
abbrev main_c_6 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_c_8 : Ref sig .tc := ⟨.hbm, 67, rfl⟩
abbrev main_v45 : Ref sig .tc := ⟨.hbm, 68, rfl⟩
abbrev main_v46 : Ref sig .tc := ⟨.hbm, 69, rfl⟩
abbrev main_c_9 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_c_10 : Ref sig .tc := ⟨.hbm, 76, rfl⟩
abbrev main_v52 : Ref sig .tc := ⟨.hbm, 77, rfl⟩
abbrev main_v53 : Ref sig .tc := ⟨.hbm, 78, rfl⟩
abbrev main_c_11 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_12 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_c_13 : Ref sig .tc := ⟨.hbm, 93, rfl⟩
abbrev main_v66 : Ref sig .tc := ⟨.hbm, 94, rfl⟩
abbrev main_v67 : Ref sig .tc := ⟨.hbm, 95, rfl⟩
abbrev main_c_14 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_c_15 : Ref sig .tc := ⟨.hbm, 103, rfl⟩
abbrev main_v74 : Ref sig .tc := ⟨.hbm, 104, rfl⟩
abbrev main_v75 : Ref sig .tc := ⟨.hbm, 105, rfl⟩
abbrev main_c_16 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_17 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_call0_cst : Ref sig .tc := ⟨.hbm, 118, rfl⟩
abbrev main_call0_v0 : Ref sig .tc := ⟨.hbm, 119, rfl⟩
abbrev main_v86 : Ref sig .tc := ⟨.hbm, 120, rfl⟩
abbrev main_cst_18 : Ref sig .tc := ⟨.hbm, 121, rfl⟩
abbrev main_v87 : Ref sig .tc := ⟨.hbm, 122, rfl⟩
abbrev main_v88 : Ref sig .tc := ⟨.hbm, 123, rfl⟩
abbrev main_cst_19 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_cst_20 : Ref sig .tc := ⟨.hbm, 130, rfl⟩
abbrev main_v94 : Ref sig .tc := ⟨.hbm, 131, rfl⟩
abbrev main_v95 : Ref sig .tc := ⟨.hbm, 132, rfl⟩
abbrev main_cst_21 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_cst_22 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_call1_cst : Ref sig .tc := ⟨.hbm, 150, rfl⟩
abbrev main_call1_v0 : Ref sig .tc := ⟨.hbm, 151, rfl⟩
abbrev main_v111 : Ref sig .tc := ⟨.hbm, 152, rfl⟩
abbrev main_cst_23 : Ref sig .tc := ⟨.hbm, 153, rfl⟩
abbrev main_v112 : Ref sig .tc := ⟨.hbm, 154, rfl⟩
abbrev main_v113 : Ref sig .tc := ⟨.hbm, 155, rfl⟩
abbrev main_cst_24 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_cst_25 : Ref sig .tc := ⟨.hbm, 162, rfl⟩
abbrev main_v119 : Ref sig .tc := ⟨.hbm, 163, rfl⟩
abbrev main_v120 : Ref sig .tc := ⟨.hbm, 164, rfl⟩
abbrev main_cst_26 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_cst_27 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩

abbrev nD : Nat := 1
abbrev τ : Topo := Topo.v7x

variable {F : FTy → Type} [FloatOps F]

class Facts₀ : Prop where
  transposes_S256x256_S256x256_1_0 : S256x256.Transposes [1, 0] S256x256
  bcast_S_S500000 : S_.BroadcastsInDim S500000 (![] : Fin 0 → Fin S500000.rank)
  bcast_S500000_S500000x1_0 : S500000.BroadcastsInDim S500000x1 (![0] : Fin 1 → Fin S500000x1.rank)
  transposes_S1x256_S256x1_1_0 : S1x256.Transposes [1, 0] S256x1
  bcast_S_S100000x1 : S_.BroadcastsInDim S100000x1 (![] : Fin 0 → Fin S100000x1.rank)
  bcast_S500000x1_S500000x256_0_1 : S500000x1.BroadcastsInDim S500000x256 (![0, 1] : Fin 2 → Fin S500000x256.rank)
  bcast_S_S100000x256 : S_.BroadcastsInDim S100000x256 (![] : Fin 0 → Fin S100000x256.rank)
  reducesTo_S100000x256_S100000_d1 : S100000x256.ReducesTo [1] S100000
  h_S_ : 0 < S_.numel
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S100000x256_S1x100000x256_1_2 : S100000x256.BroadcastsInDim S1x100000x256 (![1, 2] : Fin 2 → Fin S1x100000x256.rank)
  concatenates_S1x100000x256_S1x100000x256_S2x100000x256_d0 : Shape.Concatenates [S1x100000x256, S1x100000x256] S2x100000x256 0
  dot_S100000x256_S256x256_S100000x256_1_0_0_1_n_n_wf : DotDims.WF S100000x256 S256x256 S100000x256 [1] [0] [0] [1] [] []
  gather_S100000x256_S500000x1_S500000x256_1_0_n_n_0_1_1256_wf : GatherDims.WF S100000x256 S500000x1 S500000x256 [1] [0] [] [0] [] 1 ![1, 256]
  dot_S500000x256_S256x1_S500000x1_1_0_0_1_n_n_wf : DotDims.WF S500000x256 S256x1 S500000x1 [1] [0] [0] [1] [] []
  scatter_S100000x1_S500000x1_S500000x1_1_0_0_1_wf : ScatterDims.WF S100000x1 S500000x1 S500000x1 [1] [0] [0] 1
  gather_S100000x1_S500000x1_S500000x1_1_0_n_n_0_1_11_wf : GatherDims.WF S100000x1 S500000x1 S500000x1 [1] [0] [] [0] [] 1 ![1, 1]
  scatter_S100000x256_S500000x1_S500000x256_1_0_0_1_wf : ScatterDims.WF S100000x256 S500000x1 S500000x256 [1] [0] [0] 1

variable [Facts₀]

def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def gather_S100000x256_S500000x1_S500000x256_1_0_n_n_0_1_1256 : GatherDims S100000x256 S500000x1 S500000x256 where
  offsetDims := [1]
  collapsedSliceDims := [0]
  operandBatchingDims := []
  startIndicesBatchingDims := []
  startIndexMap := [0]
  indexVectorDim := 1
  sliceSizes := ![1, 256]
  wf := gather_S100000x256_S500000x1_S500000x256_1_0_n_n_0_1_1256_wf
def dot_S500000x256_S256x1_S500000x1_1_0_0_1_n_n : DotDims S500000x256 S256x1 S500000x1 where
  lhsContracting := [1]
  rhsContracting := [0]
  lhsNonContracting := [0]
  rhsNonContracting := [1]
  lhsBatch := []
  rhsBatch := []
  wf := dot_S500000x256_S256x1_S500000x1_1_0_0_1_n_n_wf
def scatter_S100000x1_S500000x1_S500000x1_1_0_0_1 : ScatterDims S100000x1 S500000x1 S500000x1 where
  updateWindowDims := [1]
  insertedWindowDims := [0]
  scatterDimsToOperandDims := [0]
  indexVectorDim := 1
  wf := scatter_S100000x1_S500000x1_S500000x1_1_0_0_1_wf
def gather_S100000x1_S500000x1_S500000x1_1_0_n_n_0_1_11 : GatherDims S100000x1 S500000x1 S500000x1 where
  offsetDims := [1]
  collapsedSliceDims := [0]
  operandBatchingDims := []
  startIndicesBatchingDims := []
  startIndexMap := [0]
  indexVectorDim := 1
  sliceSizes := ![1, 1]
  wf := gather_S100000x1_S500000x1_S500000x1_1_0_n_n_0_1_11_wf
def scatter_S100000x256_S500000x1_S500000x256_1_0_0_1 : ScatterDims S100000x256 S500000x1 S500000x256 where
  updateWindowDims := [1]
  insertedWindowDims := [0]
  scatterDimsToOperandDims := [0]
  indexVectorDim := 1
  wf := scatter_S100000x256_S500000x1_S500000x256_1_0_0_1_wf

class Facts : Prop extends Facts₀ where

variable [Facts]
-- ==== Proof.KernelRun.lean ====
/-
  The idealized kernel program's run with its result named.

  @main is twelve segments: stretches of host operations and four pallas_call regions.  The buffer contents at each
  segment boundary form a fold from the launch memory: a stretch applies its operations, a region replaces its arrays by
  what its write-backs leave.  Every weakly fair execution terminates in a state whose unscoped buffers hold the last
  boundary's contents; read at the result buffer this names the result, and read at an argument it is the launch value.
-/
import proofs.«136471_j9208409883351_2_alg».proof.Proof.Gen.KernelIdeal.Frame

set_option maxRecDepth 16384

noncomputable section

namespace Cert.KernelIdeal.RunNamed

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and every argument array as launched. -/
theorem run : θ_run defs (onTc (τ := τ) (main (F := F))) ⟨m, fun _ => 0, ρ⟩ (fun r => ∀ c : Dev nD,
      r.2.mem ((c.tc : Thread nD τ).loc main_v92) = W12 m ρ c (Proc.devRef .tc main_v92)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v92 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c)⟩)

end Cert.KernelIdeal.RunNamed

end
-- ==== Proof.Stages.lean ====
/-
  The host stages of one edge type of the relational aggregation, as functions of arrays.

  For source features hs, destination features hd, projected source features T (= hs · Wᵀ), edge lists src, dst and an
  attention row wa:  an edge e has the product row  x(e, ·) = T(src e, ·) · hd(dst e, ·),  the score
  s(e) = exp(∑ₖ x(e, k) · wa(k)),  and a destination node n receives
  (∑_{dst e = n} hs(src e, ·) · s(e)) / D(n)  with  D(n) = ∑_{dst e = n} s(e),  the divisor replaced by one when it is
  zero (a node with no incoming edge).  Row indices of a gather are wrapped when negative and clamped into the table; a
  scatter drops an edge whose destination lies outside the table.
-/
import proofs.«136471_j9208409883351_2_alg».proof.Proof.Gen.KernelIdeal

noncomputable section

namespace Cert.Stages

open Idealize.ShloMosaic Cert.KernelIdeal Cert.KernelIdeal.Gen

variable {F : FTy → Type} [FloatOps F]

/-- An index vector as a column, negative entries wrapped by the number of rows. -/
def wrapIdx (v : (⟨S500000, .i32⟩ : BufTy).Contents (Elt F)) : (⟨S500000x1, .i32⟩ : BufTy).Contents (Elt F) :=
  broadcastInDim S500000x1 ![0] bcast_S500000_S500000x1_0
    (select (cmpi .slt v (broadcastInDim S500000 ![] bcast_S_S500000 (constantI S_ 32 0#32)))
      (addi v (broadcastInDim S500000 ![] bcast_S_S500000 (constantI S_ 32 100000#32))) v)

/-- An index vector as a column, as given. -/
def colIdx (v : (⟨S500000, .i32⟩ : BufTy).Contents (Elt F)) : (⟨S500000x1, .i32⟩ : BufTy).Contents (Elt F) :=
  broadcastInDim S500000x1 ![0] bcast_S500000_S500000x1_0 v

/-- The rows of a table picked by an index vector. -/
def rowsAt (x : (⟨S100000x256, .f32⟩ : BufTy).Contents (Elt F)) (v : (⟨S500000, .i32⟩ : BufTy).Contents (Elt F)) : (⟨S500000x256, .f32⟩ : BufTy).Contents (Elt F) :=
  Host.gather gather_S100000x256_S500000x1_S500000x256_1_0_n_n_0_1_1256 x (wrapIdx (F := F) v)

/-- The product row of every edge. -/
def edgeProd (T hd : (⟨S100000x256, .f32⟩ : BufTy).Contents (Elt F)) (src dst : (⟨S500000, .i32⟩ : BufTy).Contents (Elt F)) : (⟨S500000x256, .f32⟩ : BufTy).Contents (Elt F) :=
  mulf (rowsAt T src) (rowsAt hd dst)

/-- The score of every edge: the exponential of its product row against the attention row, summed along the row. -/
def score (X : (⟨S500000x256, .f32⟩ : BufTy).Contents (Elt F)) (wa : (⟨S1x256, .f32⟩ : BufTy).Contents (Elt F)) : (⟨S500000x1, .f32⟩ : BufTy).Contents (Elt F) :=
  Host.exp (broadcastInDim S500000x1 ![0] bcast_S500000_S500000x1_0
    (Host.reduceAdd (mulf X (broadcastInDim S500000x256 ![0, 1] bcast_S1x256_S500000x256_0_1 wa))
      (constant S_ .f32 0x00000000#32) reducesTo_S500000x256_S500000_d1 h_S_))

/-- The weighted source rows summed per destination node. -/
def numer (A : (⟨S500000x256, .f32⟩ : BufTy).Contents (Elt F)) (s : (⟨S500000x1, .f32⟩ : BufTy).Contents (Elt F)) (dst : (⟨S500000, .i32⟩ : BufTy).Contents (Elt F)) : (⟨S100000x256, .f32⟩ : BufTy).Contents (Elt F) :=
  Host.scatterAdd scatter_S100000x256_S500000x1_S500000x256_1_0_0_1
    (broadcastInDim S100000x256 ![] bcast_S_S100000x256 (constant S_ .f32 0x00000000#32)) (colIdx (F := F) dst)
    (mulf A (broadcastInDim S500000x256 ![0, 1] bcast_S500000x1_S500000x256_0_1 s))

/-- The scores summed per destination node. -/
def denom (s : (⟨S500000x1, .f32⟩ : BufTy).Contents (Elt F)) (dst : (⟨S500000, .i32⟩ : BufTy).Contents (Elt F)) : (⟨S100000x1, .f32⟩ : BufTy).Contents (Elt F) :=
  Host.scatterAdd scatter_S100000x1_S500000x1_S500000x1_1_0_0_1
    (broadcastInDim S100000x1 ![] bcast_S_S100000x1 (constant S_ .f32 0x00000000#32)) (colIdx (F := F) dst) s

/-- A divisor that is zero replaced by one. -/
def guard (d : (⟨S100000x1, .f32⟩ : BufTy).Contents (Elt F)) : (⟨S100000x1, .f32⟩ : BufTy).Contents (Elt F) :=
  select (cmpf .oeq d (broadcastInDim S100000x1 ![] bcast_S_S100000x1 (constant S_ .f32 0x00000000#32)))
    (broadcastInDim S100000x1 ![] bcast_S_S100000x1 (constant S_ .f32 0x3F800000#32)) d

/-- The aggregation: the summed weighted rows over the guarded summed scores. -/
def aggregate (A : (⟨S500000x256, .f32⟩ : BufTy).Contents (Elt F)) (s : (⟨S500000x1, .f32⟩ : BufTy).Contents (Elt F)) (dst : (⟨S500000, .i32⟩ : BufTy).Contents (Elt F)) : (⟨S100000x256, .f32⟩ : BufTy).Contents (Elt F) :=
  Host.divf (numer A s dst) (broadcastInDim S100000x256 ![0, 1] bcast_S100000x1_S100000x256_0_1 (guard (denom s dst)))

/-- One edge type, from the projected source features on. -/
def edgeType (T hs hd : (⟨S100000x256, .f32⟩ : BufTy).Contents (Elt F)) (src dst : (⟨S500000, .i32⟩ : BufTy).Contents (Elt F)) (wa : (⟨S1x256, .f32⟩ : BufTy).Contents (Elt F)) : (⟨S100000x256, .f32⟩ : BufTy).Contents (Elt F) :=
  aggregate (rowsAt hs src) (score (edgeProd T hd src dst) wa) dst

end Cert.Stages

end
-- ==== Proof.KernelFold.lean ====
/-
  The kernel program's run, read at each region's entry and at the result.

  The run is a fold through the program: stretches of host operations, each rewriting the buffers of its results, and
  four regions, each rewriting its output array and leaving its input arrays as entered.  Reading the fold at one
  buffer walks back from a boundary to the place that wrote the buffer:

  * an argument array is written nowhere, so at every boundary it holds its launch contents;
  * the first two regions enter on a feature array and a transposed weight; each one's output (the projected
    features) feeds the host stages of one edge type, which aggregate it, with the argument arrays, into one array;
  * the last two regions enter on those two aggregations and on the scale and shift rows as one-row matrices;
  * the result stacks the last two regions' outputs.

  The host stages of an edge type are the functions of `Cert.Stages`: the composition of a stretch's operations at
  the buffer of the aggregation is `edgeType` of the stretch's inputs, by unfolding.
-/
import proofs.«136471_j9208409883351_2_alg».proof.Proof.Gen.KernelIdeal.Frame
import proofs.«136471_j9208409883351_2_alg».proof.Proof.Stages

set_option maxRecDepth 16384

noncomputable section

namespace Cert.KernelFold

open Idealize.ShloMosaic Idealize.ShloMosaic.TcCoe Idealize.ShloMosaic.Tactic
open Cert.KernelIdeal Cert.KernelIdeal.Gen Cert.Stages

variable {F : FTy → Type} [FloatOps F]
variable (m : (ℓ : Loc nD τ sig) → Buf (Elt F) ℓ) (ρ : Dev nD → PrngReg) (c : Dev nD)

/-- A stretch of host operations keeps the contents of a buffer that none of them writes. -/
macro "stretch_keeps " ops:ident : tactic =>
  `(tactic| (refine StableHlo.after_of_forall_not_mem _ _ (List.forall_iff_forall_mem.mp ?_)
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-! ## The argument arrays at each boundary

No host operation writes an argument array, and a region either reads it through an input window (which leaves the
array as entered) or does not own it; so at every boundary an argument array holds its launch contents. Each lemma
steps one boundary back. -/

-- after the first stretch (it writes the transposed first weight only)
theorem W1_arg0 : W1 m ρ c (Proc.devRef .tc main_arg0) = m ((c.tc : Thread nD τ).loc main_arg0) :=
  (show W1 m ρ c (Proc.devRef .tc main_arg0) = W0 m ρ c (Proc.devRef .tc main_arg0) by stretch_keeps hostOps0).trans rfl
theorem W1_arg1 : W1 m ρ c (Proc.devRef .tc main_arg1) = m ((c.tc : Thread nD τ).loc main_arg1) :=
  (show W1 m ρ c (Proc.devRef .tc main_arg1) = W0 m ρ c (Proc.devRef .tc main_arg1) by stretch_keeps hostOps0).trans rfl
theorem W1_arg2 : W1 m ρ c (Proc.devRef .tc main_arg2) = m ((c.tc : Thread nD τ).loc main_arg2) :=
  (show W1 m ρ c (Proc.devRef .tc main_arg2) = W0 m ρ c (Proc.devRef .tc main_arg2) by stretch_keeps hostOps0).trans rfl
theorem W1_arg3 : W1 m ρ c (Proc.devRef .tc main_arg3) = m ((c.tc : Thread nD τ).loc main_arg3) :=
  (show W1 m ρ c (Proc.devRef .tc main_arg3) = W0 m ρ c (Proc.devRef .tc main_arg3) by stretch_keeps hostOps0).trans rfl
theorem W1_arg4 : W1 m ρ c (Proc.devRef .tc main_arg4) = m ((c.tc : Thread nD τ).loc main_arg4) :=
  (show W1 m ρ c (Proc.devRef .tc main_arg4) = W0 m ρ c (Proc.devRef .tc main_arg4) by stretch_keeps hostOps0).trans rfl
theorem W1_arg5 : W1 m ρ c (Proc.devRef .tc main_arg5) = m ((c.tc : Thread nD τ).loc main_arg5) :=
  (show W1 m ρ c (Proc.devRef .tc main_arg5) = W0 m ρ c (Proc.devRef .tc main_arg5) by stretch_keeps hostOps0).trans rfl
theorem W1_arg7 : W1 m ρ c (Proc.devRef .tc main_arg7) = m ((c.tc : Thread nD τ).loc main_arg7) :=
  (show W1 m ρ c (Proc.devRef .tc main_arg7) = W0 m ρ c (Proc.devRef .tc main_arg7) by stretch_keeps hostOps0).trans rfl
theorem W1_arg8 : W1 m ρ c (Proc.devRef .tc main_arg8) = m ((c.tc : Thread nD τ).loc main_arg8) :=
  (show W1 m ρ c (Proc.devRef .tc main_arg8) = W0 m ρ c (Proc.devRef .tc main_arg8) by stretch_keeps hostOps0).trans rfl
theorem W1_arg9 : W1 m ρ c (Proc.devRef .tc main_arg9) = m ((c.tc : Thread nD τ).loc main_arg9) :=
  (show W1 m ρ c (Proc.devRef .tc main_arg9) = W0 m ρ c (Proc.devRef .tc main_arg9) by stretch_keeps hostOps0).trans rfl
theorem W1_arg10 : W1 m ρ c (Proc.devRef .tc main_arg10) = m ((c.tc : Thread nD τ).loc main_arg10) :=
  (show W1 m ρ c (Proc.devRef .tc main_arg10) = W0 m ρ c (Proc.devRef .tc main_arg10) by stretch_keeps hostOps0).trans rfl
theorem W1_arg11 : W1 m ρ c (Proc.devRef .tc main_arg11) = m ((c.tc : Thread nD τ).loc main_arg11) :=
  (show W1 m ρ c (Proc.devRef .tc main_arg11) = W0 m ρ c (Proc.devRef .tc main_arg11) by stretch_keeps hostOps0).trans rfl

-- at the first region's exit: its first window is an input window on the first feature array
theorem W2_arg0 : W2 m ρ c (Proc.devRef .tc main_arg0) = m ((c.tc : Thread nD τ).loc main_arg0) :=
  ((W2_arr m ρ c 0).trans (((dat0 (V1 m ρ) c).arrAt_in 0 rfl _).trans (A_eq0 (V1 m ρ) c 0))).trans (W1_arg0 m ρ c)
theorem W2_arg1 : W2 m ρ c (Proc.devRef .tc main_arg1) = m ((c.tc : Thread nD τ).loc main_arg1) :=
  (W2_of_ne m ρ c main_arg1 (by decide)).trans (W1_arg1 m ρ c)
theorem W2_arg2 : W2 m ρ c (Proc.devRef .tc main_arg2) = m ((c.tc : Thread nD τ).loc main_arg2) :=
  (W2_of_ne m ρ c main_arg2 (by decide)).trans (W1_arg2 m ρ c)
theorem W2_arg3 : W2 m ρ c (Proc.devRef .tc main_arg3) = m ((c.tc : Thread nD τ).loc main_arg3) :=
  (W2_of_ne m ρ c main_arg3 (by decide)).trans (W1_arg3 m ρ c)
theorem W2_arg4 : W2 m ρ c (Proc.devRef .tc main_arg4) = m ((c.tc : Thread nD τ).loc main_arg4) :=
  (W2_of_ne m ρ c main_arg4 (by decide)).trans (W1_arg4 m ρ c)
theorem W2_arg5 : W2 m ρ c (Proc.devRef .tc main_arg5) = m ((c.tc : Thread nD τ).loc main_arg5) :=
  (W2_of_ne m ρ c main_arg5 (by decide)).trans (W1_arg5 m ρ c)
theorem W2_arg7 : W2 m ρ c (Proc.devRef .tc main_arg7) = m ((c.tc : Thread nD τ).loc main_arg7) :=
  (W2_of_ne m ρ c main_arg7 (by decide)).trans (W1_arg7 m ρ c)
theorem W2_arg8 : W2 m ρ c (Proc.devRef .tc main_arg8) = m ((c.tc : Thread nD τ).loc main_arg8) :=
  (W2_of_ne m ρ c main_arg8 (by decide)).trans (W1_arg8 m ρ c)
theorem W2_arg9 : W2 m ρ c (Proc.devRef .tc main_arg9) = m ((c.tc : Thread nD τ).loc main_arg9) :=
  (W2_of_ne m ρ c main_arg9 (by decide)).trans (W1_arg9 m ρ c)
theorem W2_arg10 : W2 m ρ c (Proc.devRef .tc main_arg10) = m ((c.tc : Thread nD τ).loc main_arg10) :=
  (W2_of_ne m ρ c main_arg10 (by decide)).trans (W1_arg10 m ρ c)
theorem W2_arg11 : W2 m ρ c (Proc.devRef .tc main_arg11) = m ((c.tc : Thread nD τ).loc main_arg11) :=
  (W2_of_ne m ρ c main_arg11 (by decide)).trans (W1_arg11 m ρ c)

-- through the three stretches of the first edge type
theorem W3_arg0 : W3 m ρ c (Proc.devRef .tc main_arg0) = m ((c.tc : Thread nD τ).loc main_arg0) :=
  (show W3 m ρ c (Proc.devRef .tc main_arg0) = W2 m ρ c (Proc.devRef .tc main_arg0) by stretch_keeps hostOps1).trans (W2_arg0 m ρ c)
theorem W3_arg1 : W3 m ρ c (Proc.devRef .tc main_arg1) = m ((c.tc : Thread nD τ).loc main_arg1) :=
  (show W3 m ρ c (Proc.devRef .tc main_arg1) = W2 m ρ c (Proc.devRef .tc main_arg1) by stretch_keeps hostOps1).trans (W2_arg1 m ρ c)
theorem W3_arg4 : W3 m ρ c (Proc.devRef .tc main_arg4) = m ((c.tc : Thread nD τ).loc main_arg4) :=
  (show W3 m ρ c (Proc.devRef .tc main_arg4) = W2 m ρ c (Proc.devRef .tc main_arg4) by stretch_keeps hostOps1).trans (W2_arg4 m ρ c)
theorem W3_arg5 : W3 m ρ c (Proc.devRef .tc main_arg5) = m ((c.tc : Thread nD τ).loc main_arg5) :=
  (show W3 m ρ c (Proc.devRef .tc main_arg5) = W2 m ρ c (Proc.devRef .tc main_arg5) by stretch_keeps hostOps1).trans (W2_arg5 m ρ c)
theorem W3_arg9 : W3 m ρ c (Proc.devRef .tc main_arg9) = m ((c.tc : Thread nD τ).loc main_arg9) :=
  (show W3 m ρ c (Proc.devRef .tc main_arg9) = W2 m ρ c (Proc.devRef .tc main_arg9) by stretch_keeps hostOps1).trans (W2_arg9 m ρ c)
theorem W3_arg10 : W3 m ρ c (Proc.devRef .tc main_arg10) = m ((c.tc : Thread nD τ).loc main_arg10) :=
  (show W3 m ρ c (Proc.devRef .tc main_arg10) = W2 m ρ c (Proc.devRef .tc main_arg10) by stretch_keeps hostOps1).trans (W2_arg10 m ρ c)
theorem W3_arg11 : W3 m ρ c (Proc.devRef .tc main_arg11) = m ((c.tc : Thread nD τ).loc main_arg11) :=
  (show W3 m ρ c (Proc.devRef .tc main_arg11) = W2 m ρ c (Proc.devRef .tc main_arg11) by stretch_keeps hostOps1).trans (W2_arg11 m ρ c)
theorem W4_arg0 : W4 m ρ c (Proc.devRef .tc main_arg0) = m ((c.tc : Thread nD τ).loc main_arg0) :=
  (show W4 m ρ c (Proc.devRef .tc main_arg0) = W3 m ρ c (Proc.devRef .tc main_arg0) by stretch_keeps hostOps1_1).trans (W3_arg0 m ρ c)
theorem W4_arg1 : W4 m ρ c (Proc.devRef .tc main_arg1) = m ((c.tc : Thread nD τ).loc main_arg1) :=
  (show W4 m ρ c (Proc.devRef .tc main_arg1) = W3 m ρ c (Proc.devRef .tc main_arg1) by stretch_keeps hostOps1_1).trans (W3_arg1 m ρ c)
theorem W4_arg4 : W4 m ρ c (Proc.devRef .tc main_arg4) = m ((c.tc : Thread nD τ).loc main_arg4) :=
  (show W4 m ρ c (Proc.devRef .tc main_arg4) = W3 m ρ c (Proc.devRef .tc main_arg4) by stretch_keeps hostOps1_1).trans (W3_arg4 m ρ c)
theorem W4_arg5 : W4 m ρ c (Proc.devRef .tc main_arg5) = m ((c.tc : Thread nD τ).loc main_arg5) :=
  (show W4 m ρ c (Proc.devRef .tc main_arg5) = W3 m ρ c (Proc.devRef .tc main_arg5) by stretch_keeps hostOps1_1).trans (W3_arg5 m ρ c)
theorem W4_arg9 : W4 m ρ c (Proc.devRef .tc main_arg9) = m ((c.tc : Thread nD τ).loc main_arg9) :=
  (show W4 m ρ c (Proc.devRef .tc main_arg9) = W3 m ρ c (Proc.devRef .tc main_arg9) by stretch_keeps hostOps1_1).trans (W3_arg9 m ρ c)
theorem W4_arg10 : W4 m ρ c (Proc.devRef .tc main_arg10) = m ((c.tc : Thread nD τ).loc main_arg10) :=
  (show W4 m ρ c (Proc.devRef .tc main_arg10) = W3 m ρ c (Proc.devRef .tc main_arg10) by stretch_keeps hostOps1_1).trans (W3_arg10 m ρ c)
theorem W4_arg11 : W4 m ρ c (Proc.devRef .tc main_arg11) = m ((c.tc : Thread nD τ).loc main_arg11) :=
  (show W4 m ρ c (Proc.devRef .tc main_arg11) = W3 m ρ c (Proc.devRef .tc main_arg11) by stretch_keeps hostOps1_1).trans (W3_arg11 m ρ c)
theorem W5_arg0 : W5 m ρ c (Proc.devRef .tc main_arg0) = m ((c.tc : Thread nD τ).loc main_arg0) :=
  (show W5 m ρ c (Proc.devRef .tc main_arg0) = W4 m ρ c (Proc.devRef .tc main_arg0) by stretch_keeps hostOps1_2).trans (W4_arg0 m ρ c)
theorem W5_arg1 : W5 m ρ c (Proc.devRef .tc main_arg1) = m ((c.tc : Thread nD τ).loc main_arg1) :=
  (show W5 m ρ c (Proc.devRef .tc main_arg1) = W4 m ρ c (Proc.devRef .tc main_arg1) by stretch_keeps hostOps1_2).trans (W4_arg1 m ρ c)
theorem W5_arg4 : W5 m ρ c (Proc.devRef .tc main_arg4) = m ((c.tc : Thread nD τ).loc main_arg4) :=
  (show W5 m ρ c (Proc.devRef .tc main_arg4) = W4 m ρ c (Proc.devRef .tc main_arg4) by stretch_keeps hostOps1_2).trans (W4_arg4 m ρ c)
theorem W5_arg5 : W5 m ρ c (Proc.devRef .tc main_arg5) = m ((c.tc : Thread nD τ).loc main_arg5) :=
  (show W5 m ρ c (Proc.devRef .tc main_arg5) = W4 m ρ c (Proc.devRef .tc main_arg5) by stretch_keeps hostOps1_2).trans (W4_arg5 m ρ c)
theorem W5_arg9 : W5 m ρ c (Proc.devRef .tc main_arg9) = m ((c.tc : Thread nD τ).loc main_arg9) :=
  (show W5 m ρ c (Proc.devRef .tc main_arg9) = W4 m ρ c (Proc.devRef .tc main_arg9) by stretch_keeps hostOps1_2).trans (W4_arg9 m ρ c)
theorem W5_arg10 : W5 m ρ c (Proc.devRef .tc main_arg10) = m ((c.tc : Thread nD τ).loc main_arg10) :=
  (show W5 m ρ c (Proc.devRef .tc main_arg10) = W4 m ρ c (Proc.devRef .tc main_arg10) by stretch_keeps hostOps1_2).trans (W4_arg10 m ρ c)
theorem W5_arg11 : W5 m ρ c (Proc.devRef .tc main_arg11) = m ((c.tc : Thread nD τ).loc main_arg11) :=
  (show W5 m ρ c (Proc.devRef .tc main_arg11) = W4 m ρ c (Proc.devRef .tc main_arg11) by stretch_keeps hostOps1_2).trans (W4_arg11 m ρ c)

-- at the second region's exit: its first window is an input window on the second feature array
theorem W6_arg0 : W6 m ρ c (Proc.devRef .tc main_arg0) = m ((c.tc : Thread nD τ).loc main_arg0) :=
  (W6_of_ne m ρ c main_arg0 (by decide)).trans (W5_arg0 m ρ c)
theorem W6_arg1 : W6 m ρ c (Proc.devRef .tc main_arg1) = m ((c.tc : Thread nD τ).loc main_arg1) :=
  ((W6_arr m ρ c 0).trans (((dat1 (V5 m ρ) c).arrAt_in 0 rfl _).trans (A_eq1 (V5 m ρ) c 0))).trans (W5_arg1 m ρ c)
theorem W6_arg4 : W6 m ρ c (Proc.devRef .tc main_arg4) = m ((c.tc : Thread nD τ).loc main_arg4) :=
  (W6_of_ne m ρ c main_arg4 (by decide)).trans (W5_arg4 m ρ c)
theorem W6_arg5 : W6 m ρ c (Proc.devRef .tc main_arg5) = m ((c.tc : Thread nD τ).loc main_arg5) :=
  (W6_of_ne m ρ c main_arg5 (by decide)).trans (W5_arg5 m ρ c)
theorem W6_arg9 : W6 m ρ c (Proc.devRef .tc main_arg9) = m ((c.tc : Thread nD τ).loc main_arg9) :=
  (W6_of_ne m ρ c main_arg9 (by decide)).trans (W5_arg9 m ρ c)
theorem W6_arg10 : W6 m ρ c (Proc.devRef .tc main_arg10) = m ((c.tc : Thread nD τ).loc main_arg10) :=
  (W6_of_ne m ρ c main_arg10 (by decide)).trans (W5_arg10 m ρ c)
theorem W6_arg11 : W6 m ρ c (Proc.devRef .tc main_arg11) = m ((c.tc : Thread nD τ).loc main_arg11) :=
  (W6_of_ne m ρ c main_arg11 (by decide)).trans (W5_arg11 m ρ c)

/-! ## The first edge type

The three stretches between the first two regions compute, from the first region's output (the projected source
features) and the argument arrays, the aggregation of the first edge type into the buffer of `main_v42`. -/

/-- The first region's output array at its exit. -/
theorem W2_out : W2 m ρ c (Proc.devRef .tc main_v1) = (dat0 (V1 m ρ) c).arrAt 2 cfg0.N := W2_arr m ρ c 2

/-- The aggregation of the first edge type, over the contents at the first region's exit. -/
theorem W5_agg_fold : W5 m ρ c (Proc.devRef .tc main_v42)
    = edgeType (W2 m ρ c (Proc.devRef .tc main_v1)) (W2 m ρ c (Proc.devRef .tc main_arg0)) (W2 m ρ c (Proc.devRef .tc main_arg1))
        (W2 m ρ c (Proc.devRef .tc main_arg2)) (W2 m ρ c (Proc.devRef .tc main_arg3)) (W2 m ρ c (Proc.devRef .tc main_arg8)) := by
  show StableHlo.after hostOps1_2 (StableHlo.after hostOps1_1 (StableHlo.after hostOps1 (W2 m ρ c))) (Proc.devRef .tc main_v42) = _
  after_results_simp
  rfl

/-- The same over the launch memory and the first region's output. -/
theorem W5_agg : W5 m ρ c (Proc.devRef .tc main_v42)
    = edgeType ((dat0 (V1 m ρ) c).arrAt 2 cfg0.N) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg8)) := by
  rw [W5_agg_fold, W2_out, W2_arg0, W2_arg1, W2_arg2, W2_arg3, W2_arg8]

/-- The transposed second weight, written by the last stretch before the second region. -/
theorem W5_wT : W5 m ρ c (Proc.devRef .tc main_v43)
    = transpose S256x256 [1, 0] (m ((c.tc : Thread nD τ).loc main_arg7)) transposes_S256x256_S256x256_1_0 := by
  show StableHlo.after hostOps1_2 (W4 m ρ c) (Proc.devRef .tc main_v43) = _
  after_results
  rw [W2_arg7]

/-! ## The second edge type -/

/-- The second region's output array at its exit. -/
theorem W6_out : W6 m ρ c (Proc.devRef .tc main_v44) = (dat1 (V5 m ρ) c).arrAt 2 cfg1.N := W6_arr m ρ c 2

/-- The aggregation of the second edge type, over the contents at the second region's exit. -/
theorem W9_agg_fold : W9 m ρ c (Proc.devRef .tc main_v85)
    = edgeType (W6 m ρ c (Proc.devRef .tc main_v44)) (W6 m ρ c (Proc.devRef .tc main_arg1)) (W6 m ρ c (Proc.devRef .tc main_arg0))
        (W6 m ρ c (Proc.devRef .tc main_arg4)) (W6 m ρ c (Proc.devRef .tc main_arg5)) (W6 m ρ c (Proc.devRef .tc main_arg9)) := by
  show StableHlo.after hostOps2_2 (StableHlo.after hostOps2_1 (StableHlo.after hostOps2 (W6 m ρ c))) (Proc.devRef .tc main_v85) = _
  after_results_simp
  rfl

/-- The same over the launch memory and the second region's output. -/
theorem W9_agg : W9 m ρ c (Proc.devRef .tc main_v85)
    = edgeType ((dat1 (V5 m ρ) c).arrAt 2 cfg1.N) (m ((c.tc : Thread nD τ).loc main_arg1)) (m ((c.tc : Thread nD τ).loc main_arg0))
        (m ((c.tc : Thread nD τ).loc main_arg4)) (m ((c.tc : Thread nD τ).loc main_arg5)) (m ((c.tc : Thread nD τ).loc main_arg9)) := by
  rw [W9_agg_fold, W6_out, W6_arg1, W6_arg0, W6_arg4, W6_arg5, W6_arg9]

/-- The scale row as a one-row matrix, written by the last stretch before the third region. -/
theorem W9_scale : W9 m ρ c (Proc.devRef .tc main_v86)
    = shapeCast S1x256 (m ((c.tc : Thread nD τ).loc main_arg10)) shapeCasts_S256_S1x256 := by
  show StableHlo.after hostOps2_2 (W8 m ρ c) (Proc.devRef .tc main_v86) = _
  after_results
  rw [W6_arg10] <;> rfl

/-- The shift row as a one-row matrix. -/
theorem W9_shift : W9 m ρ c (Proc.devRef .tc main_v87)
    = shapeCast S1x256 (m ((c.tc : Thread nD τ).loc main_arg11)) shapeCasts_S256_S1x256 := by
  show StableHlo.after hostOps2_2 (W8 m ρ c) (Proc.devRef .tc main_v87) = _
  after_results
  rw [W6_arg11] <;> rfl

/-- The first edge type's aggregation is still in its buffer when the last region is entered: neither the second
    edge type's stretches nor the second and third regions write it. -/
theorem W10_agg : W10 m ρ c (Proc.devRef .tc main_v42) = W5 m ρ c (Proc.devRef .tc main_v42) :=
  calc W10 m ρ c (Proc.devRef .tc main_v42)
    _ = W9 m ρ c (Proc.devRef .tc main_v42) := W10_of_ne m ρ c main_v42 (by decide)
    _ = W8 m ρ c (Proc.devRef .tc main_v42) := by stretch_keeps hostOps2_2
    _ = W7 m ρ c (Proc.devRef .tc main_v42) := by stretch_keeps hostOps2_1
    _ = W6 m ρ c (Proc.devRef .tc main_v42) := by stretch_keeps hostOps2
    _ = W5 m ρ c (Proc.devRef .tc main_v42) := W6_of_ne m ρ c main_v42 (by decide)

/-! ## The regions' entry contents and the result -/

theorem entry0_x : V1 m ρ c (Pipeline.arrRef spec0 0) = m ((c.tc : Thread nD τ).loc main_arg0) :=
  W1_arg0 m ρ c

theorem entry0_w : V1 m ρ c (Pipeline.arrRef spec0 1)
    = transpose S256x256 [1, 0] (m ((c.tc : Thread nD τ).loc main_arg6)) transposes_S256x256_S256x256_1_0 := by
  show StableHlo.after hostOps0 (W0 m ρ c) (Proc.devRef .tc main_v0) = _
  after_results

theorem entry1_x : V5 m ρ c (Pipeline.arrRef spec1 0) = m ((c.tc : Thread nD τ).loc main_arg1) :=
  W5_arg1 m ρ c

theorem entry1_w : V5 m ρ c (Pipeline.arrRef spec1 1)
    = transpose S256x256 [1, 0] (m ((c.tc : Thread nD τ).loc main_arg7)) transposes_S256x256_S256x256_1_0 :=
  W5_wT m ρ c

theorem entry2_h : V9 m ρ c (Pipeline.arrRef spec2 0)
    = edgeType ((dat1 (V5 m ρ) c).arrAt 2 cfg1.N) (m ((c.tc : Thread nD τ).loc main_arg1)) (m ((c.tc : Thread nD τ).loc main_arg0))
        (m ((c.tc : Thread nD τ).loc main_arg4)) (m ((c.tc : Thread nD τ).loc main_arg5)) (m ((c.tc : Thread nD τ).loc main_arg9)) :=
  W9_agg m ρ c

theorem entry2_g : V9 m ρ c (Pipeline.arrRef spec2 1)
    = shapeCast S1x256 (m ((c.tc : Thread nD τ).loc main_arg10)) shapeCasts_S256_S1x256 :=
  W9_scale m ρ c

theorem entry2_b : V9 m ρ c (Pipeline.arrRef spec2 2)
    = shapeCast S1x256 (m ((c.tc : Thread nD τ).loc main_arg11)) shapeCasts_S256_S1x256 :=
  W9_shift m ρ c

theorem entry3_h : V10 m ρ c (Pipeline.arrRef spec3 0)
    = edgeType ((dat0 (V1 m ρ) c).arrAt 2 cfg0.N) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg8)) :=
  (W10_agg m ρ c).trans (W5_agg m ρ c)

/-- The third region reads the scale row through an input window, which leaves it as entered. -/
theorem entry3_g : V10 m ρ c (Pipeline.arrRef spec3 1)
    = shapeCast S1x256 (m ((c.tc : Thread nD τ).loc main_arg10)) shapeCasts_S256_S1x256 :=
  ((W10_arr m ρ c 1).trans (((dat2 (V9 m ρ) c).arrAt_in 1 rfl _).trans (A_eq2 (V9 m ρ) c 1))).trans (W9_scale m ρ c)

theorem entry3_b : V10 m ρ c (Pipeline.arrRef spec3 2)
    = shapeCast S1x256 (m ((c.tc : Thread nD τ).loc main_arg11)) shapeCasts_S256_S1x256 :=
  ((W10_arr m ρ c 2).trans (((dat2 (V9 m ρ) c).arrAt_in 2 rfl _).trans (A_eq2 (V9 m ρ) c 2))).trans (W9_shift m ρ c)

/-- The result: the last two regions' outputs, each as one slab, stacked. -/
theorem result : W12 m ρ c (Proc.devRef .tc main_v92)
    = concatenate S2x100000x256 0
        [⟨S1x100000x256, broadcastInDim S1x100000x256 ![1, 2] bcast_S100000x256_S1x100000x256_1_2 ((dat2 (V9 m ρ) c).arrAt 3 cfg2.N)⟩,
         ⟨S1x100000x256, broadcastInDim S1x100000x256 ![1, 2] bcast_S100000x256_S1x100000x256_1_2 ((dat3 (V10 m ρ) c).arrAt 3 cfg3.N)⟩]
        concatenates_S1x100000x256_S1x100000x256_S2x100000x256_d0 := by
  have h88 : W11 m ρ c (Proc.devRef .tc main_v88) = (dat2 (V9 m ρ) c).arrAt 3 cfg2.N :=
    (W11_of_ne m ρ c main_v88 (by decide)).trans (W10_arr m ρ c 3)
  have h89 : W11 m ρ c (Proc.devRef .tc main_v89) = (dat3 (V10 m ρ) c).arrAt 3 cfg3.N := W11_arr m ρ c 3
  show StableHlo.after hostOps4 (W11 m ρ c) (Proc.devRef .tc main_v92) = _
  after_results_simp
  refine congrArg₂ (fun a b => concatenate S2x100000x256 0 [⟨S1x100000x256, a⟩, ⟨S1x100000x256, b⟩]
    concatenates_S1x100000x256_S1x100000x256_S2x100000x256_d0) ?_ ?_
  · after_results_simp
    rw [h88]
  · after_results_simp
    rw [h89]

end Cert.KernelFold

end
-- ==== Proof.LibPlainDot.lean ====
/-
  A plain matrix product read at an entry.  For dimension numbers that contract the left operand's second axis with the
  right operand's first (no batch axes), the product of an M × K by a K × N array at entry (r, c) is the sum over
  k < K of left(r, k) · right(k, c) — for the kernel's product into a zero accumulator and for the host's product
  alike.  The contraction index of the dimension numbers is a one-coordinate tuple; the sum is re-indexed by that
  coordinate.
-/
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}
  (D : DotDims (⟨2, ![M, K]⟩ : Shape) (⟨2, ![K, N]⟩ : Shape) (⟨2, ![M, N]⟩ : Shape))
  (hrank : D.contr.rank = 1) (hsize : D.contr.size ⟨0, by omega⟩ = K)
  (hlc : D.lhsContracting = [1]) (hrc : D.rhsContracting = [0])
  (hL0 : ∀ j k, (D.lhsIdx j k 0).val = (j 0).val) (hR1 : ∀ j k, (D.rhsIdx j k 1).val = (j 1).val)

include hlc hL0 in
/-- The left operand's index at output (r, c) and contraction coordinate k is (r, k). -/
theorem lhsIdx_eq (r : Fin M) (c : Fin N) (k : Fin K) :
    D.lhsIdx (ix2 r c) ((contrEquiv1 D K hrank hsize).symm k) = ix2 r k := by
  funext a; apply Fin.ext
  match a with
  | ⟨0, _⟩ => exact hL0 _ _
  | ⟨1, _⟩ => exact (D.lhsIdx_val_of_single hlc _ _).trans (contrEquiv1_symm_val D K hrank hsize k)

include hrc hR1 in
/-- The right operand's index there is (k, c). -/
theorem rhsIdx_eq (r : Fin M) (c : Fin N) (k : Fin K) :
    D.rhsIdx (ix2 r c) ((contrEquiv1 D K hrank hsize).symm k) = ix2 k c := by
  funext a; apply Fin.ext
  match a with
  | ⟨0, _⟩ => exact (D.rhsIdx_val_of_single hrc _ _).trans (contrEquiv1_symm_val D K hrank hsize k)
  | ⟨1, _⟩ => exact hR1 _ _

include hrank hsize hlc hrc hL0 hR1 in
/-- The sum over the contraction index is the sum over k < K of the two operands at (r, k) and (k, c). -/
theorem sum_contr (lhs : FVec Ideal (⟨2, ![M, K]⟩ : Shape) φ₁) (rhs : FVec Ideal (⟨2, ![K, N]⟩ : Shape) φ₂) (r : Fin M) (c : Fin N) :
    (∑ q : D.contr.Idx, lhs (D.lhsIdx (ix2 r c) q) * rhs (D.rhsIdx (ix2 r c) q)) = ∑ k : Fin K, lhs (ix2 r k) * rhs (ix2 k c) := by
  rw [← Equiv.sum_comp (contrEquiv1 D K hrank hsize).symm]
  refine Finset.sum_congr rfl fun k _ => ?_
  rw [lhsIdx_eq D hrank hsize hlc hL0 r c k, rhsIdx_eq D hrank hsize hrc hR1 r c k]

include hrank hsize hlc hrc hL0 hR1 in
/-- The kernel's product into the zero accumulator, at an entry. -/
theorem matmul_zero_apply (prec : Option ContractPrecision) (lhs : FVec Ideal (⟨2, ![M, K]⟩ : Shape) φ₁)
    (rhs : FVec Ideal (⟨2, ![K, N]⟩ : Shape) φ₂) (r : Fin M) (c : Fin N) :
    FloatOps.matmul D prec lhs rhs (constant (⟨2, ![M, N]⟩ : Shape) .f32 0x00000000#32) (ix2 r c)
      = ∑ k : Fin K, lhs (ix2 r k) * rhs (ix2 k c) :=
  (Ideal.matmul_constant_zero_apply D prec lhs rhs (ix2 r c)).trans (sum_contr D hrank hsize hlc hrc hL0 hR1 lhs rhs r c)

include hrank hsize hlc hrc hL0 hR1 in
/-- The host's product, at an entry, whatever its schedule. -/
theorem dotGeneral_apply (prec : Option ContractPrecision) (sched : HostSchedule) (lhs : FVec Ideal (⟨2, ![M, K]⟩ : Shape) φ₁)
    (rhs : FVec Ideal (⟨2, ![K, N]⟩ : Shape) φ₂) (r : Fin M) (c : Fin N) :
    FloatOps.dotGeneral D prec sched lhs rhs (ix2 r c) = ∑ k : Fin K, lhs (ix2 r k) * rhs (ix2 k c) :=
  (Ideal.dotGeneral_apply D prec sched lhs rhs (ix2 r c)).trans (sum_contr D hrank hsize hlc hrc hL0 hR1 lhs rhs r c)

end Cert.LibPlainDot

end
-- ==== Proof.LibRowTileDot.lean ====
/-
  A row tile of a matrix product.  Cut the rows of an M × K array X into tiles of B rows; the tile that holds row r at its
  local row p is a B × K array T with T(p, k) = X(r, k).  Multiplying the tile by the whole K × N array W gives, at the
  entry (p, c), the sum over k < K of T(p, k) · W(k, c) = X(r, k) · W(k, c): the entry (r, c) of the whole product X · W.
  Nothing but the two sums being the same sum term by term is used, so the statement holds on the extended reals with
  no finiteness assumption.  The tile's product is the kernel's (into a zero accumulator); the whole product is the
  host's.  Each operand of the tile's product may be a copy of the whole array's rows or columns in any float format:
  only the values at the entries the sum visits are compared.
-/
import Idealize.ShloMosaic.PureOps.Ideal.Laws
import Idealize.ShloMosaic.Lib.ValueIdx
import proofs.«136471_j9208409883351_2_alg».proof.Proof.LibPlainDot

noncomputable section

namespace Cert.LibRowTileDot

open Idealize.ShloMosaic Idealize.ShloMosaic.ValueIdx

variable {M B K N : Nat} {φ₁ φ₂ ψ₁ ψ₂ : FTy}
  (Dt : DotDims (⟨2, ![B, K]⟩ : Shape) (⟨2, ![K, N]⟩ : Shape) (⟨2, ![B, N]⟩ : Shape))
  (htrank : Dt.contr.rank = 1) (htsize : Dt.contr.size ⟨0, by omega⟩ = K)
  (htlc : Dt.lhsContracting = [1]) (htrc : Dt.rhsContracting = [0])
  (htL0 : ∀ j k, (Dt.lhsIdx j k 0).val = (j 0).val) (htR1 : ∀ j k, (Dt.rhsIdx j k 1).val = (j 1).val)
  (Dh : DotDims (⟨2, ![M, K]⟩ : Shape) (⟨2, ![K, N]⟩ : Shape) (⟨2, ![M, N]⟩ : Shape))
  (hhrank : Dh.contr.rank = 1) (hhsize : Dh.contr.size ⟨0, by omega⟩ = K)
  (hhlc : Dh.lhsContracting = [1]) (hhrc : Dh.rhsContracting = [0])
  (hhL0 : ∀ j k, (Dh.lhsIdx j k 0).val = (j 0).val) (hhR1 : ∀ j k, (Dh.rhsIdx j k 1).val = (j 1).val)

include htrank htsize htlc htrc htL0 htR1 hhrank hhsize hhlc hhrc hhL0 hhR1 in
/-- Entry (p, c) of the tile's product into a zero accumulator is entry (r, c) of the whole host product, when the
    tile's row p is the whole array's row r and the tile's right operand has the whole right operand's column c. -/
theorem tile_entry (prec prec' : Option ContractPrecision) (sched : HostSchedule)
    (T : FVec Ideal (⟨2, ![B, K]⟩ : Shape) φ₁) (Wt : FVec Ideal (⟨2, ![K, N]⟩ : Shape) φ₂)
    (X : FVec Ideal (⟨2, ![M, K]⟩ : Shape) ψ₁) (W : FVec Ideal (⟨2, ![K, N]⟩ : Shape) ψ₂)
    (p : Fin B) (c : Fin N) (r : Fin M)
    (hT : ∀ k : Fin K, (T (ix2 p k) : EReal) = X (ix2 r k)) (hW : ∀ k : Fin K, (Wt (ix2 k c) : EReal) = W (ix2 k c)) :
    FloatOps.matmul Dt prec T Wt (constant (⟨2, ![B, N]⟩ : Shape) .f32 0x00000000#32) (ix2 p c)
      = FloatOps.dotGeneral Dh prec' sched X W (ix2 r c) := by
  rw [Cert.LibPlainDot.matmul_zero_apply Dt htrank htsize htlc htrc htL0 htR1 prec T Wt p c,
    Cert.LibPlainDot.dotGeneral_apply Dh hhrank hhsize hhlc hhrc hhL0 hhR1 prec' sched X W r c]
  exact Finset.sum_congr rfl fun k _ => by rw [hT k, hW k]

end Cert.LibRowTileDot

end
-- ==== Proof.TileProduct.lean ====
/-
  From blocks to the array, for the two row-tiled matrix products.

  Each of the two regions multiplies a 100000 × 256 array X by a 256 × 256 array W, ten thousand rows at a time: at grid
  point t it reads rows 10000 t … 10000 t + 9999 of X and all of W, forms the tile's product into a zero accumulator, and
  writes it to the same rows of the output array.  Entry (p, q) of the tile's product at point t is the sum over k of
  X(10000 t + p, k) · W(k, q), which is entry (10000 t + p, q) of the whole product X · W; so what every point writes
  back is its block of ONE whole-array function, the host's product of the two input arrays, and since row r lies in
  the block of point r / 10000 the ten blocks cover the output array: after the pipeline the output array IS that product.
-/
import proofs.«136471_j9208409883351_2_alg».proof.Proof.Gen.KernelIdeal.Frame
import proofs.«136471_j9208409883351_2_alg».proof.ReferenceIdeal
import proofs.«136471_j9208409883351_2_alg».proof.Proof.Gen.ReferenceIdeal
import proofs.«136471_j9208409883351_2_alg».proof.Proof.LibRowTileDot
import Idealize.ShloMosaic.Lib.ValueIdx
import Idealize.ShloMosaic.Lib.Pipeline.Value
import Idealize.ShloMosaic.PureOps.Ideal.Laws
import Idealize.ShloMosaic.Lib.ValueLayout

noncomputable section

namespace Cert.TileProduct

open Cert.KernelIdeal Cert.KernelIdeal.Gen Idealize.ShloMosaic Idealize.ShloMosaic.TcCoe Idealize.SL.Sem
open Idealize.ShloMosaic.ValueIdx
open Idealize.ShloMosaic.Pipeline (Dat)

/-- The offsets of an access to a whole buffer are zero on both axes. -/
theorem zero_offsets : (![0, 0] : Fin 2 → Nat) = fun _ => 0 := funext fun a => by fin_cases a <;> rfl

/-! ## The two dimension records: rows by the contraction axis, times the contraction axis by columns -/

/-- The tile's product: 10000 × 256 by 256 × 256. -/
abbrev tileDims := dot_S10000x256_S256x256_S10000x256_1_0_0_1_n_n
/-- The whole product: 100000 × 256 by 256 × 256. -/
abbrev wholeDims := Cert.ReferenceIdeal.dot_S100000x256_S256x256_S100000x256_1_0_0_1_n_n

/-- The left operand's row is the output's row: axis 0 is the left operand's free axis. -/
theorem tile_lhs_row (j : S10000x256.Idx) (k : tileDims.contr.Idx) : (tileDims.lhsIdx j k 0).val = (j 0).val := by
  unfold DotDims.lhsIdx
  rw [dif_neg (show ¬(0 : Fin S10000x256.rank) ∈ tileDims.lhsBatch by decide), dif_pos (show (0 : Fin S10000x256.rank) ∈ tileDims.lhsNonContracting by decide)]
  rfl

/-- The right operand's column is the output's column: axis 1 is the right operand's free axis. -/
theorem tile_rhs_col (j : S10000x256.Idx) (k : tileDims.contr.Idx) : (tileDims.rhsIdx j k 1).val = (j 1).val := by
  unfold DotDims.rhsIdx
  rw [dif_neg (show ¬(1 : Fin S256x256.rank) ∈ tileDims.rhsBatch by decide), dif_pos (show (1 : Fin S256x256.rank) ∈ tileDims.rhsNonContracting by decide)]
  rfl

theorem whole_lhs_row (j : Cert.ReferenceIdeal.S100000x256.Idx) (k : wholeDims.contr.Idx) : (wholeDims.lhsIdx j k 0).val = (j 0).val := by
  unfold DotDims.lhsIdx
  rw [dif_neg (show ¬(0 : Fin Cert.ReferenceIdeal.S100000x256.rank) ∈ wholeDims.lhsBatch by decide), dif_pos (show (0 : Fin Cert.ReferenceIdeal.S100000x256.rank) ∈ wholeDims.lhsNonContracting by decide)]
  rfl

theorem whole_rhs_col (j : Cert.ReferenceIdeal.S100000x256.Idx) (k : wholeDims.contr.Idx) : (wholeDims.rhsIdx j k 1).val = (j 1).val := by
  unfold DotDims.rhsIdx
  rw [dif_neg (show ¬(1 : Fin Cert.ReferenceIdeal.S256x256.rank) ∈ wholeDims.rhsBatch by decide), dif_pos (show (1 : Fin Cert.ReferenceIdeal.S256x256.rank) ∈ wholeDims.rhsNonContracting by decide)]
  rfl

/-! ## The tile's product at an entry -/

/-- The tile's product into a zero accumulator, the right operand passed through a cast of its shape to itself: what
    both regions' bodies store. -/
abbrev tileProduct (x0 : Vec Ideal S10000x256 .f32) (x1 : Vec Ideal S256x256 .f32) : FVec Ideal S10000x256 .f32 :=
  matmul (F := Ideal) (φ₁ := .f32) (φ₂ := .f32) tileDims none x0 (shapeCast S256x256 x1 shapeCasts_S256x256_S256x256) (constant S10000x256 .f32 0x00000000#32)

/-- Entry (p, q) of a tile's product is entry (r, q) of the whole product when the tile's row p is the array's row r
    and the tile's right operand is the whole right operand on column q. -/
theorem tile_product_entry (x0 : Vec Ideal S10000x256 .f32) (x1 : Vec Ideal S256x256 .f32)
    (X : FVec Ideal S100000x256 .f32) (W : FVec Ideal S256x256 .f32) (p : Fin 10000) (q : Fin 256) (r : Fin 100000)
    (hT : ∀ k : Fin 256, (x0 (ix2 p k) : EReal) = X (ix2 r k)) (hW : ∀ k : Fin 256, (x1 (ix2 k q) : EReal) = W (ix2 k q)) :
    tileProduct x0 x1 (ix2 p q) = Host.dotGeneral (F := Ideal) wholeDims none X W (ix2 r q) :=
  Cert.LibRowTileDot.tile_entry tileDims rfl rfl rfl rfl tile_lhs_row tile_rhs_col wholeDims rfl rfl rfl rfl whole_lhs_row whole_rhs_col
    none none .single x0 (shapeCast S256x256 x1 shapeCasts_S256x256_S256x256) X W p q r hT (fun k => by rw [shapeCast_self]; exact hW k)

/-- The same at a tile index j and an array index i in the same column, the tile's row of j holding the array's row of i. -/
theorem tile_product_at (x0 : Vec Ideal S10000x256 .f32) (x1 : Vec Ideal S256x256 .f32)
    (X : FVec Ideal S100000x256 .f32) (W : FVec Ideal S256x256 .f32) (j : S10000x256.Idx) (i : S100000x256.Idx)
    (hcol : (i 1).val = (j 1).val)
    (hT : ∀ k : Fin 256, (x0 (ix2 (j 0) k) : EReal) = X (ix2 (i 0) k))
    (hW : ∀ k : Fin 256, (x1 (ix2 k (j 1)) : EReal) = W (ix2 k (j 1))) :
    tileProduct x0 x1 j = Host.dotGeneral (F := Ideal) wholeDims none X W i := by
  obtain ⟨p, q, rfl⟩ : ∃ (p : Fin 10000) (q : Fin 256), j = ix2 p q := ⟨j 0, j 1, eq_ix2 j⟩
  obtain ⟨r, q', rfl⟩ : ∃ (r : Fin 100000) (q' : Fin 256), i = ix2 r q' := ⟨i 0, i 1, eq_ix2 i⟩
  obtain rfl : q' = q := Fin.ext hcol
  exact tile_product_entry x0 x1 X W p q' r hT hW

/-- Each region's stored payload is that product. -/
theorem payload0_eq (x0 : Vec Ideal S10000x256 .f32) (x1 : Vec Ideal S256x256 .f32) : k0_pay1 (F := Ideal) x0 x1 = tileProduct x0 x1 := rfl
theorem payload1_eq (x0 : Vec Ideal S10000x256 .f32) (x1 : Vec Ideal S256x256 .f32) : k1_pay1 (F := Ideal) x0 x1 = tileProduct x0 x1 := rfl

/-! ## Region 0: left operand `main_arg0`, right operand `main_v0`, output `main_v1` -/

section Region0
variable (V : (c : Dev nD) → (b : Ref sig .tc) → Buf (Elt Ideal) ((c : Thread nD τ).loc b))

/-- The whole product of region 0's two input arrays as the region finds them. -/
abbrev product0Of (c : Dev nD) : S100000x256.Idx → EReal :=
  Host.dotGeneral (F := Ideal) (φ₁ := .f32) (φ₂ := .f32) wholeDims none (V c (Pipeline.arrRef spec0 0)) (V c (Pipeline.arrRef spec0 1))

/-- The printed index maps over the grid: the two row-tiled windows sit at block row t, the whole right operand at block 0. -/
theorem index_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point t holds rows 10000 t … 10000 t + 9999 of its array. -/
theorem rows_read0 (c : Dev nD) (t : Fin cfg0.N) (y : S10000x256.Idx) (i : S100000x256.Idx)
    (h0 : (i 0).val = t.val * 10000 + (y 0).val) (h1 : (i 1).val = (y 1).val) :
    (iblk0 V c 0 t : Vec Ideal S10000x256 .f32) y = (V c (Pipeline.arrRef spec0 0) : S100000x256.Idx → EReal) i := by
  obtain ⟨e00, e01, -⟩ := index_facts0 t
  unfold iblk0
  rw [View.read_apply]
  show V c main_arg0 _ = V c main_arg0 _
  congr 1
  funext a
  apply Fin.ext
  match a with
  | ⟨0, _⟩ => show win0_0.index t (0 : Fin 2) * 10000 + 1 * (y 0).val = (i 0).val; omega
  | ⟨1, _⟩ => show win0_0.index t (1 : Fin 2) * 256 + 1 * (y 1).val = (i 1).val; omega

/-- The right operand's block at every point is its whole array. -/
theorem whole_read0 (c : Dev nD) (t : Fin cfg0.N) (y : S256x256.Idx) :
    (iblk0 V c 1 t : Vec Ideal S256x256 .f32) y = (V c (Pipeline.arrRef spec0 1) : S256x256.Idx → EReal) y := by
  obtain ⟨-, -, e10, e11, -⟩ := index_facts0 t
  unfold iblk0
  rw [View.read_apply]
  show V c main_v0 _ = V c main_v0 _
  congr 1
  funext a
  apply Fin.ext
  match a with
  | ⟨0, _⟩ => show win0_1.index t (0 : Fin 2) * 256 + 1 * (y 0).val = (y 0).val; omega
  | ⟨1, _⟩ => show win0_1.index t (1 : Fin 2) * 256 + 1 * (y 1).val = (y 1).val; omega

/-- What point t writes back is block t of the whole product. -/
theorem flushed0 (c : Dev nD) (t : Fin cfg0.N) :
    (dat0 (F := Ideal) V c).flushed 2 t = ((cfg0.win 2).blk t).view.read (Elt Ideal) (product0Of V c) := by
  show (cfg0.win 2).cut (grid0.coords t) ((dat0 V c).after 2 t) = _
  rw [after0_2]
  unfold out0_2
  rw [View.canon_unit_zero zero_offsets]
  simp only [View.ld_unit_zero (S := S10000x256) zero_offsets, View.ld_unit_zero (S := S256x256) zero_offsets]
  obtain ⟨-, -, -, -, e20, e21⟩ := index_facts0 t
  funext j
  show tileProduct (iblk0 V c 0 t) (iblk0 V c 1 t) ((cfg0.win 2).xinj (grid0.coords t) j) = product0Of V c (((cfg0.win 2).blk t).view.emb j)
  refine tile_product_at (iblk0 V c 0 t) (iblk0 V c 1 t) _ _ _ _ ?_ ?_ ?_
  · show win0_2.index t (1 : Fin 2) * 256 + 1 * (j 1).val = (j 1).val
    omega
  · intro k
    refine rows_read0 V c t _ _ ?_ rfl
    show win0_2.index t (0 : Fin 2) * 10000 + 1 * (j 0).val = t.val * 10000 + (j 0).val
    omega
  · intro k
    exact whole_read0 V c t _

/-- An index of the output array is in point t's block iff each coordinate is in the block's range on its axis. -/
theorem mem_block0 (t : Fin cfg0.N) (i : S100000x256.Idx) :
    i ∈ ((cfg0.win 2).blk t).view.set ↔ ∀ a : Fin 2, win0_2.index t a * S10000x256.size a ≤ (i a).val ∧ (i a).val < win0_2.index t a * S10000x256.size a + S10000x256.size a := by
  show i ∈ ((View.whole main_v1).slice (win0_2.rect t)).set ↔ _
  rw [View.set_slice_whole, Rect.mem_set_unit]
  exact Iff.rfl

/-- Row r of the output array is in the block of point r / 10000, and every point writes back. -/
theorem cover0 (i : S100000x256.Idx) : ∃ t : Fin cfg0.N, (cfg0.win 2).flush t = true ∧ i ∈ ((cfg0.win 2).blk t).view.set := by
  have hN : grid0.N = 10 := N_0
  have hi0 : (i 0).val < 100000 := (i 0).isLt
  have hi1 : (i 1).val < 256 := (i 1).isLt
  let t : Fin cfg0.N := ⟨(i 0).val / 10000, by show (i 0).val / 10000 < grid0.N; omega⟩
  obtain ⟨-, -, -, -, e20, e21⟩ := index_facts0 t
  have ht : t.val = (i 0).val / 10000 := rfl
  refine ⟨t, flush0_2 t, ?_⟩
  rw [mem_block0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 256 ≤ (i 1).val ∧ (i 1).val < win0_2.index t (1 : Fin 2) * 256 + 256; omega

/-- Region 0's output array after the whole pipeline is the host's product of its two input arrays. -/
theorem product0 (c : Dev nD) :
    (dat0 (F := Ideal) V c).arrAt 2 cfg0.N
      = Host.dotGeneral (F := Ideal) (φ₁ := .f32) (φ₂ := .f32) Cert.ReferenceIdeal.dot_S100000x256_S256x256_S100000x256_1_0_0_1_n_n none
          (V c (Pipeline.arrRef spec0 0)) (V c (Pipeline.arrRef spec0 1)) :=
  (dat0 (F := Ideal) V c).arrAt_eq_of_cover 2 (product0Of V c) (fun t _ => flushed0 V c t) cover0

end Region0

/-! ## Region 1: left operand `main_arg1`, right operand `main_v43`, output `main_v44` -/

section Region1
variable (V : (c : Dev nD) → (b : Ref sig .tc) → Buf (Elt Ideal) ((c : Thread nD τ).loc b))

/-- The whole product of region 1's two input arrays as the region finds them. -/
abbrev product1Of (c : Dev nD) : S100000x256.Idx → EReal :=
  Host.dotGeneral (F := Ideal) (φ₁ := .f32) (φ₂ := .f32) wholeDims none (V c (Pipeline.arrRef spec1 0)) (V c (Pipeline.arrRef spec1 1))

/-- The printed index maps over the grid: the two row-tiled windows sit at block row t, the whole right operand at block 0. -/
theorem index_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left operand's block at point t holds rows 10000 t … 10000 t + 9999 of its array. -/
theorem rows_read1 (c : Dev nD) (t : Fin cfg1.N) (y : S10000x256.Idx) (i : S100000x256.Idx)
    (h0 : (i 0).val = t.val * 10000 + (y 0).val) (h1 : (i 1).val = (y 1).val) :
    (iblk1 V c 0 t : Vec Ideal S10000x256 .f32) y = (V c (Pipeline.arrRef spec1 0) : S100000x256.Idx → EReal) i := by
  obtain ⟨e00, e01, -⟩ := index_facts1 t
  unfold iblk1
  rw [View.read_apply]
  show V c main_arg1 _ = V c main_arg1 _
  congr 1
  funext a
  apply Fin.ext
  match a with
  | ⟨0, _⟩ => show win1_0.index t (0 : Fin 2) * 10000 + 1 * (y 0).val = (i 0).val; omega
  | ⟨1, _⟩ => show win1_0.index t (1 : Fin 2) * 256 + 1 * (y 1).val = (i 1).val; omega

/-- The right operand's block at every point is its whole array. -/
theorem whole_read1 (c : Dev nD) (t : Fin cfg1.N) (y : S256x256.Idx) :
    (iblk1 V c 1 t : Vec Ideal S256x256 .f32) y = (V c (Pipeline.arrRef spec1 1) : S256x256.Idx → EReal) y := by
  obtain ⟨-, -, e10, e11, -⟩ := index_facts1 t
  unfold iblk1
  rw [View.read_apply]
  show V c main_v43 _ = V c main_v43 _
  congr 1
  funext a
  apply Fin.ext
  match a with
  | ⟨0, _⟩ => show win1_1.index t (0 : Fin 2) * 256 + 1 * (y 0).val = (y 0).val; omega
  | ⟨1, _⟩ => show win1_1.index t (1 : Fin 2) * 256 + 1 * (y 1).val = (y 1).val; omega

/-- What point t writes back is block t of the whole product. -/
theorem flushed1 (c : Dev nD) (t : Fin cfg1.N) :
    (dat1 (F := Ideal) V c).flushed 2 t = ((cfg1.win 2).blk t).view.read (Elt Ideal) (product1Of V c) := by
  show (cfg1.win 2).cut (grid1.coords t) ((dat1 V c).after 2 t) = _
  rw [after1_2]
  unfold out1_2
  rw [View.canon_unit_zero zero_offsets]
  simp only [View.ld_unit_zero (S := S10000x256) zero_offsets, View.ld_unit_zero (S := S256x256) zero_offsets]
  obtain ⟨-, -, -, -, e20, e21⟩ := index_facts1 t
  funext j
  show tileProduct (iblk1 V c 0 t) (iblk1 V c 1 t) ((cfg1.win 2).xinj (grid1.coords t) j) = product1Of V c (((cfg1.win 2).blk t).view.emb j)
  refine tile_product_at (iblk1 V c 0 t) (iblk1 V c 1 t) _ _ _ _ ?_ ?_ ?_
  · show win1_2.index t (1 : Fin 2) * 256 + 1 * (j 1).val = (j 1).val
    omega
  · intro k
    refine rows_read1 V c t _ _ ?_ rfl
    show win1_2.index t (0 : Fin 2) * 10000 + 1 * (j 0).val = t.val * 10000 + (j 0).val
    omega
  · intro k
    exact whole_read1 V c t _

/-- An index of the output array is in point t's block iff each coordinate is in the block's range on its axis. -/
theorem mem_block1 (t : Fin cfg1.N) (i : S100000x256.Idx) :
    i ∈ ((cfg1.win 2).blk t).view.set ↔ ∀ a : Fin 2, win1_2.index t a * S10000x256.size a ≤ (i a).val ∧ (i a).val < win1_2.index t a * S10000x256.size a + S10000x256.size a := by
  show i ∈ ((View.whole main_v44).slice (win1_2.rect t)).set ↔ _
  rw [View.set_slice_whole, Rect.mem_set_unit]
  exact Iff.rfl

/-- Row r of the output array is in the block of point r / 10000, and every point writes back. -/
theorem cover1 (i : S100000x256.Idx) : ∃ t : Fin cfg1.N, (cfg1.win 2).flush t = true ∧ i ∈ ((cfg1.win 2).blk t).view.set := by
  have hN : grid1.N = 10 := N_1
  have hi0 : (i 0).val < 100000 := (i 0).isLt
  have hi1 : (i 1).val < 256 := (i 1).isLt
  let t : Fin cfg1.N := ⟨(i 0).val / 10000, by show (i 0).val / 10000 < grid1.N; omega⟩
  obtain ⟨-, -, -, -, e20, e21⟩ := index_facts1 t
  have ht : t.val = (i 0).val / 10000 := rfl
  refine ⟨t, flush1_2 t, ?_⟩
  rw [mem_block1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 256 ≤ (i 1).val ∧ (i 1).val < win1_2.index t (1 : Fin 2) * 256 + 256; omega

/-- Region 1's output array after the whole pipeline is the host's product of its two input arrays. -/
theorem product1 (c : Dev nD) :
    (dat1 (F := Ideal) V c).arrAt 2 cfg1.N
      = Host.dotGeneral (F := Ideal) (φ₁ := .f32) (φ₂ := .f32) Cert.ReferenceIdeal.dot_S100000x256_S256x256_S100000x256_1_0_0_1_n_n none
          (V c (Pipeline.arrRef spec1 0)) (V c (Pipeline.arrRef spec1 1)) :=
  (dat1 (F := Ideal) V c).arrAt_eq_of_cover 2 (product1Of V c) (fun t _ => flushed1 V c t) cover1

end Region1

end Cert.TileProduct

end
-- ==== Proof.LibLaneSums.lean ====
/-
  Sums along one axis, and trailing unit axes, read at coordinates.

  On the extended reals a sum of a rank-3 array [a, b, c] along its middle axis, started from the neutral element, is at
  (p, f) the plain sum over k < b of the array at (p, k, f); a sum of an [a, b] array along its last axis is at p the sum
  over k < b of the array at (p, k).  A trailing unit axis moves no element: an [a] array seen as [a, 1] reads, at
  (p, 0), the array at p; an [a, b] array seen as [a, b, 1] reads, at (p, j, 0), the array at (p, j); and an [a, b, 1]
  array spread along its unit axis to [a, b, c] reads, at (p, j, f), the array at (p, j, 0).
-/
import Idealize.ShloMosaic.PureOps.Ideal.Laws
import Idealize.ShloMosaic.Lib.ValueIdx
import Idealize.ShloMosaic.Lib.Pipeline.Value

noncomputable section

namespace Cert.LibLaneSums

open Idealize.ShloMosaic Idealize.ShloMosaic.ValueIdx

variable {α : Type}

/-! ## Sums along one axis -/

/-- The source index above (p, f) with k on the summed middle axis is (p, k, f). -/
theorem lift_mid {a b c : ℕ} (h : (⟨3, ![a, b, c]⟩ : Shape).Reduces [1] ⟨2, ![a, c]⟩) (p : Fin a) (f : Fin c) (k : Fin b) :
    h.lift (ix2 p f) k = ix3 p k f := by
  funext d; apply Fin.ext
  show h.liftVal (ix2 p f) k.val d = (ix3 p k f d).val
  unfold Shape.Reduces.liftVal
  match d with
  | ⟨0, _⟩ => rfl
  | ⟨1, _⟩ => rfl
  | ⟨2, _⟩ => rfl

/-- The source index above p with k on the summed last axis is (p, k). -/
theorem lift_last {a b : ℕ} (h : (⟨2, ![a, b]⟩ : Shape).Reduces [1] ⟨1, ![a]⟩) (p : Fin a) (k : Fin b) :
    h.lift (ix1 p) k = ix2 p k := by
  funext d; apply Fin.ext
  show h.liftVal (ix1 p) k.val d = (ix2 p k d).val
  unfold Shape.Reduces.liftVal
  match d with
  | ⟨0, _⟩ => rfl
  | ⟨1, _⟩ => rfl

/-- A sum of an [a, b, c] array along its middle axis, from the neutral element, at (p, f): the sum over k of the
    array at (p, k, f). -/
theorem sum_mid_apply {a b c : ℕ} {φ : FTy} (src : FVec Ideal (⟨3, ![a, b, c]⟩ : Shape) φ) (acc : BitVec φ.bits)
    (h : (⟨3, ![a, b, c]⟩ : Shape).Reduces [1] ⟨2, ![a, c]⟩) (hφ : FKind.Formats φ) (hacc : acc = FKind.add.neutral φ hφ)
    (p : Fin a) (f : Fin c) :
    multiReduction .add [1] (⟨2, ![a, c]⟩ : Shape) src acc h hφ hacc (ix2 p f) = ∑ k : Fin b, src (ix3 p k f) :=
  (Ideal.multiReduction_add_single src acc h hφ hacc (ix2 p f)).trans
    (Finset.sum_congr rfl fun k _ => congrArg src (lift_mid h p f k))

/-- A sum of an [a, b] array along its last axis, from the neutral element, at p: the sum over k of the array at
    (p, k). -/
theorem sum_last_apply {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] (⟨1, ![a]⟩ : Shape) src acc h hφ hacc (ix1 p) = ∑ k : Fin b, src (ix2 p k) :=
  (Ideal.multiReduction_add_single src acc h hφ hacc (ix1 p)).trans
    (Finset.sum_congr rfl fun k _ => congrArg src (lift_last h p k))

/-! ## Trailing unit axes -/

/-- An [a] array seen as [a, 1] reads, at (p, u), the array at p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- An [a, b] array seen as [a, b, 1] reads, at (p, j, u), the array at (p, j). -/
theorem shapeCast_ab_ab1_apply {a b : ℕ} (x : (⟨2, ![a, b]⟩ : Shape).Idx → α)
    (h : (⟨2, ![a, b]⟩ : Shape).ShapeCasts ⟨3, ![a, b, 1]⟩) (p : Fin a) (j : Fin b) (u : Fin 1) :
    shapeCast ⟨3, ![a, b, 1]⟩ x h (ix3 p j u) = x (ix2 p j) :=
  shapeCast_apply x h _ _ (by
    have hu : u.val = 0 := by omega
    rw [Shape.rowMajor_val_three, Shape.rowMajor_val_two]
    show p.val * b + j.val = (p.val * b + j.val) * 1 + u.val
    omega)

/-- An [a, b, 1] array spread along its unit axis to [a, b, c] reads, at (p, j, f), the array at (p, j, 0). -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (j : Fin b) (f : Fin c) :
    broadcastTo ⟨3, ![a, b, c]⟩ v h (ix3 p j f) = v (ix3 p j (0 : Fin 1)) := by
  refine broadcastTo_apply v h (ix3 p j f) (ix3 p j (0 : Fin 1)) fun ax => ?_
  match ax with
  | ⟨0, _⟩ =>
    show p.val = if a = 1 then 0 else p.val
    split
    · have := p.isLt; omega
    · rfl
  | ⟨1, _⟩ =>
    show j.val = if b = 1 then 0 else j.val
    split
    · have := j.isLt; omega
    · rfl
  | ⟨2, _⟩ => rfl

end Cert.LibLaneSums

end
-- ==== Proof.LibUnitAxes.lean ====
/-
  Unit axes.  A column [a, 1] or a row [1, b] spread over an [a, b] array reads, at (p, c), the column at (p, 0) or
  the row at (0, c) — for the vector broadcast and for the host's broadcast along the listed dimensions alike.  A
  scalar spread over any shape reads the scalar.  Casting an [a] array to [a, 1] or to [1, a] moves no element, so it
  is the host's broadcast of the [a] array along dimension 0 (or 1) of the result.
-/
import Idealize.ShloMosaic.Lib.Pipeline.Value
import Idealize.ShloMosaic.Lib.ValueIdx
import Idealize.ShloMosaic.Lib.ValueLayout

noncomputable section

namespace Cert.LibUnitAxes

open Idealize.ShloMosaic Idealize.ShloMosaic.ValueIdx

variable {α : Type}

/-- A column [a, 1] broadcast (as a vector) to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column [a, 1] along both dimensions of [a, b] reads, at (p, c), the column at (p, 0). -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row [1, b] along both dimensions of [a, b] reads, at (p, c), the row at (0, c). -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a scalar reads the scalar at every index. -/
theorem broadcastInDim_scalar_apply {t : Shape} (v : (⟨0, ![]⟩ : Shape).Idx → α)
    (h : (⟨0, ![]⟩ : Shape).BroadcastsInDim t ![]) (j : t.Idx) :
    broadcastInDim t ![] h v j = v ix0 :=
  broadcastInDim_apply ![] h v j ix0 fun ax => ax.elim0

/-- Casting [a] to [a, 1] is the host's broadcast of the array along dimension 0. -/
theorem shapeCast_a_a1_eq_broadcastInDim {a : ℕ} (x : (⟨1, ![a]⟩ : Shape).Idx → α)
    (h : (⟨1, ![a]⟩ : Shape).ShapeCasts ⟨2, ![a, 1]⟩) (hb : (⟨1, ![a]⟩ : Shape).BroadcastsInDim ⟨2, ![a, 1]⟩ ![0]) :
    shapeCast ⟨2, ![a, 1]⟩ x h = broadcastInDim ⟨2, ![a, 1]⟩ ![0] hb x := by
  funext j
  obtain ⟨p, u, rfl⟩ : ∃ (p : Fin a) (u : Fin 1), j = ix2 p u := ⟨j 0, j 1, eq_ix2 j⟩
  have hu : u.val = 0 := by omega
  rw [shapeCast_apply x h (ix2 p u) (ix1 p) (by
        rw [Shape.rowMajor_val_two, Shape.rowMajor_val_one]
        show p.val = p.val * 1 + u.val
        omega),
      broadcastInDim_apply ![0] hb x (ix2 p u) (ix1 p) (fun ax => match ax with
        | ⟨0, _⟩ => by
          show p.val = if a = 1 then 0 else p.val
          split
          · have := p.isLt; omega
          · rfl)]

/-- Casting [a] to [1, a] is the host's broadcast of the array along dimension 1. -/
theorem shapeCast_a_1a_eq_broadcastInDim {a : ℕ} (x : (⟨1, ![a]⟩ : Shape).Idx → α)
    (h : (⟨1, ![a]⟩ : Shape).ShapeCasts ⟨2, ![1, a]⟩) (hb : (⟨1, ![a]⟩ : Shape).BroadcastsInDim ⟨2, ![1, a]⟩ ![1]) :
    shapeCast ⟨2, ![1, a]⟩ x h = broadcastInDim ⟨2, ![1, a]⟩ ![1] hb x := by
  funext j
  obtain ⟨u, p, rfl⟩ : ∃ (u : Fin 1) (p : Fin a), j = ix2 u p := ⟨j 0, j 1, eq_ix2 j⟩
  rw [shapeCast_a_1a_apply x h u p,
      broadcastInDim_apply ![1] hb x (ix2 u p) (ix1 p) (fun ax => match ax with
        | ⟨0, _⟩ => by
          show p.val = if a = 1 then 0 else p.val
          split
          · have := p.isLt; omega
          · rfl)]

end Cert.LibUnitAxes

end
-- ==== Proof.LibRowNorm.lean ====
/-
  Layer normalization of the rows of an [a, n] array, read at one entry, on the extended reals.

  For a row x(r, ·) of n numbers let μ = (∑ₖ x(r, k)) / N and σ² = (∑ₖ (x(r, k) − μ)²) / N, the divisor N and the
  constant ε given by their f32 words.  The normalized entry is (x(r, c) − μ) · rsqrt(σ² + ε), optionally followed by a
  maximum with zero.  Entry (r, c) depends on row r only.

  Two spellings of the same computation are read here at an entry and shown to be that formula of the row:
  the vector unit's (a lane sum with a trailing unit axis restored by a shape cast, scalars splat, the [a, 1] column
  spread over [a, n] by a vector broadcast, `math.rsqrt`) and the host's (a `reduce` by addition from a zero
  initial value, every re-layout a `broadcast_in_dim`, `divide`, `rsqrt`).  Because both are the same function of
  one row, a row tile normalized on its own holds the same numbers as the whole array normalized at once.
-/
import Idealize.ShloMosaic.PureOps.Ideal.Laws
import Idealize.ShloMosaic.Lib.ValueIdx
import Idealize.ShloMosaic.Lib.IdealHost
import Idealize.ShloMosaic.Lib.Pipeline.Value
import proofs.«136471_j9208409883351_2_alg».proof.Proof.LibLaneSums
import proofs.«136471_j9208409883351_2_alg».proof.Proof.LibUnitAxes

noncomputable section

namespace Cert.LibRowNorm

open Idealize.ShloMosaic Idealize.ShloMosaic.ValueIdx

/-! ## The row-local formulas -/

/-- The mean of a row, the divisor given by its f32 word. -/
def rowMean {n : ℕ} (nw : BitVec 32) (row : Fin n → EReal) : EReal :=
  Ideal.div (∑ k : Fin n, row k) (Ideal.ofBits .f32 nw)

/-- The reciprocal standard deviation of a row: rsqrt of the mean squared deviation plus ε. -/
def rowInv {n : ℕ} (nw ew : BitVec 32) (row : Fin n → EReal) : EReal :=
  Ideal.rsqrt (Ideal.div (∑ k : Fin n, (row k - rowMean nw row) * (row k - rowMean nw row)) (Ideal.ofBits .f32 nw)
    + Ideal.ofBits .f32 ew)

/-- The normalized row at column c. -/
def lnRow {n : ℕ} (nw ew : BitVec 32) (row : Fin n → EReal) (c : Fin n) : EReal :=
  (row c - rowMean nw row) * rowInv nw ew row

/-- The normalized row at column c, then the maximum with the f32 word of zero. -/
def lnReluRow {n : ℕ} (nw ew : BitVec 32) (row : Fin n → EReal) (c : Fin n) : EReal :=
  max (lnRow nw ew row c) (Ideal.ofBits .f32 0x00000000#32)

/-! ## The vector unit's spelling -/

section Vector

variable {a n : ℕ} (nw ew : BitVec 32)
  (hr : (⟨2, ![a, n]⟩ : Shape).Reduces [1] ⟨1, ![a]⟩)
  (hs : (⟨1, ![a]⟩ : Shape).ShapeCasts ⟨2, ![a, 1]⟩)
  (hb : (⟨2, ![a, 1]⟩ : Shape).Broadcasts ⟨2, ![a, n]⟩)

/-- The column of row sums over the splat divisor. -/
def vMean (x : FVec Ideal ⟨2, ![a, n]⟩ .f32) : FVec Ideal ⟨2, ![a, 1]⟩ .f32 :=
  divf (shapeCast ⟨2, ![a, 1]⟩ (multiReduction .add [1] ⟨1, ![a]⟩ x 0x00000000#32 hr (.inl rfl) rfl) hs)
    (broadcast ⟨2, ![a, 1]⟩ (Scalar.ofBits (F := Ideal) .f32 nw))

/-- The array minus its column of means spread over the rows. -/
def vDev (x : FVec Ideal ⟨2, ![a, n]⟩ .f32) : FVec Ideal ⟨2, ![a, n]⟩ .f32 :=
  subf x (broadcastTo ⟨2, ![a, n]⟩ (vMean nw hr hs x) hb)

/-- The column of reciprocal standard deviations. -/
def vInv (x : FVec Ideal ⟨2, ![a, n]⟩ .f32) : FVec Ideal ⟨2, ![a, 1]⟩ .f32 :=
  rsqrt (addf
    (divf (shapeCast ⟨2, ![a, 1]⟩
        (multiReduction .add [1] ⟨1, ![a]⟩ (mulf (vDev nw hr hs hb x) (vDev nw hr hs hb x)) 0x00000000#32 hr (.inl rfl) rfl) hs)
      (broadcast ⟨2, ![a, 1]⟩ (Scalar.ofBits (F := Ideal) .f32 nw)))
    (broadcast ⟨2, ![a, 1]⟩ (Scalar.ofBits (F := Ideal) .f32 ew)))

/-- The normalized array. -/
def vNorm (x : FVec Ideal ⟨2, ![a, n]⟩ .f32) : FVec Ideal ⟨2, ![a, n]⟩ .f32 :=
  mulf (vDev nw hr hs hb x) (broadcastTo ⟨2, ![a, n]⟩ (vInv nw ew hr hs hb x) hb)

/-- The normalized array, then the maximum with a splat zero. -/
def vNormRelu (x : FVec Ideal ⟨2, ![a, n]⟩ .f32) : FVec Ideal ⟨2, ![a, n]⟩ .f32 :=
  maximumf (vNorm nw ew hr hs hb x) (broadcast ⟨2, ![a, n]⟩ (Scalar.ofBits (F := Ideal) .f32 0x00000000#32))

theorem vMean_apply (x : FVec Ideal ⟨2, ![a, n]⟩ .f32) (r : Fin a) (u : Fin 1) :
    vMean nw hr hs x (ix2 r u) = rowMean nw (fun k => x (ix2 r k)) :=
  congrArg (fun z => Ideal.div z (Ideal.ofBits .f32 nw))
    ((Cert.LibLaneSums.shapeCast_a_a1_apply _ hs r u).trans
      (Cert.LibLaneSums.sum_last_apply x 0x00000000#32 hr (.inl rfl) rfl r))

theorem vDev_apply (x : FVec Ideal ⟨2, ![a, n]⟩ .f32) (r : Fin a) (c : Fin n) :
    vDev nw hr hs hb x (ix2 r c) = x (ix2 r c) - rowMean nw (fun k => x (ix2 r k)) :=
  congrArg (fun z => x (ix2 r c) - z)
    ((Cert.LibUnitAxes.broadcastTo_a1_ab_apply _ hb r c).trans (vMean_apply nw hr hs x r 0))

theorem vInv_apply (x : FVec Ideal ⟨2, ![a, n]⟩ .f32) (r : Fin a) (u : Fin 1) :
    vInv nw ew hr hs hb x (ix2 r u) = rowInv nw ew (fun k => x (ix2 r k)) :=
  congrArg (fun z => Ideal.rsqrt (Ideal.div z (Ideal.ofBits .f32 nw) + Ideal.ofBits .f32 ew))
    (((Cert.LibLaneSums.shapeCast_a_a1_apply _ hs r u).trans
      (Cert.LibLaneSums.sum_last_apply (mulf (vDev nw hr hs hb x) (vDev nw hr hs hb x)) 0x00000000#32 hr (.inl rfl) rfl r)).trans
      (Finset.sum_congr rfl fun k _ =>
        (congrArg₂ (· * ·) (vDev_apply nw hr hs hb x r k) (vDev_apply nw hr hs hb x r k))))

/-- The vector unit's normalized array at (r, c) is the normalized row r at c. -/
theorem vNorm_apply (x : FVec Ideal ⟨2, ![a, n]⟩ .f32) (r : Fin a) (c : Fin n) :
    vNorm nw ew hr hs hb x (ix2 r c) = lnRow nw ew (fun k => x (ix2 r k)) c :=
  congrArg₂ (· * ·) (vDev_apply nw hr hs hb x r c)
    ((Cert.LibUnitAxes.broadcastTo_a1_ab_apply _ hb r c).trans (vInv_apply nw ew hr hs hb x r 0))

/-- … and with the maximum against zero. -/
theorem vNormRelu_apply (x : FVec Ideal ⟨2, ![a, n]⟩ .f32) (r : Fin a) (c : Fin n) :
    vNormRelu nw ew hr hs hb x (ix2 r c) = lnReluRow nw ew (fun k => x (ix2 r k)) c :=
  congrArg (fun z => max z (Ideal.ofBits .f32 0x00000000#32)) (vNorm_apply nw ew hr hs hb x r c)

end Vector

/-! ## The host's spelling -/

section Host

variable {a n : ℕ} (nw ew : BitVec 32)
  (hR : (⟨2, ![a, n]⟩ : Shape).ReducesTo [1] ⟨1, ![a]⟩)
  (hr : (⟨2, ![a, n]⟩ : Shape).Reduces [1] ⟨1, ![a]⟩)
  (h0 : 0 < (⟨0, ![]⟩ : Shape).numel)
  (hb0 : (⟨1, ![a]⟩ : Shape).BroadcastsInDim ⟨2, ![a, 1]⟩ ![0])
  (hbs : (⟨0, ![]⟩ : Shape).BroadcastsInDim ⟨2, ![a, 1]⟩ ![])
  (hb01 : (⟨2, ![a, 1]⟩ : Shape).BroadcastsInDim ⟨2, ![a, n]⟩ ![0, 1])
  (hbz : (⟨0, ![]⟩ : Shape).BroadcastsInDim ⟨2, ![a, n]⟩ ![])

include hr in
/-- The host's row sums from a zero initial value, at row r. -/
theorem hSum_apply (x : FVec Ideal ⟨2, ![a, n]⟩ .f32) (r : Fin a) :
    Host.reduceAdd x (constant (F := Ideal) ⟨0, ![]⟩ .f32 0x00000000#32) hR h0 (ix1 r) = ∑ k : Fin n, x (ix2 r k) := by
  refine (Ideal.hostReduceAdd_single hR hr x _ (ix1 r)).trans ?_
  rw [show (constant (F := Ideal) ⟨0, ![]⟩ .f32 0x00000000#32) (Shape.Idx.first h0) = 0 from Ideal.ofBits_zero_f32, zero_add]
  exact Finset.sum_congr rfl fun k _ => congrArg x (Cert.LibLaneSums.lift_last hr r k)

/-- An [a] array spread to [a, 1] along dimension 0 reads, at (r, u), the array at r. -/
theorem col_apply {α : Type} (v : (⟨1, ![a]⟩ : Shape).Idx → α) (r : Fin a) (u : Fin 1) :
    broadcastInDim ⟨2, ![a, 1]⟩ ![0] hb0 v (ix2 r u) = v (ix1 r) :=
  broadcastInDim_apply ![0] hb0 v (ix2 r u) (ix1 r) fun ax => match ax with
    | ⟨0, _⟩ => by
      show r.val = if a = 1 then 0 else r.val
      split
      · have := r.isLt; omega
      · rfl

/-- The host's column of row sums over the broadcast divisor. -/
def hMean (x : FVec Ideal ⟨2, ![a, n]⟩ .f32) : FVec Ideal ⟨2, ![a, 1]⟩ .f32 :=
  Host.divf (broadcastInDim ⟨2, ![a, 1]⟩ ![0] hb0 (Host.reduceAdd x (constant (F := Ideal) ⟨0, ![]⟩ .f32 0x00000000#32) hR h0))
    (broadcastInDim ⟨2, ![a, 1]⟩ ![] hbs (constant (F := Ideal) ⟨0, ![]⟩ .f32 nw))

/-- The array minus its column of means spread over the rows. -/
def hDev (x : FVec Ideal ⟨2, ![a, n]⟩ .f32) : FVec Ideal ⟨2, ![a, n]⟩ .f32 :=
  subf x (broadcastInDim ⟨2, ![a, n]⟩ ![0, 1] hb01 (hMean nw hR h0 hb0 hbs x))

/-- The host's column of reciprocal standard deviations. -/
def hInv (x : FVec Ideal ⟨2, ![a, n]⟩ .f32) : FVec Ideal ⟨2, ![a, 1]⟩ .f32 :=
  Host.rsqrt (addf
    (Host.divf (broadcastInDim ⟨2, ![a, 1]⟩ ![0] hb0
        (Host.reduceAdd (mulf (hDev nw hR h0 hb0 hbs hb01 x) (hDev nw hR h0 hb0 hbs hb01 x))
          (constant (F := Ideal) ⟨0, ![]⟩ .f32 0x00000000#32) hR h0))
      (broadcastInDim ⟨2, ![a, 1]⟩ ![] hbs (constant (F := Ideal) ⟨0, ![]⟩ .f32 nw)))
    (broadcastInDim ⟨2, ![a, 1]⟩ ![] hbs (constant (F := Ideal) ⟨0, ![]⟩ .f32 ew)))

/-- The host's normalized array. -/
def hNorm (x : FVec Ideal ⟨2, ![a, n]⟩ .f32) : FVec Ideal ⟨2, ![a, n]⟩ .f32 :=
  mulf (hDev nw hR h0 hb0 hbs hb01 x) (broadcastInDim ⟨2, ![a, n]⟩ ![0, 1] hb01 (hInv nw ew hR h0 hb0 hbs hb01 x))

/-- The host's normalized array, then the maximum with a broadcast zero. -/
def hNormRelu (x : FVec Ideal ⟨2, ![a, n]⟩ .f32) : FVec Ideal ⟨2, ![a, n]⟩ .f32 :=
  maximumf (hNorm nw ew hR h0 hb0 hbs hb01 x)
    (broadcastInDim ⟨2, ![a, n]⟩ ![] hbz (constant (F := Ideal) ⟨0, ![]⟩ .f32 0x00000000#32))

include hr in
theorem hMean_apply (x : FVec Ideal ⟨2, ![a, n]⟩ .f32) (r : Fin a) (u : Fin 1) :
    hMean nw hR h0 hb0 hbs x (ix2 r u) = rowMean nw (fun k => x (ix2 r k)) :=
  congrArg₂ Ideal.div ((col_apply hb0 _ r u).trans (hSum_apply hR hr h0 x r))
    (Cert.LibUnitAxes.broadcastInDim_scalar_apply _ hbs (ix2 r u))

include hr in
theorem hDev_apply (x : FVec Ideal ⟨2, ![a, n]⟩ .f32) (r : Fin a) (c : Fin n) :
    hDev nw hR h0 hb0 hbs hb01 x (ix2 r c) = x (ix2 r c) - rowMean nw (fun k => x (ix2 r k)) :=
  congrArg (fun z => x (ix2 r c) - z)
    ((Cert.LibUnitAxes.broadcastInDim_a1_ab_apply _ hb01 r c).trans (hMean_apply nw hR hr h0 hb0 hbs x r 0))

include hr in
theorem hInv_apply (x : FVec Ideal ⟨2, ![a, n]⟩ .f32) (r : Fin a) (u : Fin 1) :
    hInv nw ew hR h0 hb0 hbs hb01 x (ix2 r u) = rowInv nw ew (fun k => x (ix2 r k)) :=
  congrArg Ideal.rsqrt (congrArg₂ (· + ·)
    (congrArg₂ Ideal.div
      (((col_apply hb0 _ r u).trans (hSum_apply hR hr h0 _ r)).trans
        (Finset.sum_congr rfl fun k _ =>
          congrArg₂ (· * ·) (hDev_apply nw hR hr h0 hb0 hbs hb01 x r k) (hDev_apply nw hR hr h0 hb0 hbs hb01 x r k)))
      (Cert.LibUnitAxes.broadcastInDim_scalar_apply _ hbs (ix2 r u)))
    (Cert.LibUnitAxes.broadcastInDim_scalar_apply _ hbs (ix2 r u)))

include hr in
/-- The host's normalized array at (r, c) is the normalized row r at c. -/
theorem hNorm_apply (x : FVec Ideal ⟨2, ![a, n]⟩ .f32) (r : Fin a) (c : Fin n) :
    hNorm nw ew hR h0 hb0 hbs hb01 x (ix2 r c) = lnRow nw ew (fun k => x (ix2 r k)) c :=
  congrArg₂ (· * ·) (hDev_apply nw hR hr h0 hb0 hbs hb01 x r c)
    ((Cert.LibUnitAxes.broadcastInDim_a1_ab_apply _ hb01 r c).trans (hInv_apply nw ew hR hr h0 hb0 hbs hb01 x r 0))

include hr in
/-- … and with the maximum against zero. -/
theorem hNormRelu_apply (x : FVec Ideal ⟨2, ![a, n]⟩ .f32) (r : Fin a) (c : Fin n) :
    hNormRelu nw ew hR h0 hb0 hbs hb01 hbz x (ix2 r c) = lnReluRow nw ew (fun k => x (ix2 r k)) c :=
  congrArg₂ max (hNorm_apply nw ew hR hr h0 hb0 hbs hb01 x r c)
    (Cert.LibUnitAxes.broadcastInDim_scalar_apply _ hbz (ix2 r c))

end Host

end Cert.LibRowNorm

end
-- ==== Proof.FinalRow.lean ====
/-
  The finalize formula of one row of 256 numbers: the maximum of every entry with zero, then the row's layer
  normalization — mean and mean squared deviation by the f32 word of 256, the deviation times the reciprocal square root
  of (mean squared deviation plus the f32 word of 1e-5) —, times a scale g, plus a shift b.
-/
import proofs.«136471_j9208409883351_2_alg».proof.Proof.LibRowNorm

noncomputable section

namespace Cert.FinalRow

open Idealize.ShloMosaic

/-- The finalize formula of one row at column q. -/
def finalRow (row : Fin 256 → EReal) (g b : EReal) (q : Fin 256) : EReal :=
  Cert.LibRowNorm.lnRow 0x43800000#32 0x3727C5AC#32 (fun k => max (row k) (Ideal.ofBits .f32 0x00000000#32)) q * g + b

end Cert.FinalRow

end
-- ==== Proof.RowNormTiles.lean ====
/-
  From row tiles to the whole array, for the two finalize regions.

  Each finalize region walks ten grid points; point t holds rows 10000 t … 10000 t + 9999 of a [100000, 256] array,
  together with gamma's and beta's one row each (whole at every point), and writes back the same rows of its output
  array.  On a block the body computes, for row p and column q,
      lnRow(max(x(p, ·), 0))(q) · gamma(q) + beta(q),
  a function of row p of the block alone.  So the block written at point t is the restriction to rows
  10000 t … 10000 t + 9999 of ONE whole-array function: the finalize formula applied to every row of the input array.
  The ten blocks cover the output array (row r lies in block r / 10000), hence after the whole pipeline the output
  array IS that function of the region's input arrays.
-/
import proofs.«136471_j9208409883351_2_alg».proof.Proof.Gen.KernelIdeal.Frame
import proofs.«136471_j9208409883351_2_alg».proof.Proof.FinalRow
import Idealize.ShloMosaic.Lib.ValueIdx
import Idealize.ShloMosaic.Lib.Pipeline.Value
import Idealize.ShloMosaic.PureOps.Ideal.Laws
import Idealize.ShloMosaic.Lib.ValueLayout

set_option maxRecDepth 16384

noncomputable section

namespace Cert.RowNormTiles

open Idealize.ShloMosaic Idealize.ShloMosaic.TcCoe Idealize.SL.Sem Idealize.ShloMosaic.ValueIdx
open Idealize.ShloMosaic.Pipeline (Dat)
open Cert.KernelIdeal Cert.KernelIdeal.Gen Cert.FinalRow

/-! ## The body's arithmetic at one entry of a block -/

/-- Every offset of a whole-block access is zero. -/
theorem zero_off : (![0, 0] : Fin 2 → Nat) = fun _ => 0 := funext fun a => by fin_cases a <;> rfl

/-- Region 2's payload at row p, column q of a block: the finalize formula of the block's row p, with gamma and beta
    read off their one row at column q. -/
theorem pay2_apply (x0 : Vec Ideal S10000x256 .f32) (x1 x2 : Vec Ideal S1x256 .f32) (p : Fin 10000) (q : Fin 256) :
    k2_pay1 (F := Ideal) x0 x1 x2 (ix2 p q)
      = finalRow (fun k => x0 (ix2 p k)) (x1 (ix2 (0 : Fin 1) q)) (x2 (ix2 (0 : Fin 1) q)) q := by
  unfold k2_pay1 finalRow
  refine congrArg₂ (· + ·) (congrArg₂ (· * ·) ?_ ?_) ?_
  · refine (Cert.LibRowNorm.vNorm_apply 0x43800000#32 0x3727C5AC#32 reduces_S10000x256_S10000 shapeCasts_S10000_S10000x1
      broadcasts_S10000x1_S10000x256 _ p q).trans ?_
    refine congrArg (fun row => Cert.LibRowNorm.lnRow 0x43800000#32 0x3727C5AC#32 row q) (funext fun k => ?_)
    exact congrArg (fun z => max z (Ideal.ofBits .f32 0x00000000#32))
      (congrFun (shapeCast_self x0 shapeCasts_S10000x256_S10000x256) (ix2 p k))
  · exact (broadcastTo_1b_ab_apply _ broadcasts_S1x256_S10000x256 p q).trans
      (congrFun (shapeCast_self x1 shapeCasts_S1x256_S1x256) (ix2 (0 : Fin 1) q))
  · exact (broadcastTo_1b_ab_apply _ broadcasts_S1x256_S10000x256 p q).trans
      (congrFun (shapeCast_self x2 shapeCasts_S1x256_S1x256) (ix2 (0 : Fin 1) q))

/-! ## A block against the whole array -/

/-- The finalize formula applied to every row of a [100000, 256] array, gamma and beta given as one row each. -/
def finalArr (A0 : S100000x256.Idx → EReal) (A1 A2 : S1x256.Idx → EReal) : S100000x256.Idx → EReal :=
  fun i => finalRow (fun k => A0 (ix2 (i 0) k)) (A1 (ix2 (0 : Fin 1) (i 1))) (A2 (ix2 (0 : Fin 1) (i 1))) (i 1)

/-- The finalize formula of equal rows, scales, shifts and columns is equal. -/
theorem finalRow_congr {row row' : Fin 256 → EReal} {g g' b b' : EReal} {q q' : Fin 256}
    (hrow : row = row') (hg : g = g') (hb : b = b') (hq : q = q') : finalRow row g b q = finalRow row' g' b' q' := by
  subst hrow hg hb hq; rfl

/-- A block whose rows are rows 10000 tv … 10000 tv + 9999 of an array, finalized with the array's gamma and beta rows,
    holds at index j what the finalized array holds at the index i that j names: row 10000 tv + j₀, column j₁. -/
theorem pay2_block (tv : ℕ) (x0 : Vec Ideal S10000x256 .f32) (x1 x2 : Vec Ideal S1x256 .f32)
    (A0 : S100000x256.Idx → EReal) (A1 A2 : S1x256.Idx → EReal)
    (h0 : ∀ (p : Fin 10000) (k : Fin 256) (r : Fin 100000), r.val = tv * 10000 + p.val → x0 (ix2 p k) = A0 (ix2 r k))
    (h1 : ∀ q : Fin 256, x1 (ix2 (0 : Fin 1) q) = A1 (ix2 (0 : Fin 1) q))
    (h2 : ∀ q : Fin 256, x2 (ix2 (0 : Fin 1) q) = A2 (ix2 (0 : Fin 1) q))
    (j : S10000x256.Idx) (i : S100000x256.Idx)
    (hi0 : (i 0).val = tv * 10000 + (j 0).val) (hi1 : (i 1).val = (j 1).val) :
    k2_pay1 (F := Ideal) x0 x1 x2 j = finalArr A0 A1 A2 i := by
  obtain ⟨p, q, rfl⟩ : ∃ (p : Fin 10000) (q : Fin 256), j = ix2 p q := ⟨j 0, j 1, eq_ix2 j⟩
  obtain ⟨r, q', rfl⟩ : ∃ (r : Fin 100000) (q' : Fin 256), i = ix2 r q' := ⟨i 0, i 1, eq_ix2 i⟩
  obtain rfl : q' = q := Fin.ext hi1
  refine (pay2_apply x0 x1 x2 p q').trans ?_
  exact finalRow_congr (funext fun k => h0 p k r hi0) (h1 q') (h2 q') rfl

/-- Region 3's body is the same arithmetic as region 2's: the two payloads are one term. -/
theorem pay3_block (tv : ℕ) (x0 : Vec Ideal S10000x256 .f32) (x1 x2 : Vec Ideal S1x256 .f32)
    (A0 : S100000x256.Idx → EReal) (A1 A2 : S1x256.Idx → EReal)
    (h0 : ∀ (p : Fin 10000) (k : Fin 256) (r : Fin 100000), r.val = tv * 10000 + p.val → x0 (ix2 p k) = A0 (ix2 r k))
    (h1 : ∀ q : Fin 256, x1 (ix2 (0 : Fin 1) q) = A1 (ix2 (0 : Fin 1) q))
    (h2 : ∀ q : Fin 256, x2 (ix2 (0 : Fin 1) q) = A2 (ix2 (0 : Fin 1) q))
    (j : S10000x256.Idx) (i : S100000x256.Idx)
    (hi0 : (i 0).val = tv * 10000 + (j 0).val) (hi1 : (i 1).val = (j 1).val) :
    k3_pay1 (F := Ideal) x0 x1 x2 j = finalArr A0 A1 A2 i :=
  (show k3_pay1 (F := Ideal) x0 x1 x2 j = k2_pay1 (F := Ideal) x0 x1 x2 j from rfl).trans
    (pay2_block tv x0 x1 x2 A0 A1 A2 h0 h1 h2 j i hi0 hi1)

variable (V : (c : Dev nD) → (b : Ref sig .tc) → Buf (Elt Ideal) ((c : Thread nD τ).loc b))

/-! ## Region 2 -/

/-- The printed index maps of region 2, decided over the ten grid points: the row-tiled windows sit at block row t,
    column block 0; gamma's and beta's windows are whole at every point. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Window 0's block at point t is rows 10000 t … 10000 t + 9999 of its array. -/
theorem iblk2_0_apply (c : Dev nD) (t : Fin cfg2.N) (x : S10000x256.Idx) (k : S100000x256.Idx)
    (hk0 : (k 0).val = t.val * 10000 + (x 0).val) (hk1 : (k 1).val = (x 1).val) :
    (iblk2 V c 0 t : Vec Ideal S10000x256 .f32) x = (V c (Pipeline.arrRef spec2 0) : S100000x256.Idx → EReal) k := by
  obtain ⟨e0, e1, -⟩ := idx_facts2 t
  unfold iblk2
  rw [View.read_apply]
  show (V c (Pipeline.arrRef spec2 0) : S100000x256.Idx → EReal) _ = _
  refine congrArg (V c (Pipeline.arrRef spec2 0) : S100000x256.Idx → EReal) ?_
  funext a
  apply Fin.ext
  match a with
  | ⟨0, _⟩ => show win2_0.index t (0 : Fin 2) * 10000 + 1 * (x 0).val = (k 0).val; rw [e0, hk0]; omega
  | ⟨1, _⟩ => show win2_0.index t (1 : Fin 2) * 256 + 1 * (x 1).val = (k 1).val; rw [e1, hk1]; omega

/-- Gamma's window holds its whole one-row array at every point. -/
theorem iblk2_1_apply (c : Dev nD) (t : Fin cfg2.N) (x : S1x256.Idx) :
    (iblk2 V c 1 t : Vec Ideal S1x256 .f32) x = (V c (Pipeline.arrRef spec2 1) : S1x256.Idx → EReal) x := by
  obtain ⟨-, -, e0, e1, -⟩ := idx_facts2 t
  unfold iblk2
  rw [View.read_apply]
  show (V c (Pipeline.arrRef spec2 1) : S1x256.Idx → EReal) _ = _
  refine congrArg (V c (Pipeline.arrRef spec2 1) : S1x256.Idx → EReal) ?_
  funext a
  apply Fin.ext
  match a with
  | ⟨0, _⟩ => show win2_1.index t (0 : Fin 2) * 1 + 1 * (x 0).val = (x 0).val; rw [e0]; omega
  | ⟨1, _⟩ => show win2_1.index t (1 : Fin 2) * 256 + 1 * (x 1).val = (x 1).val; rw [e1]; omega

/-- Beta's window holds its whole one-row array at every point. -/
theorem iblk2_2_apply (c : Dev nD) (t : Fin cfg2.N) (x : S1x256.Idx) :
    (iblk2 V c 2 t : Vec Ideal S1x256 .f32) x = (V c (Pipeline.arrRef spec2 2) : S1x256.Idx → EReal) x := by
  obtain ⟨-, -, -, -, e0, e1, -⟩ := idx_facts2 t
  unfold iblk2
  rw [View.read_apply]
  show (V c (Pipeline.arrRef spec2 2) : S1x256.Idx → EReal) _ = _
  refine congrArg (V c (Pipeline.arrRef spec2 2) : S1x256.Idx → EReal) ?_
  funext a
  apply Fin.ext
  match a with
  | ⟨0, _⟩ => show win2_2.index t (0 : Fin 2) * 1 + 1 * (x 0).val = (x 0).val; rw [e0]; omega
  | ⟨1, _⟩ => show win2_2.index t (1 : Fin 2) * 256 + 1 * (x 1).val = (x 1).val; rw [e1]; omega

/-- What point t writes back to the output window is block t of the finalize formula applied to every row of the
    region's input array, with gamma's and beta's rows. -/
theorem flushed2_eq (c : Dev nD) (t : Fin cfg2.N) :
    (dat2 (F := Ideal) V c).flushed 3 t = ((cfg2.win 3).blk t).view.read (Elt Ideal)
      (finalArr (V c (Pipeline.arrRef spec2 0)) (V c (Pipeline.arrRef spec2 1)) (V c (Pipeline.arrRef spec2 2))) := by
  show (cfg2.win 3).cut (grid2.coords t) ((dat2 V c).after 3 t) = _
  rw [after2_3]
  unfold out2_3
  rw [View.canon_unit_zero zero_off]
  simp only [View.ld_unit_zero (S := S10000x256) zero_off, View.ld_unit_zero (S := S1x256) zero_off]
  obtain ⟨-, -, -, -, -, -, e0, e1⟩ := idx_facts2 t
  funext j
  show k2_pay1 (F := Ideal) (iblk2 V c 0 t) (iblk2 V c 1 t) (iblk2 V c 2 t) j
    = finalArr (V c (Pipeline.arrRef spec2 0)) (V c (Pipeline.arrRef spec2 1)) (V c (Pipeline.arrRef spec2 2))
        (((cfg2.win 3).blk t).view.emb j)
  refine pay2_block t.val (iblk2 V c 0 t) (iblk2 V c 1 t) (iblk2 V c 2 t) (V c (Pipeline.arrRef spec2 0))
    (V c (Pipeline.arrRef spec2 1)) (V c (Pipeline.arrRef spec2 2))
    (fun p k r hr => iblk2_0_apply V c t (ix2 p k) (ix2 r k) hr rfl)
    (fun q => iblk2_1_apply V c t (ix2 (0 : Fin 1) q))
    (fun q => iblk2_2_apply V c t (ix2 (0 : Fin 1) q)) j (((cfg2.win 3).blk t).view.emb j) ?_ ?_
  · show win2_3.index t (0 : Fin 2) * 10000 + 1 * (j 0).val = t.val * 10000 + (j 0).val
    rw [e0]; omega
  · show win2_3.index t (1 : Fin 2) * 256 + 1 * (j 1).val = (j 1).val
    rw [e1]; omega

/-- An index of the output array is in point t's block iff each coordinate is in the block's range on its axis. -/
theorem mem_blk2 (t : Fin cfg2.N) (i : S100000x256.Idx) :
    i ∈ ((cfg2.win 3).blk t).view.set ↔ ∀ a : Fin 2, win2_3.index t a * S10000x256.size a ≤ (i a).val
      ∧ (i a).val < win2_3.index t a * S10000x256.size a + S10000x256.size a := by
  show i ∈ ((View.whole main_v88).slice (win2_3.rect t)).set ↔ _
  rw [View.set_slice_whole, Rect.mem_set_unit]
  exact Iff.rfl

/-- Every index of the output array is in the block of the point its row falls in: row r is in block r / 10000. -/
theorem cover2 (i : S100000x256.Idx) :
    ∃ t : Fin cfg2.N, (cfg2.win 3).flush t = true ∧ i ∈ ((cfg2.win 3).blk t).view.set := by
  have hN : grid2.N = 10 := N_2
  have hi0 : (i 0).val < 100000 := (i 0).isLt
  have hi1 : (i 1).val < 256 := (i 1).isLt
  let t : Fin cfg2.N := ⟨(i 0).val / 10000, by show _ < grid2.N; rw [hN]; omega⟩
  have ht : t.val = (i 0).val / 10000 := rfl
  obtain ⟨-, -, -, -, -, -, e0, e1⟩ := idx_facts2 t
  refine ⟨t, flush2_3 t, ?_⟩
  rw [mem_blk2]
  intro a
  match a with
  | ⟨0, _⟩ =>
    show win2_3.index t (0 : Fin 2) * 10000 ≤ (i 0).val ∧ (i 0).val < win2_3.index t (0 : Fin 2) * 10000 + 10000
    rw [e0, ht]; omega
  | ⟨1, _⟩ =>
    show win2_3.index t (1 : Fin 2) * 256 ≤ (i 1).val ∧ (i 1).val < win2_3.index t (1 : Fin 2) * 256 + 256
    rw [e1]; omega

/-- Region 2's output array after the whole pipeline: the finalize formula applied to every row. -/
theorem final2 (c : Dev nD) : (dat2 (F := Ideal) V c).arrAt 3 cfg2.N
    = finalArr (V c (Pipeline.arrRef spec2 0)) (V c (Pipeline.arrRef spec2 1)) (V c (Pipeline.arrRef spec2 2)) :=
  (dat2 (F := Ideal) V c).arrAt_eq_of_cover 3
    (finalArr (V c (Pipeline.arrRef spec2 0)) (V c (Pipeline.arrRef spec2 1)) (V c (Pipeline.arrRef spec2 2)))
    (fun t _ => flushed2_eq V c t) cover2

/-- Region 2's output array at row r, column q: the finalize formula of row r of the input array, with gamma and beta
    at column q. -/
theorem final2_apply (c : Dev nD) (r : Fin 100000) (q : Fin 256) :
    (dat2 (F := Ideal) V c).arrAt 3 cfg2.N (ix2 r q)
      = finalRow (fun k => V c (Pipeline.arrRef spec2 0) (ix2 r k)) (V c (Pipeline.arrRef spec2 1) (ix2 (0 : Fin 1) q))
          (V c (Pipeline.arrRef spec2 2) (ix2 (0 : Fin 1) q)) q :=
  congrFun (final2 V c) (ix2 r q)

/-! ## Region 3 -/

/-- The printed index maps of region 3, decided over the ten grid points: the row-tiled windows sit at block row t,
    column block 0; gamma's and beta's windows are whole at every point. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Window 0's block at point t is rows 10000 t … 10000 t + 9999 of its array. -/
theorem iblk3_0_apply (c : Dev nD) (t : Fin cfg3.N) (x : S10000x256.Idx) (k : S100000x256.Idx)
    (hk0 : (k 0).val = t.val * 10000 + (x 0).val) (hk1 : (k 1).val = (x 1).val) :
    (iblk3 V c 0 t : Vec Ideal S10000x256 .f32) x = (V c (Pipeline.arrRef spec3 0) : S100000x256.Idx → EReal) k := by
  obtain ⟨e0, e1, -⟩ := idx_facts3 t
  unfold iblk3
  rw [View.read_apply]
  show (V c (Pipeline.arrRef spec3 0) : S100000x256.Idx → EReal) _ = _
  refine congrArg (V c (Pipeline.arrRef spec3 0) : S100000x256.Idx → EReal) ?_
  funext a
  apply Fin.ext
  match a with
  | ⟨0, _⟩ => show win3_0.index t (0 : Fin 2) * 10000 + 1 * (x 0).val = (k 0).val; rw [e0, hk0]; omega
  | ⟨1, _⟩ => show win3_0.index t (1 : Fin 2) * 256 + 1 * (x 1).val = (k 1).val; rw [e1, hk1]; omega

/-- Gamma's window holds its whole one-row array at every point. -/
theorem iblk3_1_apply (c : Dev nD) (t : Fin cfg3.N) (x : S1x256.Idx) :
    (iblk3 V c 1 t : Vec Ideal S1x256 .f32) x = (V c (Pipeline.arrRef spec3 1) : S1x256.Idx → EReal) x := by
  obtain ⟨-, -, e0, e1, -⟩ := idx_facts3 t
  unfold iblk3
  rw [View.read_apply]
  show (V c (Pipeline.arrRef spec3 1) : S1x256.Idx → EReal) _ = _
  refine congrArg (V c (Pipeline.arrRef spec3 1) : S1x256.Idx → EReal) ?_
  funext a
  apply Fin.ext
  match a with
  | ⟨0, _⟩ => show win3_1.index t (0 : Fin 2) * 1 + 1 * (x 0).val = (x 0).val; rw [e0]; omega
  | ⟨1, _⟩ => show win3_1.index t (1 : Fin 2) * 256 + 1 * (x 1).val = (x 1).val; rw [e1]; omega

/-- Beta's window holds its whole one-row array at every point. -/
theorem iblk3_2_apply (c : Dev nD) (t : Fin cfg3.N) (x : S1x256.Idx) :
    (iblk3 V c 2 t : Vec Ideal S1x256 .f32) x = (V c (Pipeline.arrRef spec3 2) : S1x256.Idx → EReal) x := by
  obtain ⟨-, -, -, -, e0, e1, -⟩ := idx_facts3 t
  unfold iblk3
  rw [View.read_apply]
  show (V c (Pipeline.arrRef spec3 2) : S1x256.Idx → EReal) _ = _
  refine congrArg (V c (Pipeline.arrRef spec3 2) : S1x256.Idx → EReal) ?_
  funext a
  apply Fin.ext
  match a with
  | ⟨0, _⟩ => show win3_2.index t (0 : Fin 2) * 1 + 1 * (x 0).val = (x 0).val; rw [e0]; omega
  | ⟨1, _⟩ => show win3_2.index t (1 : Fin 2) * 256 + 1 * (x 1).val = (x 1).val; rw [e1]; omega

/-- What point t writes back to the output window is block t of the finalize formula applied to every row of the
    region's input array, with gamma's and beta's rows. -/
theorem flushed3_eq (c : Dev nD) (t : Fin cfg3.N) :
    (dat3 (F := Ideal) V c).flushed 3 t = ((cfg3.win 3).blk t).view.read (Elt Ideal)
      (finalArr (V c (Pipeline.arrRef spec3 0)) (V c (Pipeline.arrRef spec3 1)) (V c (Pipeline.arrRef spec3 2))) := by
  show (cfg3.win 3).cut (grid3.coords t) ((dat3 V c).after 3 t) = _
  rw [after3_3]
  unfold out3_3
  rw [View.canon_unit_zero zero_off]
  simp only [View.ld_unit_zero (S := S10000x256) zero_off, View.ld_unit_zero (S := S1x256) zero_off]
  obtain ⟨-, -, -, -, -, -, e0, e1⟩ := idx_facts3 t
  funext j
  show k3_pay1 (F := Ideal) (iblk3 V c 0 t) (iblk3 V c 1 t) (iblk3 V c 2 t) j
    = finalArr (V c (Pipeline.arrRef spec3 0)) (V c (Pipeline.arrRef spec3 1)) (V c (Pipeline.arrRef spec3 2))
        (((cfg3.win 3).blk t).view.emb j)
  refine pay3_block t.val (iblk3 V c 0 t) (iblk3 V c 1 t) (iblk3 V c 2 t) (V c (Pipeline.arrRef spec3 0))
    (V c (Pipeline.arrRef spec3 1)) (V c (Pipeline.arrRef spec3 2))
    (fun p k r hr => iblk3_0_apply V c t (ix2 p k) (ix2 r k) hr rfl)
    (fun q => iblk3_1_apply V c t (ix2 (0 : Fin 1) q))
    (fun q => iblk3_2_apply V c t (ix2 (0 : Fin 1) q)) j (((cfg3.win 3).blk t).view.emb j) ?_ ?_
  · show win3_3.index t (0 : Fin 2) * 10000 + 1 * (j 0).val = t.val * 10000 + (j 0).val
    rw [e0]; omega
  · show win3_3.index t (1 : Fin 2) * 256 + 1 * (j 1).val = (j 1).val
    rw [e1]; omega

/-- An index of the output array is in point t's block iff each coordinate is in the block's range on its axis. -/
theorem mem_blk3 (t : Fin cfg3.N) (i : S100000x256.Idx) :
    i ∈ ((cfg3.win 3).blk t).view.set ↔ ∀ a : Fin 2, win3_3.index t a * S10000x256.size a ≤ (i a).val
      ∧ (i a).val < win3_3.index t a * S10000x256.size a + S10000x256.size a := by
  show i ∈ ((View.whole main_v89).slice (win3_3.rect t)).set ↔ _
  rw [View.set_slice_whole, Rect.mem_set_unit]
  exact Iff.rfl

/-- Every index of the output array is in the block of the point its row falls in: row r is in block r / 10000. -/
theorem cover3 (i : S100000x256.Idx) :
    ∃ t : Fin cfg3.N, (cfg3.win 3).flush t = true ∧ i ∈ ((cfg3.win 3).blk t).view.set := by
  have hN : grid3.N = 10 := N_3
  have hi0 : (i 0).val < 100000 := (i 0).isLt
  have hi1 : (i 1).val < 256 := (i 1).isLt
  let t : Fin cfg3.N := ⟨(i 0).val / 10000, by show _ < grid3.N; rw [hN]; omega⟩
  have ht : t.val = (i 0).val / 10000 := rfl
  obtain ⟨-, -, -, -, -, -, e0, e1⟩ := idx_facts3 t
  refine ⟨t, flush3_3 t, ?_⟩
  rw [mem_blk3]
  intro a
  match a with
  | ⟨0, _⟩ =>
    show win3_3.index t (0 : Fin 2) * 10000 ≤ (i 0).val ∧ (i 0).val < win3_3.index t (0 : Fin 2) * 10000 + 10000
    rw [e0, ht]; omega
  | ⟨1, _⟩ =>
    show win3_3.index t (1 : Fin 2) * 256 ≤ (i 1).val ∧ (i 1).val < win3_3.index t (1 : Fin 2) * 256 + 256
    rw [e1]; omega

/-- Region 3's output array after the whole pipeline: the finalize formula applied to every row. -/
theorem final3 (c : Dev nD) : (dat3 (F := Ideal) V c).arrAt 3 cfg3.N
    = finalArr (V c (Pipeline.arrRef spec3 0)) (V c (Pipeline.arrRef spec3 1)) (V c (Pipeline.arrRef spec3 2)) :=
  (dat3 (F := Ideal) V c).arrAt_eq_of_cover 3
    (finalArr (V c (Pipeline.arrRef spec3 0)) (V c (Pipeline.arrRef spec3 1)) (V c (Pipeline.arrRef spec3 2)))
    (fun t _ => flushed3_eq V c t) cover3

/-- Region 3's output array at row r, column q: the finalize formula of row r of the input array, with gamma and beta
    at column q. -/
theorem final3_apply (c : Dev nD) (r : Fin 100000) (q : Fin 256) :
    (dat3 (F := Ideal) V c).arrAt 3 cfg3.N (ix2 r q)
      = finalRow (fun k => V c (Pipeline.arrRef spec3 0) (ix2 r k)) (V c (Pipeline.arrRef spec3 1) (ix2 (0 : Fin 1) q))
          (V c (Pipeline.arrRef spec3 2) (ix2 (0 : Fin 1) q)) q :=
  congrFun (final3 V c) (ix2 r q)

end Cert.RowNormTiles

end
-- ==== Proof.LibSoftmaxRows.lean ====
/-
  Rows of a softmax on the extended reals, with the operations of the ideal float values.

  For a finite family of real scores `e j` with greatest value `M`, the softmax row is
  `a j = exp (e j - M) / S` with `S = Σ_j exp (e j - M)`; every `exp (e j - M)` is a real in
  `(0, 1]`, one of them is `1`, so `S` is a real that is at least one.

  Contents:
  * `fold_max_coe`, `max_negInf_fold_max_coe`: the fold of `max` from `-∞` over real scores is their
    greatest value;
  * `exp_sub_coe`, `sum_exp_coe`, `one_le_sum_exp`: the numerators and the denominator are real, the
    denominator at least one;
  * `softmax_entry_coe`: an entry of the row is the real quotient;
  * `sum_softmax_eq_one` (and `zero_add_sum_softmax_eq_one`): (a) a softmaxed row sums to one;
  * `degFactor`, `degFactor_one`, `normalized_entry`, `normalized_softmax_entry`: (b) the symmetric degree
    normalization of an array whose rows sum to one is the identity;
  * `sum_div_mul_coe`, `div_sum_mul_coe`, `sum_div_mul_eq_div_sum_mul`: (c) the quotient moves across the
    sum, `Σ_j (p j / S) * v j = (Σ_j p j * v j) / S`;
  * `sum_softmax_mul_eq_div`: the softmax-weighted sum of real values as one quotient.
-/
import Mathlib.Data.EReal.Inv
import Mathlib.Analysis.SpecialFunctions.Exp
import Mathlib.Algebra.BigOperators.Group.Finset.Basic
import Mathlib.Algebra.Order.BigOperators.Group.Finset
import Mathlib.Data.Finset.Fold
import Mathlib.Tactic.Ring
import Idealize.ShloMosaic.PureOps.Ideal.Laws

noncomputable section

namespace Cert.LibSoftmaxRows

open scoped BigOperators
open Idealize.ShloMosaic

/-! ## Words, coercions -/

/-- The f32 word `0xFF800000` denotes `-∞`, the bottom of the extended reals. -/
theorem ofBits_negInf_f32 : Ideal.ofBits .f32 0xFF800000#32 = (⊥ : EReal) := by
  simp [Ideal.ofBits, Ideal.ieee]

/-- The f32 word `0x3F800000` denotes one. -/
theorem ofBits_one_f32 : Ideal.ofBits .f32 0x3F800000#32 = (1 : EReal) := by
  simp [Ideal.ofBits, Ideal.ieee, -EReal.coe_mul]; norm_num

/-- The embedding of the reals into the extended reals commutes with finite sums. -/
theorem coe_sum {ι : Type*} (s : Finset ι) (f : ι → ℝ) :
    ((∑ i ∈ s, f i : ℝ) : EReal) = ∑ i ∈ s, ((f i : ℝ) : EReal) := by
  classical
  refine Finset.induction_on s (by simp) ?_
  intro a s ha ih
  rw [Finset.sum_insert ha, Finset.sum_insert ha, EReal.coe_add, ih]

/-- The ideal quotient of the images of two reals, the divisor nonzero, is the image of the real
    quotient. -/
theorem div_coe_coe (a : ℝ) {c : ℝ} (hc : c ≠ 0) :
    Ideal.div (a : EReal) (c : EReal) = ((a / c : ℝ) : EReal) := by
  rw [Ideal.div_coe hc, ← EReal.coe_mul, mul_one_div]

/-! ## The row maximum -/

/-- The fold of `max` from `-∞` over a finite family of real scores is their greatest value `M`
    (an upper bound that is attained). -/
theorem fold_max_coe {ι : Type*} [Fintype ι] (e : ι → ℝ) (M : ℝ) (hub : ∀ j, e j ≤ M)
    (hat : ∃ j, e j = M) :
    (Finset.univ : Finset ι).fold max (Ideal.ofBits .f32 0xFF800000#32) (fun j => (e j : EReal))
      = (M : EReal) := by
  rw [ofBits_negInf_f32]
  apply le_antisymm
  · rw [Finset.fold_max_le]
    exact ⟨bot_le, fun j _ => EReal.coe_le_coe_iff.mpr (hub j)⟩
  · rw [Finset.le_fold_max]
    obtain ⟨j, hj⟩ := hat
    exact Or.inr ⟨j, Finset.mem_univ j, by rw [hj]⟩

/-- The same after one more `max` with `-∞` on the left, as a host softmax takes it. -/
theorem max_negInf_fold_max_coe {ι : Type*} [Fintype ι] (e : ι → ℝ) (M : ℝ) (hub : ∀ j, e j ≤ M)
    (hat : ∃ j, e j = M) :
    max (Ideal.ofBits .f32 0xFF800000#32)
        ((Finset.univ : Finset ι).fold max (Ideal.ofBits .f32 0xFF800000#32)
          (fun j => (e j : EReal)))
      = (M : EReal) := by
  rw [fold_max_coe e M hub hat, ofBits_negInf_f32, max_eq_right bot_le]

/-! ## Numerators and denominator -/

/-- The exponential of a difference of two reals is the real exponential of the difference. -/
theorem exp_sub_coe (x M : ℝ) :
    Ideal.exp ((x : EReal) - (M : EReal)) = ((Real.exp (x - M) : ℝ) : EReal) := by
  rw [← EReal.coe_sub, Ideal.exp_coe]

/-- The sum of the exponentials `exp (e j - M)` is the image of the real sum. -/
theorem sum_exp_coe {ι : Type*} [Fintype ι] (e : ι → ℝ) (M : ℝ) :
    ∑ j, Ideal.exp ((e j : EReal) - (M : EReal)) = ((∑ j, Real.exp (e j - M) : ℝ) : EReal) := by
  rw [coe_sum]; exact Finset.sum_congr rfl fun j _ => exp_sub_coe _ _

/-- With `M` attained, the real sum of the exponentials `exp (e j - M)` is at least one: the term
    at the greatest score is `exp 0 = 1`, the others are not negative. -/
theorem one_le_sum_exp {ι : Type*} [Fintype ι] (e : ι → ℝ) (M : ℝ) (hat : ∃ j, e j = M) :
    1 ≤ ∑ j, Real.exp (e j - M) := by
  obtain ⟨j, hj⟩ := hat
  have h1 : Real.exp (e j - M) = 1 := by rw [hj, sub_self, Real.exp_zero]
  calc (1 : ℝ) = Real.exp (e j - M) := h1.symm
    _ ≤ ∑ j', Real.exp (e j' - M) :=
        Finset.single_le_sum (f := fun j' => Real.exp (e j' - M))
          (fun _ _ => (Real.exp_pos _).le) (Finset.mem_univ j)

/-- Hence that sum is not zero. -/
theorem sum_exp_ne_zero {ι : Type*} [Fintype ι] (e : ι → ℝ) (M : ℝ) (hat : ∃ j, e j = M) :
    (∑ j, Real.exp (e j - M)) ≠ 0 :=
  (lt_of_lt_of_le one_pos (one_le_sum_exp e M hat)).ne'

/-- Each exponential `exp (e j - M)`, `M` an upper bound, is a real in `(0, 1]`. -/
theorem exp_sub_pos_le_one {ι : Type*} (e : ι → ℝ) (M : ℝ) (hub : ∀ j, e j ≤ M) (j : ι) :
    0 < Real.exp (e j - M) ∧ Real.exp (e j - M) ≤ 1 :=
  ⟨Real.exp_pos _, Real.exp_le_one_iff.mpr (sub_nonpos.mpr (hub j))⟩

/-! ## (a) A softmaxed row sums to one -/

/-- An entry of the softmax row, `exp (e j - M)` divided by the sum of all of them, is the image of
    the real quotient. -/
theorem softmax_entry_coe {ι : Type*} [Fintype ι] (e : ι → ℝ) (M : ℝ) (hat : ∃ j, e j = M) (j : ι) :
    Ideal.div (Ideal.exp ((e j : EReal) - (M : EReal)))
        (∑ j', Ideal.exp ((e j' : EReal) - (M : EReal)))
      = ((Real.exp (e j - M) / ∑ j', Real.exp (e j' - M) : ℝ) : EReal) := by
  rw [sum_exp_coe, exp_sub_coe, div_coe_coe _ (sum_exp_ne_zero e M hat)]

/-- (a) A softmaxed row sums to one: with `M` attained by the scores, the sum over `j` of
    `exp (e j - M) / Σ_j' exp (e j' - M)` is `1`. -/
theorem sum_softmax_eq_one {ι : Type*} [Fintype ι] (e : ι → ℝ) (M : ℝ) (hat : ∃ j, e j = M) :
    ∑ j, Ideal.div (Ideal.exp ((e j : EReal) - (M : EReal)))
        (∑ j', Ideal.exp ((e j' : EReal) - (M : EReal))) = 1 := by
  have hS := sum_exp_ne_zero e M hat
  have h : ∀ j, Ideal.div (Ideal.exp ((e j : EReal) - (M : EReal)))
        (∑ j', Ideal.exp ((e j' : EReal) - (M : EReal)))
      = ((Real.exp (e j - M) / ∑ j', Real.exp (e j' - M) : ℝ) : EReal) :=
    softmax_entry_coe e M hat
  rw [Finset.sum_congr rfl fun j _ => h j, ← coe_sum, ← Finset.sum_div, div_self hS, EReal.coe_one]

/-- (a) with both sums started from zero, as a host sum is (`0 + Σ`). -/
theorem zero_add_sum_softmax_eq_one {ι : Type*} [Fintype ι] (e : ι → ℝ) (M : ℝ)
    (hat : ∃ j, e j = M) :
    (0 : EReal) + ∑ j, Ideal.div (Ideal.exp ((e j : EReal) - (M : EReal)))
        (0 + ∑ j', Ideal.exp ((e j' : EReal) - (M : EReal))) = 1 := by
  simp only [zero_add]; exact sum_softmax_eq_one e M hat

/-! ## (b) The symmetric degree normalization of rows that sum to one -/

/-- The degree factor of the symmetric normalization computed from a row sum `d`:
    `d > 0` selects `rsqrt` of (`d` where `d > 0`, else one), else zero. -/
def degFactor (d : EReal) : EReal :=
  Scalar.select (FloatOps.cmpf (F := Ideal) (φ := .f32) .ogt d (Ideal.ofBits .f32 0x00000000#32))
    (FloatOps.hostUnary (F := Ideal) (φ := .f32) .rsqrt
      (Scalar.select
        (FloatOps.cmpf (F := Ideal) (φ := .f32) .ogt d (Ideal.ofBits .f32 0x00000000#32)) d
        (Ideal.ofBits .f32 0x3F800000#32)))
    (Ideal.ofBits .f32 0x00000000#32)

/-- One is above zero: the comparison is true. -/
theorem cmp_ogt_one_zero : Ideal.cmp .ogt (1 : EReal) 0 = 1#1 := by
  simp [Ideal.cmp]

/-- The reciprocal square root of one is one. -/
theorem rsqrt_one : Ideal.rsqrt (1 : EReal) = 1 := by
  rw [← EReal.coe_one, Ideal.rsqrt_coe, if_neg (by norm_num), if_neg one_ne_zero, Real.sqrt_one,
    inv_one]

/-- (b) At a row sum of one the degree factor is one: the comparison `1 > 0` is true, the select
    gives `1`, and `rsqrt 1 = 1`. -/
theorem degFactor_one : degFactor 1 = 1 := by
  unfold degFactor
  have hs : ∀ a b : EReal, Scalar.select (1#1) a b = a := fun a b => if_pos rfl
  rw [Ideal.cmpf_def, Ideal.ofBits_zero_f32, cmp_ogt_one_zero, hs, hs, Ideal.hostUnary_rsqrt_def,
    rsqrt_one]

/-- The same for any row sum that equals one. -/
theorem degFactor_of_eq_one {d : EReal} (hd : d = 1) : degFactor d = 1 := by
  rw [hd, degFactor_one]

/-- (b) An entry `a` multiplied by the degree factors of two row sums that are one is `a`. -/
theorem normalized_entry (di dj a : EReal) (hi : di = 1) (hj : dj = 1) :
    FloatOps.mulf (F := Ideal) (φ := .f32)
        (FloatOps.mulf (F := Ideal) (φ := .f32) (degFactor di) a) (degFactor dj) = a := by
  rw [degFactor_of_eq_one hi, degFactor_of_eq_one hj, Ideal.mulf_def, Ideal.mulf_def, one_mul,
    mul_one]

/-- (b) for a square array of softmaxed rows: with row `i`'s scores `e i j` attaining their
    greatest value `M i`, the entry `exp (e i j - M i) / (0 + Σ_j' exp (e i j' - M i))` multiplied
    by the degree factors of the row sums (each started from zero) of rows `i` and `j` is the
    entry itself. -/
theorem normalized_softmax_entry {ι : Type*} [Fintype ι] (e : ι → ι → ℝ) (M : ι → ℝ)
    (hat : ∀ i, ∃ j, e i j = M i) (i j : ι) :
    FloatOps.mulf (F := Ideal) (φ := .f32)
        (FloatOps.mulf (F := Ideal) (φ := .f32)
          (degFactor ((0 : EReal) + ∑ j₁, Ideal.div (Ideal.exp ((e i j₁ : EReal) - (M i : EReal)))
            (0 + ∑ j', Ideal.exp ((e i j' : EReal) - (M i : EReal)))))
          (Ideal.div (Ideal.exp ((e i j : EReal) - (M i : EReal)))
            (0 + ∑ j', Ideal.exp ((e i j' : EReal) - (M i : EReal)))))
        (degFactor ((0 : EReal) + ∑ j₁, Ideal.div (Ideal.exp ((e j j₁ : EReal) - (M j : EReal)))
          (0 + ∑ j', Ideal.exp ((e j j' : EReal) - (M j : EReal)))))
      = Ideal.div (Ideal.exp ((e i j : EReal) - (M i : EReal)))
          (0 + ∑ j', Ideal.exp ((e i j' : EReal) - (M i : EReal))) :=
  normalized_entry _ _ _ (zero_add_sum_softmax_eq_one (e i) (M i) (hat i))
    (zero_add_sum_softmax_eq_one (e j) (M j) (hat j))

/-! ## (c) The quotient moves across the sum -/

/-- The sum of the quotients `p j / S` times `v j`, all real and `S ≠ 0`, is the image of the
    real sum. -/
theorem sum_div_mul_coe {ι : Type*} [Fintype ι] (p v : ι → ℝ) {S : ℝ} (hS : S ≠ 0) :
    ∑ j, Ideal.div (p j : EReal) (S : EReal) * (v j : EReal)
      = ((∑ j, p j / S * v j : ℝ) : EReal) := by
  rw [coe_sum]
  exact Finset.sum_congr rfl fun j _ => by rw [div_coe_coe _ hS, ← EReal.coe_mul]

/-- The quotient by `S ≠ 0` of the sum of the products `p j * v j`, all real, is the image of the
    same real sum. -/
theorem div_sum_mul_coe {ι : Type*} [Fintype ι] (p v : ι → ℝ) {S : ℝ} (hS : S ≠ 0) :
    Ideal.div (∑ j, (p j : EReal) * (v j : EReal)) (S : EReal)
      = ((∑ j, p j / S * v j : ℝ) : EReal) := by
  have h : ∑ j, (p j : EReal) * (v j : EReal) = ((∑ j, p j * v j : ℝ) : EReal) := by
    rw [coe_sum]; exact Finset.sum_congr rfl fun j _ => (EReal.coe_mul _ _).symm
  rw [h, div_coe_coe _ hS, Finset.sum_div]
  congr 1
  exact Finset.sum_congr rfl fun j _ => (div_mul_eq_mul_div _ _ _).symm

/-- (c) The quotient moves across the sum: `Σ_j (p j / S) * v j = (Σ_j p j * v j) / S` for reals
    with `S ≠ 0`, in the extended reals with the ideal quotient. -/
theorem sum_div_mul_eq_div_sum_mul {ι : Type*} [Fintype ι] (p v : ι → ℝ) {S : ℝ} (hS : S ≠ 0) :
    ∑ j, Ideal.div (p j : EReal) (S : EReal) * (v j : EReal)
      = Ideal.div (∑ j, (p j : EReal) * (v j : EReal)) (S : EReal) := by
  rw [sum_div_mul_coe p v hS, div_sum_mul_coe p v hS]

/-- The softmax-weighted sum of real values: the sum over `j` of the row entry
    `exp (e j - M) / Σ_j' exp (e j' - M)` times `v j` is the image of the real sum of
    `exp (e j - M) / S * v j`, `S` the real sum of the exponentials. -/
theorem sum_softmax_mul_coe {ι : Type*} [Fintype ι] (e v : ι → ℝ) (M : ℝ) (hat : ∃ j, e j = M) :
    ∑ j, Ideal.div (Ideal.exp ((e j : EReal) - (M : EReal)))
        (∑ j', Ideal.exp ((e j' : EReal) - (M : EReal))) * (v j : EReal)
      = ((∑ j, Real.exp (e j - M) / (∑ j', Real.exp (e j' - M)) * v j : ℝ) : EReal) := by
  rw [coe_sum]
  exact Finset.sum_congr rfl fun j _ => by rw [softmax_entry_coe e M hat j, ← EReal.coe_mul]

/-- The softmax-weighted sum of real values as ONE quotient: the sum over `j` of the row entry
    times `v j` is the sum of `exp (e j - M) * v j` divided by the sum of `exp (e j - M)`. -/
theorem sum_softmax_mul_eq_div {ι : Type*} [Fintype ι] (e v : ι → ℝ) (M : ℝ)
    (hat : ∃ j, e j = M) :
    ∑ j, Ideal.div (Ideal.exp ((e j : EReal) - (M : EReal)))
        (∑ j', Ideal.exp ((e j' : EReal) - (M : EReal))) * (v j : EReal)
      = Ideal.div (∑ j, Ideal.exp ((e j : EReal) - (M : EReal)) * (v j : EReal))
          (∑ j', Ideal.exp ((e j' : EReal) - (M : EReal))) := by
  have hS := sum_exp_ne_zero e M hat
  simp only [exp_sub_coe]
  rw [← coe_sum]
  exact sum_div_mul_eq_div_sum_mul (fun j => Real.exp (e j - M)) v hS

end Cert.LibSoftmaxRows
-- ==== Proof.RefFinalize.lean ====
/-
  The reference's finalize, read at one entry, and the law that makes it the kernel's row formula.

  For a row x of 256 numbers the reference takes y k = max (x k) 0, the mean μ = (0 + ∑ₖ y k) / 256, the mean squared
  deviation σ² = (0 + ∑ₖ (y k − μ)²) / 256, and writes ((y q − μ) / √(σ² + ε)) · g + b, where 256 and ε are given by
  their f32 words.  The kernel's row formula has the product (y q − μ) · rsqrt(σ² + ε) where the reference has the
  quotient by the square root.

  On the extended reals a quotient by a nonzero real is the product with its reciprocal, whatever the dividend, and
  for a positive real s both √s and rsqrt s = (√s)⁻¹ are real, so x / √s = x · rsqrt s for every x.  When the row is
  real-valued, so are the y k, the mean, every deviation and every square; σ² is a sum of squares of reals over 256,
  hence a nonnegative real, and ε is a positive real, so σ² + ε is a positive real and the two formulas agree.

  Entry (r, q) of either output of the reference depends on row r of the aggregated features only: the reduce along
  axis 1 reads that row, and every broadcast reads the column of means (of root mean squares) at row r, or the scale
  and shift vectors at column q.
-/
import proofs.«136471_j9208409883351_2_alg».proof.Proof.Gen.ReferenceIdeal.Read
import proofs.«136471_j9208409883351_2_alg».proof.Proof.FinalRow
import proofs.«136471_j9208409883351_2_alg».proof.Proof.LibSoftmaxRows

noncomputable section

namespace Cert.RefFinalize

open Cert.ReferenceIdeal Cert.ReferenceIdeal.Read Cert.FinalRow Idealize.ShloMosaic Idealize.ShloMosaic.ValueIdx
open Cert.LibSoftmaxRows (coe_sum div_coe_coe)

/-! ## The two words -/

/-- The f32 word `0x43800000` denotes 256 = 2²³ · 2⁻¹⁵. -/
theorem ofBits_256 : Ideal.ofBits .f32 0x43800000#32 = ((256 : ℝ) : EReal) := by
  simp [Ideal.ofBits, Ideal.ieee, -EReal.coe_mul]
  norm_num

/-- The f32 word `0x3727C5AC` (sign 0, exponent field 110, a normal) denotes a positive real. -/
theorem ofBits_eps : ∃ ε : ℝ, 0 < ε ∧ Ideal.ofBits .f32 0x3727C5AC#32 = (ε : EReal) := by
  simp [Ideal.ofBits, Ideal.ieee, -EReal.coe_mul]

/-! ## The law on the extended reals -/

/-- For a positive real s, x / √s = x · rsqrt s for every extended real x: √s is a nonzero real, the quotient by it
    is the product with its reciprocal, and rsqrt s is that reciprocal. -/
theorem div_sqrt_eq_mul_rsqrt (x : EReal) {s : ℝ} (hs : 0 < s) :
    Ideal.div x (Ideal.sqrt (s : EReal)) = x * Ideal.rsqrt (s : EReal) := by
  have hq : Real.sqrt s ≠ 0 := (Real.sqrt_pos.mpr hs).ne'
  rw [Ideal.sqrt_coe, Ideal.rsqrt_coe, if_neg (not_lt.mpr hs.le), if_neg (not_lt.mpr hs.le), if_neg hs.ne',
    Ideal.div_coe hq, one_div]

/-- The mean squared deviation of a real row over a positive real N, plus a positive real ε, is a positive real:
    the mean is the real (∑ⱼ zⱼ) / N, every deviation and its square are real, the sum of the squares is a
    nonnegative real and so is its quotient by N. -/
theorem var_add_eps_coe {ι : Type*} [Fintype ι] (z : ι → ℝ) {N ε : ℝ} (hN : 0 < N) (hε : 0 < ε) :
    ∃ s : ℝ, 0 < s ∧
      Ideal.div (∑ k, ((z k : EReal) - Ideal.div (∑ j, (z j : EReal)) (N : EReal))
          * ((z k : EReal) - Ideal.div (∑ j, (z j : EReal)) (N : EReal))) (N : EReal) + (ε : EReal) = (s : EReal) := by
  refine ⟨(∑ k, (z k - (∑ j, z j) / N) * (z k - (∑ j, z j) / N)) / N + ε,
    add_pos_of_nonneg_of_pos (div_nonneg (Finset.sum_nonneg fun k _ => mul_self_nonneg _) hN.le) hε, ?_⟩
  rw [← coe_sum, div_coe_coe _ hN.ne']
  simp only [← EReal.coe_sub, ← EReal.coe_mul]
  rw [← coe_sum, div_coe_coe _ hN.ne', ← EReal.coe_add]

/-! ## The reference's formula of one row -/

/-- The reference's mean of a row: the sum from a zero initial value, over the word of 256. -/
def hostMean (y : Fin 256 → EReal) : EReal :=
  Ideal.div (Ideal.ofBits .f32 0x00000000#32 + ∑ k, y k) (Ideal.ofBits .f32 0x43800000#32)

/-- The reference's mean squared deviation of a row. -/
def hostVar (y : Fin 256 → EReal) : EReal :=
  Ideal.div (Ideal.ofBits .f32 0x00000000#32 + ∑ k, (y k - hostMean y) * (y k - hostMean y))
    (Ideal.ofBits .f32 0x43800000#32)

/-- The reference's normalized row at column q: the deviation over the square root of (mean squared deviation
    plus ε). -/
def hostLn (y : Fin 256 → EReal) (q : Fin 256) : EReal :=
  Ideal.div (y q - hostMean y) (Ideal.sqrt (hostVar y + Ideal.ofBits .f32 0x3727C5AC#32))

/-- The reference's finalize of one row at column q: the maxima with zero, normalized, times g plus b. -/
def hostRow (row : Fin 256 → EReal) (g b : EReal) (q : Fin 256) : EReal :=
  hostLn (fun k => max (row k) (Ideal.ofBits .f32 0x00000000#32)) q * g + b

/-- On a real row the reference's normalization is the kernel's: the zero initial value drops out of both sums,
    (mean squared deviation + ε) is a positive real, and there the quotient by the square root is the product with
    the reciprocal square root. -/
theorem hostLn_eq_lnRow (y : Fin 256 → EReal) (hy : ∀ k, ∃ z : ℝ, y k = (z : EReal)) (q : Fin 256) :
    hostLn y q = Cert.LibRowNorm.lnRow 0x43800000#32 0x3727C5AC#32 y q := by
  choose z hz using hy
  obtain rfl : y = fun k => (z k : EReal) := funext hz
  obtain ⟨ε, hε, hew⟩ := ofBits_eps
  obtain ⟨s, hs, hs'⟩ := var_add_eps_coe z (N := 256) (by norm_num) hε
  unfold hostLn hostVar hostMean Cert.LibRowNorm.lnRow Cert.LibRowNorm.rowInv Cert.LibRowNorm.rowMean
  simp only [Ideal.ofBits_zero_f32, zero_add, ofBits_256, hew]
  rw [hs', div_sqrt_eq_mul_rsqrt _ hs]

/-- The law, on one real row: the reference's finalize formula is the kernel's.  The maximum of a real with zero
    is a real, so the row of maxima is real and the normalizations agree. -/
theorem hostRow_eq_finalRow (row : Fin 256 → EReal) (hreal : ∀ k, ∃ z : ℝ, row k = (z : EReal)) (g b : EReal)
    (q : Fin 256) : hostRow row g b q = finalRow row g b q := by
  unfold hostRow finalRow
  rw [hostLn_eq_lnRow _ (fun k => ?_)]
  obtain ⟨z, hz⟩ := hreal k
  refine ⟨max z 0, ?_⟩
  show max (row k) (Ideal.ofBits .f32 0x00000000#32) = _
  rw [hz, Ideal.ofBits_zero_f32, ← EReal.coe_zero, EReal.coe_strictMono.monotone.map_max]

/-! ## Which entries the reduce and the broadcasts read

  At entry (r, c): the column of means (of root mean squares) is read at (r, 0), which came from the reduced array
  at r, whose k-th summand is entry (r, k); the scale and the shift, spread [256] → [1, 256] → [100000, 256], are
  read at c. -/

theorem idx_row_v91 (r : Fin 100000) (c k : Fin 256) :
    idx_main_v87 (idx_main_v88 (idx_main_v91 (ix2 r c))) k = ix2 r k :=
  funext fun a => Fin.ext (by match a with | ⟨0, _⟩ => rfl | ⟨1, _⟩ => rfl)

theorem idx_row_v98 (r : Fin 100000) (c k : Fin 256) :
    idx_main_v87 (idx_main_v88 (idx_main_v98 (ix2 r c))) k = ix2 r k :=
  funext fun a => Fin.ext (by match a with | ⟨0, _⟩ => rfl | ⟨1, _⟩ => rfl)

theorem idx_row_v103 (r : Fin 100000) (c k : Fin 256) :
    idx_main_v94 (idx_main_v95 (idx_main_v103 (ix2 r c))) k = ix2 r k :=
  funext fun a => Fin.ext (by match a with | ⟨0, _⟩ => rfl | ⟨1, _⟩ => rfl)

theorem idx_col_v106 (r : Fin 100000) (c : Fin 256) : idx_main_v105 (idx_main_v106 (ix2 r c)) = ix1 c :=
  funext fun a => Fin.ext (by match a with | ⟨0, _⟩ => rfl)

theorem idx_col_v109 (r : Fin 100000) (c : Fin 256) : idx_main_v108 (idx_main_v109 (ix2 r c)) = ix1 c :=
  funext fun a => Fin.ext (by match a with | ⟨0, _⟩ => rfl)

theorem idx_row_v116 (r : Fin 100000) (c k : Fin 256) :
    idx_main_v112 (idx_main_v113 (idx_main_v116 (ix2 r c))) k = ix2 r k :=
  funext fun a => Fin.ext (by match a with | ⟨0, _⟩ => rfl | ⟨1, _⟩ => rfl)

theorem idx_row_v123 (r : Fin 100000) (c k : Fin 256) :
    idx_main_v112 (idx_main_v113 (idx_main_v123 (ix2 r c))) k = ix2 r k :=
  funext fun a => Fin.ext (by match a with | ⟨0, _⟩ => rfl | ⟨1, _⟩ => rfl)

theorem idx_row_v128 (r : Fin 100000) (c k : Fin 256) :
    idx_main_v119 (idx_main_v120 (idx_main_v128 (ix2 r c))) k = ix2 r k :=
  funext fun a => Fin.ext (by match a with | ⟨0, _⟩ => rfl | ⟨1, _⟩ => rfl)

theorem idx_col_v131 (r : Fin 100000) (c : Fin 256) : idx_main_v130 (idx_main_v131 (ix2 r c)) = ix1 c :=
  funext fun a => Fin.ext (by match a with | ⟨0, _⟩ => rfl)

theorem idx_col_v134 (r : Fin 100000) (c : Fin 256) : idx_main_v133 (idx_main_v134 (ix2 r c)) = ix1 c :=
  funext fun a => Fin.ext (by match a with | ⟨0, _⟩ => rfl)

/-! ## The two outputs at an entry -/

/-- The first output at (r, q) is the finalize formula of row r of the first aggregated table, with the scale and
    the shift at q, when that row is real. -/
theorem out_a_apply (x0 x1 : (⟨S100000x256, .f32⟩ : BufTy).Contents (Elt Ideal)) (x4 x5 : (⟨S500000, .i32⟩ : BufTy).Contents (Elt Ideal))
    (x7 : (⟨S256x256, .f32⟩ : BufTy).Contents (Elt Ideal)) (x9 : (⟨S1x256, .f32⟩ : BufTy).Contents (Elt Ideal))
    (x10 x11 : (⟨S256, .f32⟩ : BufTy).Contents (Elt Ideal)) (r : Fin 100000) (q : Fin 256)
    (hreal : ∀ k : Fin 256, ∃ z : ℝ, val_main_v85 (F := Ideal) x0 x1 x4 x5 x7 x9 (ix2 r k) = (z : EReal)) :
    val_main_v110 (F := Ideal) x0 x1 x4 x5 x7 x9 x10 x11 (ix2 r q)
      = finalRow (fun k => val_main_v85 (F := Ideal) x0 x1 x4 x5 x7 x9 (ix2 r k)) (x10 (ix1 q)) (x11 (ix1 q)) q := by
  rw [← hostRow_eq_finalRow _ hreal]
  simp only [val_main_v110_apply, val_main_v109_apply, val_main_v108_apply, val_main_v107_apply, val_main_v106_apply,
    val_main_v105_apply, val_main_v104_apply, val_main_v103_apply, val_main_v102_apply, val_main_v101_apply,
    val_main_v100_apply, val_main_cst_22_apply, val_main_v99_apply, val_main_v98_apply, val_main_v97_apply,
    val_main_v96_apply, val_main_cst_21_apply, val_main_v95_apply, val_main_v94_apply, val_main_cst_20_apply,
    val_main_v93_apply, val_main_v92_apply, val_main_v91_apply, val_main_v90_apply, val_main_v89_apply,
    val_main_cst_19_apply, val_main_v88_apply, val_main_v87_apply, val_main_cst_18_apply, val_main_v86_apply,
    val_main_call0_v0_apply, val_main_call0_cst_apply]
  simp only [idx_row_v91, idx_row_v98, idx_row_v103, idx_col_v106, idx_col_v109]
  simp only [Ideal.addf_def, Ideal.mulf_def, Ideal.subf_def, Ideal.maximumf_def, Ideal.hostDivf_def,
    Ideal.hostUnary_sqrt_def, Ideal.ofBits_def]
  rfl

/-- The second output at (r, q) is the finalize formula of row r of the second aggregated table. -/
theorem out_b_apply (x0 x1 : (⟨S100000x256, .f32⟩ : BufTy).Contents (Elt Ideal)) (x2 x3 : (⟨S500000, .i32⟩ : BufTy).Contents (Elt Ideal))
    (x6 : (⟨S256x256, .f32⟩ : BufTy).Contents (Elt Ideal)) (x8 : (⟨S1x256, .f32⟩ : BufTy).Contents (Elt Ideal))
    (x10 x11 : (⟨S256, .f32⟩ : BufTy).Contents (Elt Ideal)) (r : Fin 100000) (q : Fin 256)
    (hreal : ∀ k : Fin 256, ∃ z : ℝ, val_main_v42 (F := Ideal) x0 x1 x2 x3 x6 x8 (ix2 r k) = (z : EReal)) :
    val_main_v135 (F := Ideal) x0 x1 x2 x3 x6 x8 x10 x11 (ix2 r q)
      = finalRow (fun k => val_main_v42 (F := Ideal) x0 x1 x2 x3 x6 x8 (ix2 r k)) (x10 (ix1 q)) (x11 (ix1 q)) q := by
  rw [← hostRow_eq_finalRow _ hreal]
  simp only [val_main_v135_apply, val_main_v134_apply, val_main_v133_apply, val_main_v132_apply, val_main_v131_apply,
    val_main_v130_apply, val_main_v129_apply, val_main_v128_apply, val_main_v127_apply, val_main_v126_apply,
    val_main_v125_apply, val_main_cst_27_apply, val_main_v124_apply, val_main_v123_apply, val_main_v122_apply,
    val_main_v121_apply, val_main_cst_26_apply, val_main_v120_apply, val_main_v119_apply, val_main_cst_25_apply,
    val_main_v118_apply, val_main_v117_apply, val_main_v116_apply, val_main_v115_apply, val_main_v114_apply,
    val_main_cst_24_apply, val_main_v113_apply, val_main_v112_apply, val_main_cst_23_apply, val_main_v111_apply,
    val_main_call1_v0_apply, val_main_call1_cst_apply]
  simp only [idx_row_v116, idx_row_v123, idx_row_v128, idx_col_v131, idx_col_v134]
  simp only [Ideal.addf_def, Ideal.mulf_def, Ideal.subf_def, Ideal.maximumf_def, Ideal.hostDivf_def,
    Ideal.hostUnary_sqrt_def, Ideal.ofBits_def]
  rfl

end Cert.RefFinalize

end
-- ==== Proof.LibRowScatterGather.lean ====
/-
  Row scatters and row gathers of the host, read at an index on the extended reals.

  The shapes are the ones `jax.ops.segment_sum(data, ids)`, `x.at[rows, cols].add(v)` and `x[ids]` lower to when `ids` is
  a flat integer vector of `E` entries, presented to StableHLO as an `[E, 1]` (or `[E, 2]`) array of index vectors:

  * `segDims`   — scatter-add into `[N, C]` of updates `[E, C]` by row: result `(i, c)` is the operand's entry plus the sum of
                  `upd (e, c)` over the entries `e` whose index word, READ SIGNED, equals `i` (`hostScatterAdd_seg_apply`);
  * `vecDims`   — the same for a vector `[N]` and updates `[E]` (`hostScatterAdd_vec_apply`);
  * `denseDims` — scatter-add into a matrix `[N, M]` of updates `[E]` at index pairs: result `(i, j)` adds the updates of the
                  entries whose two index words are `i` and `j` (`hostScatterAdd_dense_apply`);
  * `rowDims`   — gather of rows of `[N, C]`: result `(e, c)` is the operand at row `ids e` read signed and CLAMPED into
                  `[0, N − 1]`, column `c` (`gather_rows_apply`);
  * `vecGDims`  — the same for a vector `[N]` (`gather_vec_apply`).

  A scatter drops an update whose index is out of range and a gather clamps it, so the two treat an out-of-range index
  differently; on indices in range (`toInt_eq_of_lt` turns the signed reading of a word below `N` into the word's value)
  both address row `ids e`.  The general fact underneath the scatters is `resultIdx?_eq_some_iff`: an update lands on an
  operand index exactly when start plus window coordinate equals that index's coordinate on every axis.
  The dimension numbers are stated with their well-formedness as a hypothesis, decided on a program's literal shapes; a
  printed record with these dimension numbers is definitionally the corresponding `…Dims N … wf`.
-/
import Idealize.ShloMosaic.Lib.ValueIdx
import Idealize.ShloMosaic.PureOps.Ideal
import Mathlib.Algebra.BigOperators.Group.Finset.Piecewise

noncomputable section

namespace LibRowScatterGather

open Idealize.ShloMosaic Idealize.ShloMosaic.ValueIdx

/-- A sum over the indices of a vector is the sum over its coordinate. -/
theorem sum_idx1 {M : Type*} [AddCommMonoid M] {n : Nat} (f : (⟨1, ![n]⟩ : Shape).Idx → M) :
    ∑ i, f i = ∑ a : Fin n, f (ix1 a) := by
  let eqv : (⟨1, ![n]⟩ : Shape).Idx ≃ Fin n :=
    { toFun := fun i => i 0, invFun := fun a => ix1 a, left_inv := fun i => (eq_ix1 i).symm, right_inv := fun _ => rfl }
  rw [← Equiv.sum_comp eqv.symm f]
  rfl

/-- For any scatter: update `j` lands on operand index `r` exactly when start plus window coordinate is `r`'s coordinate on
    every axis (and is dropped otherwise). -/
theorem resultIdx?_eq_some_iff {s si u : Shape} (d : ScatterDims s si u) {w : Nat} (j : u.Idx) (idx : IVec si w) (r : s.Idx) :
    d.resultIdx? j idx = some r ↔ ∀ a, d.start j idx a + d.window j a = ((r a).val : Int) := by
  unfold ScatterDims.resultIdx?
  split
  · rename_i h
    constructor
    · intro heq a
      have := congrFun (Option.some.inj heq) a
      rw [← this]
      exact (Int.toNat_of_nonneg (h a).1).symm
    · intro hall
      refine congrArg some (funext fun a => Fin.ext ?_)
      show (d.start j idx a + d.window j a).toNat = (r a).val
      rw [hall a]; rfl
  · rename_i h
    constructor
    · intro h'; cases h'
    · intro hall; exfalso; apply h; intro a; rw [hall a]
      exact ⟨Int.natCast_nonneg _, by exact_mod_cast (r a).isLt⟩

/-! ## Scatter-add by row into a matrix (a segment sum) -/

section Seg

/-- The dimension numbers of a scatter of updates `[E, C]` into an operand `[N, C]` at row indices `[E, 1]`. -/
abbrev segDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

theorem start0 (idx : IVec ⟨2, ![E, 1]⟩ w) (e : Fin E) (c : Fin C) :
    (segDims N E C wf).start (ix2 e c) idx 0 = (idx (ix2 e 0)).toInt := by
  unfold ScatterDims.start
  rw [dif_pos (show (0 : Fin 2) ∈ (segDims N E C wf).scatterDimsToOperandDims from List.mem_singleton.mpr rfl)]
  refine congrArg (fun k => (idx k).toInt) ?_
  funext b; refine Fin.ext ?_
  match b with
  | ⟨0, _⟩ => rfl
  | ⟨1, _⟩ => rfl

theorem start1 (idx : IVec ⟨2, ![E, 1]⟩ w) (j : (⟨2, ![E, C]⟩ : Shape).Idx) :
    (segDims N E C wf).start j idx 1 = 0 := by
  unfold ScatterDims.start
  have h : (1 : Fin 2) ∉ (segDims N E C wf).scatterDimsToOperandDims := (show (1 : Fin 2) ∉ ([0] : List (Fin 2)) from by decide)
  rw [dif_neg h]

theorem window0 (j : (⟨2, ![E, C]⟩ : Shape).Idx) : (segDims N E C wf).window j 0 = 0 := by
  unfold ScatterDims.window
  have h : (0 : Fin 2) ∉ (segDims N E C wf).sKept :=
    (show (0 : Fin 2) ∉ ((List.finRange 2).filter (· ∉ ([0] : List (Fin 2)))) from by decide)
  rw [dif_neg h]

theorem window1 (e : Fin E) (c : Fin C) : (segDims N E C wf).window (ix2 e c) 1 = c.val := by
  unfold ScatterDims.window
  have h : (1 : Fin 2) ∈ (segDims N E C wf).sKept :=
    (show (1 : Fin 2) ∈ ((List.finRange 2).filter (· ∉ ([0] : List (Fin 2)))) from by decide)
  rw [dif_pos h]
  rfl

theorem resultIdx?_seg_iff (idx : IVec ⟨2, ![E, 1]⟩ w) (e : Fin E) (c : Fin C) (i : Fin N) (c' : Fin C) :
    (segDims N E C wf).resultIdx? (ix2 e c) idx = some (ix2 i c') ↔ (idx (ix2 e 0)).toInt = (i.val : Int) ∧ c = c' := by
  rw [resultIdx?_eq_some_iff]
  constructor
  · intro h
    have h0 : (segDims N E C wf).start (ix2 e c) idx 0 + (segDims N E C wf).window (ix2 e c) 0 = ((i.val : ℕ) : ℤ) := h 0
    have h1 : (segDims N E C wf).start (ix2 e c) idx 1 + (segDims N E C wf).window (ix2 e c) 1 = ((c'.val : ℕ) : ℤ) := h 1
    rw [start0, window0] at h0
    rw [start1, window1] at h1
    refine ⟨by simpa using h0, Fin.ext ?_⟩
    have : ((c.val : Int)) = (c'.val : Int) := by simpa using h1
    exact_mod_cast this
  · rintro ⟨h0, rfl⟩ a
    match a with
    | ⟨0, _⟩ => show (segDims N E C wf).start (ix2 e c) idx 0 + (segDims N E C wf).window (ix2 e c) 0 = _; rw [start0, window0, h0]; simp
    | ⟨1, _⟩ => show (segDims N E C wf).start (ix2 e c) idx 1 + (segDims N E C wf).window (ix2 e c) 1 = _; rw [start1, window1]; simp

/-- THE SEGMENT SUM READ AT `(i, c)`: the operand there plus the updates of the rows whose index word, read signed, is `i`. -/
theorem hostScatterAdd_seg_apply (x : (⟨2, ![N, C]⟩ : Shape).Idx → EReal) (idx : IVec ⟨2, ![E, 1]⟩ w)
    (upd : (⟨2, ![E, C]⟩ : Shape).Idx → EReal) (i : Fin N) (c : Fin C) :
    Ideal.hostScatterAdd (segDims N E C wf) x idx upd (ix2 i c)
      = x (ix2 i c) + ∑ e ∈ Finset.univ.filter (fun e : Fin E => (idx (ix2 e 0)).toInt = (i.val : Int)), upd (ix2 e c) := by
  unfold Ideal.hostScatterAdd
  refine congrArg (x (ix2 i c) + ·) ?_
  rw [Finset.sum_filter, sum_idx2, Finset.sum_filter]
  refine Finset.sum_congr rfl fun e _ => ?_
  simp only [resultIdx?_seg_iff]
  by_cases hi : (idx (ix2 e 0)).toInt = (i.val : Int)
  · simp only [hi, true_and, if_true]
    rw [Finset.sum_ite_eq' Finset.univ c fun b => upd (ix2 e b), if_pos (Finset.mem_univ _)]
  · simp only [hi, false_and, if_false, Finset.sum_const_zero]

end Seg

/-! ## Scatter-add into a vector -/

section Vec

/-- The dimension numbers of a scatter of updates `[E]` into an operand `[N]` at indices `[E, 1]`. -/
abbrev vecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)

theorem vec_start0 (idx : IVec ⟨2, ![E, 1]⟩ w) (e : Fin E) :
    (vecDims N E wf).start (ix1 e) idx 0 = (idx (ix2 e 0)).toInt := by
  unfold ScatterDims.start
  rw [dif_pos (show (0 : Fin 1) ∈ (vecDims N E wf).scatterDimsToOperandDims from List.mem_singleton.mpr rfl)]
  refine congrArg (fun k => (idx k).toInt) ?_
  funext b; refine Fin.ext ?_
  match b with
  | ⟨0, _⟩ => rfl
  | ⟨1, _⟩ => rfl

theorem vec_window0 (j : (⟨1, ![E]⟩ : Shape).Idx) : (vecDims N E wf).window j 0 = 0 := by
  unfold ScatterDims.window
  have h : (0 : Fin 1) ∉ (vecDims N E wf).sKept :=
    (show (0 : Fin 1) ∉ ((List.finRange 1).filter (· ∉ ([0] : List (Fin 1)))) from by decide)
  rw [dif_neg h]

theorem resultIdx?_vec_iff (idx : IVec ⟨2, ![E, 1]⟩ w) (e : Fin E) (i : Fin N) :
    (vecDims N E wf).resultIdx? (ix1 e) idx = some (ix1 i) ↔ (idx (ix2 e 0)).toInt = (i.val : Int) := by
  rw [resultIdx?_eq_some_iff]
  constructor
  · intro h
    have h0 : (vecDims N E wf).start (ix1 e) idx 0 + (vecDims N E wf).window (ix1 e) 0 = ((i.val : ℕ) : ℤ) := h 0
    rw [vec_start0, vec_window0] at h0
    simpa using h0
  · intro h0 a
    obtain rfl : a = 0 := Subsingleton.elim _ _
    show (vecDims N E wf).start (ix1 e) idx 0 + (vecDims N E wf).window (ix1 e) 0 = ((i.val : ℕ) : ℤ)
    rw [vec_start0, vec_window0, h0]; simp

/-- THE VECTOR SCATTER-ADD READ AT `i`: the operand there plus the updates of the entries whose index word, read signed, is `i`. -/
theorem hostScatterAdd_vec_apply (x : (⟨1, ![N]⟩ : Shape).Idx → EReal) (idx : IVec ⟨2, ![E, 1]⟩ w)
    (upd : (⟨1, ![E]⟩ : Shape).Idx → EReal) (i : Fin N) :
    Ideal.hostScatterAdd (vecDims N E wf) x idx upd (ix1 i)
      = x (ix1 i) + ∑ e ∈ Finset.univ.filter (fun e : Fin E => (idx (ix2 e 0)).toInt = (i.val : Int)), upd (ix1 e) := by
  unfold Ideal.hostScatterAdd
  refine congrArg (x (ix1 i) + ·) ?_
  rw [Finset.sum_filter, sum_idx1, Finset.sum_filter]
  refine Finset.sum_congr rfl fun e _ => ?_
  simp only [resultIdx?_vec_iff]

end Vec

/-! ## Scatter-add into a matrix at index pairs (a dense adjacency matrix from an edge list) -/

section Dense

/-- The dimension numbers of a scatter of updates `[E]` into an operand `[N, M]` at index pairs `[E, 2]`. -/
abbrev denseDims (N M E : Nat) (wf : ScatterDims.WF ⟨2, ![N, M]⟩ ⟨2, ![E, 2]⟩ ⟨1, ![E]⟩ [] [0, 1] [0, 1] 1) :
    ScatterDims ⟨2, ![N, M]⟩ ⟨2, ![E, 2]⟩ ⟨1, ![E]⟩ where
  updateWindowDims := []
  insertedWindowDims := [0, 1]
  scatterDimsToOperandDims := [0, 1]
  indexVectorDim := 1
  wf := wf

variable {N M E w : Nat} (wf : ScatterDims.WF ⟨2, ![N, M]⟩ ⟨2, ![E, 2]⟩ ⟨1, ![E]⟩ [] [0, 1] [0, 1] 1)

theorem dense_start0 (idx : IVec ⟨2, ![E, 2]⟩ w) (e : Fin E) :
    (denseDims N M E wf).start (ix1 e) idx 0 = (idx (ix2 e 0)).toInt := by
  unfold ScatterDims.start
  have h : (0 : Fin 2) ∈ (denseDims N M E wf).scatterDimsToOperandDims := (show (0 : Fin 2) ∈ ([0, 1] : List (Fin 2)) from by decide)
  rw [dif_pos h]
  refine congrArg (fun k => (idx k).toInt) ?_
  funext b; refine Fin.ext ?_
  match b with
  | ⟨0, _⟩ => rfl
  | ⟨1, _⟩ => rfl

theorem dense_start1 (idx : IVec ⟨2, ![E, 2]⟩ w) (e : Fin E) :
    (denseDims N M E wf).start (ix1 e) idx 1 = (idx (ix2 e 1)).toInt := by
  unfold ScatterDims.start
  have h : (1 : Fin 2) ∈ (denseDims N M E wf).scatterDimsToOperandDims := (show (1 : Fin 2) ∈ ([0, 1] : List (Fin 2)) from by decide)
  rw [dif_pos h]
  refine congrArg (fun k => (idx k).toInt) ?_
  funext b; refine Fin.ext ?_
  match b with
  | ⟨0, _⟩ => rfl
  | ⟨1, _⟩ => rfl

theorem dense_window (j : (⟨1, ![E]⟩ : Shape).Idx) (a : Fin 2) : (denseDims N M E wf).window j a = 0 := by
  unfold ScatterDims.window
  have h : a ∉ (denseDims N M E wf).sKept := by
    have : ∀ b : Fin 2, b ∉ ((List.finRange 2).filter (· ∉ ([0, 1] : List (Fin 2)))) := by decide
    exact this a
  rw [dif_neg h]

theorem resultIdx?_dense_iff (idx : IVec ⟨2, ![E, 2]⟩ w) (e : Fin E) (i : Fin N) (j : Fin M) :
    (denseDims N M E wf).resultIdx? (ix1 e) idx = some (ix2 i j)
      ↔ (idx (ix2 e 0)).toInt = (i.val : Int) ∧ (idx (ix2 e 1)).toInt = (j.val : Int) := by
  rw [resultIdx?_eq_some_iff]
  constructor
  · intro h
    have h0 : (denseDims N M E wf).start (ix1 e) idx 0 + (denseDims N M E wf).window (ix1 e) 0 = ((i.val : ℕ) : ℤ) := h 0
    have h1 : (denseDims N M E wf).start (ix1 e) idx 1 + (denseDims N M E wf).window (ix1 e) 1 = ((j.val : ℕ) : ℤ) := h 1
    rw [dense_start0, dense_window] at h0
    rw [dense_start1, dense_window] at h1
    exact ⟨by simpa using h0, by simpa using h1⟩
  · rintro ⟨h0, h1⟩ a
    match a with
    | ⟨0, _⟩ =>
      show (denseDims N M E wf).start (ix1 e) idx 0 + (denseDims N M E wf).window (ix1 e) 0 = _
      rw [dense_start0, dense_window, h0]; simp
    | ⟨1, _⟩ =>
      show (denseDims N M E wf).start (ix1 e) idx 1 + (denseDims N M E wf).window (ix1 e) 1 = _
      rw [dense_start1, dense_window, h1]; simp

/-- THE MATRIX SCATTER-ADD READ AT `(i, j)`: the operand there plus the updates of the entries whose two index words, read
    signed, are `i` and `j`. -/
theorem hostScatterAdd_dense_apply (x : (⟨2, ![N, M]⟩ : Shape).Idx → EReal) (idx : IVec ⟨2, ![E, 2]⟩ w)
    (upd : (⟨1, ![E]⟩ : Shape).Idx → EReal) (i : Fin N) (j : Fin M) :
    Ideal.hostScatterAdd (denseDims N M E wf) x idx upd (ix2 i j)
      = x (ix2 i j) + ∑ e ∈ Finset.univ.filter (fun e : Fin E =>
          (idx (ix2 e 0)).toInt = (i.val : Int) ∧ (idx (ix2 e 1)).toInt = (j.val : Int)), upd (ix1 e) := by
  unfold Ideal.hostScatterAdd
  refine congrArg (x (ix2 i j) + ·) ?_
  rw [Finset.sum_filter, sum_idx1, Finset.sum_filter]
  refine Finset.sum_congr rfl fun e _ => ?_
  simp only [resultIdx?_dense_iff]

end Dense

/-! ## Gather of rows -/

section Rows
variable {α : Type}

/-- The dimension numbers of a gather of rows of `[N, C]` at row indices `[E, 1]`, result `[E, C]`. -/
abbrev rowDims (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the operand at row `ids e` — read signed and clamped into `[0, N − 1]` — and column `c`. -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowDims N C E wf) x idx (ix2 e c)
      = x (ix2 ⟨min (idx (ix2 e 0)).toInt.toNat (N - 1), by omega⟩ c) := by
  unfold Host.gather
  refine congrArg x ?_
  funext a
  refine Fin.ext ?_
  have hk1 : (1 : Fin 2) ∈ (rowDims N C E wf).sKept :=
    ((rowDims N C E wf).mem_sKept 1).mpr ⟨(show (1 : Fin 2) ∉ ([0] : List (Fin 2)) from by decide), List.not_mem_nil⟩
  have hk0 : (0 : Fin 2) ∉ (rowDims N C E wf).sKept := fun h =>
    (((rowDims N C E wf).mem_sKept 0).mp h).1 (List.mem_singleton.mpr rfl)
  match a with
  | ⟨0, _⟩ =>
    show (rowDims N C E wf).start (ix2 e c) idx 0 + (rowDims N C E wf).batchCoord (ix2 e c) 0 + (rowDims N C E wf).offCoord (ix2 e c) 0 = _
    rw [GatherDims.batchCoord_eq_zero _ _ _ List.not_mem_nil, GatherDims.offCoord_eq_zero _ _ _ hk0]
    simp only [Nat.add_zero]
    unfold GatherDims.start
    rw [dif_pos (show (0 : Fin 2) ∈ (rowDims N C E wf).startIndexMap from List.mem_singleton.mpr rfl)]
    have hsi : (rowDims N C E wf).siIdx (ix2 e c) ⟨List.idxOf (0 : Fin 2) (rowDims N C E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowDims N C E wf).start (ix2 e c) idx 1 + (rowDims N C E wf).batchCoord (ix2 e c) 1 + (rowDims N C E wf).offCoord (ix2 e c) 1 = _
    rw [GatherDims.batchCoord_eq_zero _ _ _ List.not_mem_nil]
    have hs : (rowDims N C E wf).start (ix2 e c) idx 1 = 0 := by
      unfold GatherDims.start
      have h : (1 : Fin 2) ∉ (rowDims N C E wf).startIndexMap := (show (1 : Fin 2) ∉ ([0] : List (Fin 2)) from by decide)
      rw [dif_neg h]
    have ho : (rowDims N C E wf).offCoord (ix2 e c) 1 = c.val := by
      unfold GatherDims.offCoord
      rw [dif_pos hk1]
      rfl
    rw [hs, ho]; simp

end Rows

/-! ## Gather from a vector -/

section VecG
variable {α : Type}

/-- The dimension numbers of a gather from a vector `[N]` at indices `[E, 1]`, result `[E]`. -/
abbrev vecGDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the operand at `ids e`, read signed and clamped into `[0, N − 1]`. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGDims N E wf) x idx (ix1 e) = x (ix1 ⟨min (idx (ix2 e 0)).toInt.toNat (N - 1), by omega⟩) := by
  unfold Host.gather
  refine congrArg x ?_
  funext a
  obtain rfl : a = 0 := Subsingleton.elim _ _
  refine Fin.ext ?_
  show (vecGDims N E wf).start (ix1 e) idx 0 + (vecGDims N E wf).batchCoord (ix1 e) 0 + (vecGDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGDims N E wf).startIndexMap from List.mem_singleton.mpr rfl)]
  have hsi : (vecGDims N E wf).siIdx (ix1 e) ⟨List.idxOf (0 : Fin 1) (vecGDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end VecG

/-! ## An index word in range -/

/-- A 32-bit word that is nonnegative as a signed integer and below `n` reads, signed, as a natural number below `n`:
    the scatter's test `toInt = i` and the gather's clamp `min toNat (n − 1)` then name the same row. -/
theorem clamp_eq_of_inRange {n : Nat} (v : BitVec 32) (i : Fin n) (h : v.toInt = (i.val : Int)) :
    min v.toInt.toNat (n - 1) = i.val := by
  rw [h]; have := i.isLt; simp only [Int.toNat_natCast]; omega

end LibRowScatterGather
-- ==== Proof.EdgeReads.lean ====
/-
  One edge type of the relational aggregation as the reference computes it, and both programs' stages read at an index.

  The reference scores an edge by one product of its product row with the attention row transposed to a column, then
  divides every edge's score by the summed scores of its destination node and sums the weighted source rows per node.
  Read at an index on the extended reals:
    a gathered row is the table's row named by the index word, wrapped when negative and clamped into the table;
    a scatter-add at node n is its initial value plus the sum over the edges whose destination word, read signed, is n;
    a score is the exponential of the sum over k of the product row times the attention row;
    a destination word in range names the same row for the gather and for the scatter.
-/
import proofs.«136471_j9208409883351_2_alg».proof.Proof.Stages
import proofs.«136471_j9208409883351_2_alg».proof.Proof.Gen.ReferenceIdeal.Read
import proofs.«136471_j9208409883351_2_alg».proof.Proof.LibRowScatterGather
import proofs.«136471_j9208409883351_2_alg».proof.Proof.LibRowNorm
import proofs.«136471_j9208409883351_2_alg».proof.Proof.LibPlainDot

set_option maxRecDepth 16384

noncomputable section

namespace Cert.EdgeReads

open Idealize.ShloMosaic Idealize.ShloMosaic.ValueIdx
open Cert.ReferenceIdeal Cert.ReferenceIdeal.Gen

section Defs
variable {F : FTy → Type} [FloatOps F]

/-- An index vector as a column, negative entries wrapped by the number of rows. -/
def wrapIdxR (v : (⟨S500000, .i32⟩ : BufTy).Contents (Elt F)) : (⟨S500000x1, .i32⟩ : BufTy).Contents (Elt F) :=
  broadcastInDim S500000x1 ![0] bcast_S500000_S500000x1_0
    (select (cmpi .slt v (broadcastInDim S500000 ![] bcast_S_S500000 (constantI S_ 32 0#32)))
      (addi v (broadcastInDim S500000 ![] bcast_S_S500000 (constantI S_ 32 100000#32))) v)

/-- An index vector as a column, as given. -/
def colIdxR (v : (⟨S500000, .i32⟩ : BufTy).Contents (Elt F)) : (⟨S500000x1, .i32⟩ : BufTy).Contents (Elt F) :=
  broadcastInDim S500000x1 ![0] bcast_S500000_S500000x1_0 v

/-- The rows of a table picked by an index vector. -/
def rowsAtR (x : (⟨S100000x256, .f32⟩ : BufTy).Contents (Elt F)) (v : (⟨S500000, .i32⟩ : BufTy).Contents (Elt F)) : (⟨S500000x256, .f32⟩ : BufTy).Contents (Elt F) :=
  Host.gather gather_S100000x256_S500000x1_S500000x256_1_0_n_n_0_1_1256 x (wrapIdxR v)

/-- The score of every edge as one product with the attention row transposed to a column. -/
def scoreR (X : (⟨S500000x256, .f32⟩ : BufTy).Contents (Elt F)) (wa : (⟨S1x256, .f32⟩ : BufTy).Contents (Elt F)) : (⟨S500000x1, .f32⟩ : BufTy).Contents (Elt F) :=
  Host.exp (Host.dotGeneral dot_S500000x256_S256x1_S500000x1_1_0_0_1_n_n none X (transpose S256x1 [1, 0] wa transposes_S1x256_S256x1_1_0))

/-- The scores summed per destination node. -/
def denomR (s : (⟨S500000x1, .f32⟩ : BufTy).Contents (Elt F)) (dst : (⟨S500000, .i32⟩ : BufTy).Contents (Elt F)) : (⟨S100000x1, .f32⟩ : BufTy).Contents (Elt F) :=
  Host.scatterAdd scatter_S100000x1_S500000x1_S500000x1_1_0_0_1
    (broadcastInDim S100000x1 ![] bcast_S_S100000x1 (constant S_ .f32 0x00000000#32)) (colIdxR dst) s

/-- Every edge's score over the summed scores of its destination node. -/
def attR (s : (⟨S500000x1, .f32⟩ : BufTy).Contents (Elt F)) (dst : (⟨S500000, .i32⟩ : BufTy).Contents (Elt F)) : (⟨S500000x1, .f32⟩ : BufTy).Contents (Elt F) :=
  Host.divf s (Host.gather gather_S100000x1_S500000x1_S500000x1_1_0_n_n_0_1_11 (denomR s dst) (wrapIdxR dst))

/-- Edge rows weighted by a column of edge weights, summed per destination node. -/
def numerR (A : (⟨S500000x256, .f32⟩ : BufTy).Contents (Elt F)) (s : (⟨S500000x1, .f32⟩ : BufTy).Contents (Elt F)) (dst : (⟨S500000, .i32⟩ : BufTy).Contents (Elt F)) : (⟨S100000x256, .f32⟩ : BufTy).Contents (Elt F) :=
  Host.scatterAdd scatter_S100000x256_S500000x1_S500000x256_1_0_0_1
    (broadcastInDim S100000x256 ![] bcast_S_S100000x256 (constant S_ .f32 0x00000000#32)) (colIdxR dst)
    (mulf A (broadcastInDim S500000x256 ![0, 1] bcast_S500000x1_S500000x256_0_1 s))

/-- The source rows weighted by the normalized scores, summed per destination node. -/
def aggregateR (A : (⟨S500000x256, .f32⟩ : BufTy).Contents (Elt F)) (s : (⟨S500000x1, .f32⟩ : BufTy).Contents (Elt F)) (dst : (⟨S500000, .i32⟩ : BufTy).Contents (Elt F)) : (⟨S100000x256, .f32⟩ : BufTy).Contents (Elt F) :=
  numerR A (attR s dst) dst

/-- One edge type as the reference computes it, from the projected source features on. -/
def edgeTypeR (T hs hd : (⟨S100000x256, .f32⟩ : BufTy).Contents (Elt F)) (src dst : (⟨S500000, .i32⟩ : BufTy).Contents (Elt F)) (wa : (⟨S1x256, .f32⟩ : BufTy).Contents (Elt F)) : (⟨S100000x256, .f32⟩ : BufTy).Contents (Elt F) :=
  aggregateR (rowsAtR hs src) (scoreR (mulf (rowsAtR T src) (rowsAtR hd dst)) wa) dst

/-! ## The stages the two programs share are the same functions -/

theorem wrapIdx_eq (v) : Cert.Stages.wrapIdx (F := F) v = wrapIdxR v := rfl
theorem colIdx_eq (v) : Cert.Stages.colIdx (F := F) v = colIdxR v := rfl
theorem rowsAt_eq (x v) : Cert.Stages.rowsAt (F := F) x v = rowsAtR x v := rfl
theorem denom_eq (s dst) : Cert.Stages.denom (F := F) s dst = denomR s dst := rfl
theorem numer_eq (A s dst) : Cert.Stages.numer (F := F) A s dst = numerR A s dst := rfl

/-- The reference's first edge type is this function of its projected source features. -/
theorem ref_first (x0 x1 x2 x3 x6 x8) :
    Cert.ReferenceIdeal.Read.val_main_v42 (F := F) x0 x1 x2 x3 x6 x8
      = edgeTypeR (Cert.ReferenceIdeal.Read.val_main_v1 (F := F) x0 x6) x0 x1 x2 x3 x8 := rfl
/-- The reference's second edge type likewise, the two feature tables exchanged. -/
theorem ref_second (x0 x1 x4 x5 x7 x9) :
    Cert.ReferenceIdeal.Read.val_main_v85 (F := F) x0 x1 x4 x5 x7 x9
      = edgeTypeR (Cert.ReferenceIdeal.Read.val_main_v44 (F := F) x1 x7) x1 x0 x4 x5 x9 := rfl

end Defs

/-! ## The host's pointwise operations at an index -/

theorem hostDivf_apply {s : Shape} (x y : FVec Ideal s .f32) (i : s.Idx) :
    Host.divf (F := Ideal) x y i = Ideal.div (x i) (y i) := rfl

theorem hostExp_apply {s : Shape} (x : FVec Ideal s .f32) (i : s.Idx) :
    Host.exp (F := Ideal) x i = Ideal.exp (x i) := rfl

/-! ## Index words -/

/-- A word that reads, signed, as a row number of the table is left alone by the wrap of negative indices. -/
theorem wrap_of_inRange (w : BitVec 32) (n : Fin 100000) (h : w.toInt = (n.val : Int)) :
    Scalar.select (IntOp.cmpi .slt w 0#32) (IntOp.addi w 100000#32) w = w := by
  have hc : IntOp.cmpi .slt w 0#32 = 0#1 := by
    have hs : w.slt 0#32 = false := by
      rw [Bool.eq_false_iff, Ne, BitVec.slt_iff_toInt_lt, h]
      simp
    simp [IntOp.cmpi, hs]
  rw [hc]; exact ValueIdx.select_zero _ _

theorem colIdxR_apply (v : (⟨S500000, .i32⟩ : BufTy).Contents (Elt Ideal)) (e : Fin 500000) (u : Fin 1) :
    colIdxR (F := Ideal) v (ix2 e u) = v (ix1 e) :=
  Cert.LibRowNorm.col_apply bcast_S500000_S500000x1_0 v e u

theorem wrapIdxR_apply (v : (⟨S500000, .i32⟩ : BufTy).Contents (Elt Ideal)) (e : Fin 500000) (u : Fin 1) :
    wrapIdxR (F := Ideal) v (ix2 e u)
      = Scalar.select (IntOp.cmpi .slt (v (ix1 e)) 0#32) (IntOp.addi (v (ix1 e)) 100000#32) (v (ix1 e)) :=
  (Cert.LibRowNorm.col_apply bcast_S500000_S500000x1_0 _ e u).trans rfl

/-- The table row an index word names once wrapped and clamped. -/
def rowOf (v : (⟨S500000, .i32⟩ : BufTy).Contents (Elt Ideal)) (e : Fin 500000) : Fin 100000 :=
  ⟨min ((wrapIdxR (F := Ideal) v) (ix2 e 0)).toInt.toNat (100000 - 1), by omega⟩

/-- An edge whose index word reads, signed, as row n names row n. -/
theorem rowOf_of_inRange (v : (⟨S500000, .i32⟩ : BufTy).Contents (Elt Ideal)) (e : Fin 500000) (n : Fin 100000)
    (h : (v (ix1 e)).toInt = (n.val : Int)) : rowOf v e = n := by
  apply Fin.ext
  show min ((wrapIdxR (F := Ideal) v) (ix2 e 0)).toInt.toNat (100000 - 1) = n.val
  rw [wrapIdxR_apply, wrap_of_inRange _ n h]
  exact LibRowScatterGather.clamp_eq_of_inRange _ n h

/-! ## Gathers and scatters -/

theorem rowsAtR_apply (x : (⟨S100000x256, .f32⟩ : BufTy).Contents (Elt Ideal)) (v : (⟨S500000, .i32⟩ : BufTy).Contents (Elt Ideal)) (e : Fin 500000) (d : Fin 256) :
    rowsAtR (F := Ideal) x v (ix2 e d) = x (ix2 (rowOf v e) d) :=
  LibRowScatterGather.gather_rows_apply (N := 100000) (C := 256) (E := 500000) (by norm_num)
    gather_S100000x256_S500000x1_S500000x256_1_0_n_n_0_1_1256_wf x (wrapIdxR v) e d

theorem gatherCol_apply (y : (⟨S100000x1, .f32⟩ : BufTy).Contents (Elt Ideal)) (v : (⟨S500000, .i32⟩ : BufTy).Contents (Elt Ideal)) (e : Fin 500000) (u : Fin 1) :
    Host.gather gather_S100000x1_S500000x1_S500000x1_1_0_n_n_0_1_11 y (wrapIdxR (F := Ideal) v) (ix2 e u) = y (ix2 (rowOf v e) u) :=
  LibRowScatterGather.gather_rows_apply (N := 100000) (C := 1) (E := 500000) (by norm_num)
    gather_S100000x1_S500000x1_S500000x1_1_0_n_n_0_1_11_wf y (wrapIdxR v) e u

/-- The host's accumulating scatter by row, at an entry: unfolded by name so that nothing is evaluated. -/
theorem scatterAdd_seg_apply {N E C w : Nat} (wf : ScatterDims.WF ⟨2, ![N, C]⟩ ⟨2, ![E, 1]⟩ ⟨2, ![E, C]⟩ [1] [0] [0] 1)
    (x : FVec Ideal (⟨2, ![N, C]⟩ : Shape) .f32) (idx : IVec ⟨2, ![E, 1]⟩ w) (upd : FVec Ideal (⟨2, ![E, C]⟩ : Shape) .f32)
    (i : Fin N) (c : Fin C) :
    Host.scatterAdd (F := Ideal) (φ := .f32) (LibRowScatterGather.segDims N E C wf) x idx upd (ix2 i c)
      = x (ix2 i c) + ∑ e ∈ Finset.univ.filter (fun e : Fin E => (idx (ix2 e 0)).toInt = (i.val : Int)), upd (ix2 e c) := by
  unfold Host.scatterAdd
  rw [Ideal.hostScatterAdd_def]
  exact LibRowScatterGather.hostScatterAdd_seg_apply wf x idx upd i c

/-- The edges whose destination word, read signed, is node n. -/
def edgesInto (dst : (⟨S500000, .i32⟩ : BufTy).Contents (Elt Ideal)) (n : Fin 100000) : Finset (Fin 500000) :=
  Finset.univ.filter fun e => (dst (ix1 e)).toInt = (n.val : Int)

theorem zeros256_apply (j : S100000x256.Idx) :
    broadcastInDim S100000x256 ![] bcast_S_S100000x256 (constant (F := Ideal) S_ .f32 0x00000000#32) j = (0 : EReal) :=
  (Cert.LibUnitAxes.broadcastInDim_scalar_apply _ bcast_S_S100000x256 j).trans Ideal.ofBits_zero_f32

theorem zeros1_apply (j : S100000x1.Idx) :
    broadcastInDim S100000x1 ![] bcast_S_S100000x1 (constant (F := Ideal) S_ .f32 0x00000000#32) j = (0 : EReal) :=
  (Cert.LibUnitAxes.broadcastInDim_scalar_apply _ bcast_S_S100000x1 j).trans Ideal.ofBits_zero_f32

/-- A scatter-add of edge rows by destination, from zero, at (n, d): the sum of the rows of the edges into n. -/
theorem scatterRows_apply (dst : (⟨S500000, .i32⟩ : BufTy).Contents (Elt Ideal)) (upd : (⟨S500000x256, .f32⟩ : BufTy).Contents (Elt Ideal)) (n : Fin 100000) (d : Fin 256) :
    Host.scatterAdd (F := Ideal) scatter_S100000x256_S500000x1_S500000x256_1_0_0_1
        (broadcastInDim S100000x256 ![] bcast_S_S100000x256 (constant (F := Ideal) S_ .f32 0x00000000#32)) (colIdxR dst) upd (ix2 n d)
      = 0 + ∑ e ∈ edgesInto dst n, upd (ix2 e d) := by
  rw [show scatter_S100000x256_S500000x1_S500000x256_1_0_0_1
      = LibRowScatterGather.segDims 100000 500000 256 scatter_S100000x256_S500000x1_S500000x256_1_0_0_1_wf from rfl,
    scatterAdd_seg_apply, zeros256_apply]
  refine congrArg (fun z => (0 : EReal) + z) (Finset.sum_congr ?_ fun _ _ => rfl)
  unfold edgesInto
  exact Finset.filter_congr fun e _ => by rw [colIdxR_apply]

/-- A scatter-add of edge scores by destination, from zero, at (n, u): the sum of the scores of the edges into n. -/
theorem scatterCol_apply (dst : (⟨S500000, .i32⟩ : BufTy).Contents (Elt Ideal)) (upd : (⟨S500000x1, .f32⟩ : BufTy).Contents (Elt Ideal)) (n : Fin 100000) (u : Fin 1) :
    Host.scatterAdd (F := Ideal) scatter_S100000x1_S500000x1_S500000x1_1_0_0_1
        (broadcastInDim S100000x1 ![] bcast_S_S100000x1 (constant (F := Ideal) S_ .f32 0x00000000#32)) (colIdxR dst) upd (ix2 n u)
      = 0 + ∑ e ∈ edgesInto dst n, upd (ix2 e u) := by
  rw [show scatter_S100000x1_S500000x1_S500000x1_1_0_0_1
      = LibRowScatterGather.segDims 100000 500000 1 scatter_S100000x1_S500000x1_S500000x1_1_0_0_1_wf from rfl,
    scatterAdd_seg_apply, zeros1_apply]
  refine congrArg (fun z => (0 : EReal) + z) (Finset.sum_congr ?_ fun _ _ => rfl)
  unfold edgesInto
  exact Finset.filter_congr fun e _ => by rw [colIdxR_apply]

/-- The weighted edge rows summed per destination node, at (n, d). -/
theorem numerR_apply (A : (⟨S500000x256, .f32⟩ : BufTy).Contents (Elt Ideal)) (s : (⟨S500000x1, .f32⟩ : BufTy).Contents (Elt Ideal)) (dst : (⟨S500000, .i32⟩ : BufTy).Contents (Elt Ideal)) (n : Fin 100000) (d : Fin 256) :
    numerR (F := Ideal) A s dst (ix2 n d) = 0 + ∑ e ∈ edgesInto dst n, A (ix2 e d) * s (ix2 e (0 : Fin 1)) := by
  unfold numerR
  rw [scatterRows_apply]
  refine congrArg (fun z => (0 : EReal) + z) (Finset.sum_congr rfl fun e _ => ?_)
  show A (ix2 e d) * broadcastInDim S500000x256 ![0, 1] bcast_S500000x1_S500000x256_0_1 s (ix2 e d) = _
  rw [Cert.LibUnitAxes.broadcastInDim_a1_ab_apply s bcast_S500000x1_S500000x256_0_1 e d]

/-- The edge scores summed per destination node, at (n, u). -/
theorem denomR_apply (s : (⟨S500000x1, .f32⟩ : BufTy).Contents (Elt Ideal)) (dst : (⟨S500000, .i32⟩ : BufTy).Contents (Elt Ideal)) (n : Fin 100000) (u : Fin 1) :
    denomR (F := Ideal) s dst (ix2 n u) = 0 + ∑ e ∈ edgesInto dst n, s (ix2 e u) := by
  unfold denomR
  exact scatterCol_apply dst s n u

/-- An edge's normalized score: its score over the summed scores of the node its destination word names. -/
theorem attR_apply (s : (⟨S500000x1, .f32⟩ : BufTy).Contents (Elt Ideal)) (dst : (⟨S500000, .i32⟩ : BufTy).Contents (Elt Ideal)) (e : Fin 500000) (u : Fin 1) :
    attR (F := Ideal) s dst (ix2 e u) = Ideal.div (s (ix2 e u)) (denomR (F := Ideal) s dst (ix2 (rowOf dst e) u)) := by
  unfold attR
  rw [hostDivf_apply, gatherCol_apply]

/-! ## Scores -/

/-- The reference's score of edge e: the exponential of its product row against the attention row. -/
theorem scoreR_apply (X : (⟨S500000x256, .f32⟩ : BufTy).Contents (Elt Ideal)) (wa : (⟨S1x256, .f32⟩ : BufTy).Contents (Elt Ideal)) (e : Fin 500000) (u : Fin 1) :
    scoreR (F := Ideal) X wa (ix2 e u) = Ideal.exp (∑ k : Fin 256, X (ix2 e k) * wa (ix2 u k)) := by
  unfold scoreR
  show Ideal.exp (FloatOps.dotGeneral (F := Ideal) dot_S500000x256_S256x1_S500000x1_1_0_0_1_n_n none _ X
    (transpose S256x1 [1, 0] wa transposes_S1x256_S256x1_1_0) (ix2 e u)) = _
  rw [Cert.LibPlainDot.dotGeneral_apply (M := 500000) (K := 256) (N := 1) dot_S500000x256_S256x1_S500000x1_1_0_0_1_n_n rfl rfl rfl rfl
    Cert.ReferenceIdeal.Read.lhs_main_v18_0 Cert.ReferenceIdeal.Read.rhs_main_v18_1 none _ X _ e u]
  refine congrArg Ideal.exp (Finset.sum_congr rfl fun k _ => congrArg (fun z => X (ix2 e k) * z) ?_)
  exact transpose_apply [1, 0] wa transposes_S1x256_S256x1_1_0 (ix2 k u) (ix2 u k) (fun b => match b with
    | ⟨0, _⟩ => rfl
    | ⟨1, _⟩ => rfl)

end Cert.EdgeReads

end
-- ==== Proof.AggregateLaw.lean ====
/-
  The aggregation law.  Over a finite set S of edges with real rows a(e) and positive real scores σ(e), put
  D = ∑_{e ∈ S} σ(e).  Dividing the weighted sum once by D — the divisor replaced by one when it is zero, which for
  positive scores happens exactly when S is empty — gives the same extended real as weighting every edge by its
  normalized score σ(e) / D:

      (∑ a(e) σ(e)) / guard(D)  =  ∑ a(e) · (σ(e) / D).

  For S empty both sides are 0 (0 / 1 on the left, an empty sum on the right); for S nonempty D is a positive real and the
  identity is the real one, the quotient moving across a finite sum.  Finiteness matters: on the extended reals a
  quotient does not distribute over a sum with infinite terms.
-/
import Idealize.ShloMosaic.PureOps.Ideal.Laws
import Idealize.ShloMosaic.Lib.ValueIdx
import proofs.«136471_j9208409883351_2_alg».proof.Proof.LibSoftmaxRows

noncomputable section

namespace Cert.AggregateLaw

open Idealize.ShloMosaic
open scoped BigOperators

/-- A divisor that is zero replaced by one: the comparison with the f32 word of zero selects the f32 word of one. -/
def guardDiv (d : EReal) : EReal :=
  Scalar.select (Ideal.cmp .oeq d (Ideal.ofBits .f32 0x00000000#32)) (Ideal.ofBits .f32 0x3F800000#32) d

theorem guardDiv_zero : guardDiv 0 = 1 := by
  unfold guardDiv
  rw [Ideal.ofBits_zero_f32, Cert.LibSoftmaxRows.ofBits_one_f32]
  have h : Ideal.cmp .oeq (0 : EReal) 0 = 1#1 := by simp [Ideal.cmp]
  rw [h]; exact ValueIdx.select_one _ _

theorem guardDiv_coe {D : ℝ} (hD : D ≠ 0) : guardDiv (D : EReal) = (D : EReal) := by
  unfold guardDiv
  rw [Ideal.ofBits_zero_f32]
  have h : Ideal.cmp .oeq (D : EReal) 0 = 0#1 := by
    have : ¬ ((D : EReal) = 0) := by exact_mod_cast hD
    simp [Ideal.cmp, this]
  rw [h]; exact ValueIdx.select_zero _ _

/-- The aggregation law on a finite set of edges. -/
theorem agg_law {ι : Type*} (S : Finset ι) (a σ : ι → ℝ) (hσ : ∀ e ∈ S, 0 < σ e) :
    Ideal.div (0 + ∑ e ∈ S, (a e : EReal) * (σ e : EReal)) (guardDiv (0 + ∑ e ∈ S, (σ e : EReal)))
      = 0 + ∑ e ∈ S, (a e : EReal) * Ideal.div (σ e : EReal) (0 + ∑ e' ∈ S, (σ e' : EReal)) := by
  have hnum : ∑ e ∈ S, (a e : EReal) * (σ e : EReal) = ((∑ e ∈ S, a e * σ e : ℝ) : EReal) := by
    rw [Cert.LibSoftmaxRows.coe_sum]; exact Finset.sum_congr rfl fun e _ => (EReal.coe_mul _ _).symm
  have hden : ∑ e ∈ S, (σ e : EReal) = ((∑ e ∈ S, σ e : ℝ) : EReal) := (Cert.LibSoftmaxRows.coe_sum S σ).symm
  simp only [zero_add]
  rw [hnum, hden]
  rcases S.eq_empty_or_nonempty with rfl | hne
  · simp only [Finset.sum_empty, EReal.coe_zero, guardDiv_zero]
    have := Cert.LibSoftmaxRows.div_coe_coe 0 (c := 1) one_ne_zero
    simpa using this
  · have hD : 0 < ∑ e ∈ S, σ e := Finset.sum_pos hσ hne
    rw [guardDiv_coe hD.ne', Cert.LibSoftmaxRows.div_coe_coe _ hD.ne']
    have hterm : ∀ e ∈ S, (a e : EReal) * Ideal.div (σ e : EReal) ((∑ e' ∈ S, σ e' : ℝ) : EReal)
        = ((a e * (σ e / ∑ e' ∈ S, σ e') : ℝ) : EReal) := fun e _ => by
      rw [Cert.LibSoftmaxRows.div_coe_coe _ hD.ne', ← EReal.coe_mul]
    rw [Finset.sum_congr rfl hterm, ← Cert.LibSoftmaxRows.coe_sum]
    congr 1
    rw [Finset.sum_div]
    exact Finset.sum_congr rfl fun e _ => by ring

/-- The aggregated value is a real number. -/
theorem agg_real {ι : Type*} (S : Finset ι) (a σ : ι → ℝ) (hσ : ∀ e ∈ S, 0 < σ e) :
    ∃ z : ℝ, Ideal.div (0 + ∑ e ∈ S, (a e : EReal) * (σ e : EReal)) (guardDiv (0 + ∑ e ∈ S, (σ e : EReal))) = (z : EReal) := by
  have hnum : ∑ e ∈ S, (a e : EReal) * (σ e : EReal) = ((∑ e ∈ S, a e * σ e : ℝ) : EReal) := by
    rw [Cert.LibSoftmaxRows.coe_sum]; exact Finset.sum_congr rfl fun e _ => (EReal.coe_mul _ _).symm
  have hden : ∑ e ∈ S, (σ e : EReal) = ((∑ e ∈ S, σ e : ℝ) : EReal) := (Cert.LibSoftmaxRows.coe_sum S σ).symm
  simp only [zero_add]
  rw [hnum, hden]
  rcases S.eq_empty_or_nonempty with rfl | hne
  · refine ⟨0, ?_⟩
    simp only [Finset.sum_empty, EReal.coe_zero, guardDiv_zero]
    have := Cert.LibSoftmaxRows.div_coe_coe 0 (c := 1) one_ne_zero
    simpa using this
  · have hD : 0 < ∑ e ∈ S, σ e := Finset.sum_pos hσ hne
    exact ⟨_, by rw [guardDiv_coe hD.ne', Cert.LibSoftmaxRows.div_coe_coe _ hD.ne']⟩

end Cert.AggregateLaw

end
-- ==== Proof.EdgeLaw.lean ====
/-
  One edge type: the kernel's grouping equals the reference's.

  With real tables the score of an edge is a positive real σ(e) = exp z(e), and a gathered source row is real.  At node n
  and column d the kernel holds (0 + ∑_{e → n} a(e) σ(e)) / guard(0 + ∑_{e → n} σ(e)) and the reference
  0 + ∑_{e → n} a(e) · (σ(e) / (0 + ∑_{e' → n} σ(e'))), the inner divisor read through a gather that names row n again
  because the destination word of an edge into n is in range.  The aggregation law identifies the two; both are real.
-/
import proofs.«136471_j9208409883351_2_alg».proof.Proof.EdgeReads
import proofs.«136471_j9208409883351_2_alg».proof.Proof.AggregateLaw

set_option maxRecDepth 16384

noncomputable section

namespace Cert.EdgeLaw

open Idealize.ShloMosaic Idealize.ShloMosaic.ValueIdx
open Cert.ReferenceIdeal Cert.ReferenceIdeal.Gen Cert.EdgeReads Cert.AggregateLaw

/-- The kernel's score of edge e: the exponential of the sum along the row of the product row times the attention row. -/
theorem score_apply (X : (⟨S500000x256, .f32⟩ : BufTy).Contents (Elt Ideal)) (wa : (⟨S1x256, .f32⟩ : BufTy).Contents (Elt Ideal)) (e : Fin 500000) (u : Fin 1) :
    Cert.Stages.score (F := Ideal) X wa (ix2 e u) = Ideal.exp (∑ k : Fin 256, X (ix2 e k) * wa (ix2 (0 : Fin 1) k)) := by
  unfold Cert.Stages.score
  rw [Cert.EdgeReads.hostExp_apply, Cert.LibRowNorm.col_apply Cert.KernelIdeal.Gen.bcast_S500000_S500000x1_0 _ e u,
    Cert.LibRowNorm.hSum_apply (a := 500000) (n := 256) Cert.KernelIdeal.Gen.reducesTo_S500000x256_S500000_d1 (by decide)
      Cert.KernelIdeal.Gen.h_S_ _ e]
  refine congrArg Ideal.exp (Finset.sum_congr rfl fun k _ => ?_)
  rw [ValueIdx.mulf_apply, Cert.LibUnitAxes.broadcastInDim_1b_ab_apply wa Cert.KernelIdeal.Gen.bcast_S1x256_S500000x256_0_1 e k]

/-- The guard at an entry. -/
theorem guard_apply (dn : (⟨S100000x1, .f32⟩ : BufTy).Contents (Elt Ideal)) (j : S100000x1.Idx) :
    Cert.Stages.guard (F := Ideal) dn j = guardDiv (dn j) := rfl

theorem mem_edgesInto (dst : (⟨S500000, .i32⟩ : BufTy).Contents (Elt Ideal)) (n : Fin 100000) (e : Fin 500000) :
    e ∈ edgesInto dst n ↔ (dst (ix1 e)).toInt = (n.val : Int) := by
  unfold edgesInto; simp

section Real

variable (Tr hsr hdr : S100000x256.Idx → ℝ) (war : S1x256.Idx → ℝ)
  (src dst : (⟨S500000, .i32⟩ : BufTy).Contents (Elt Ideal))

/-- The exponent of edge e's score. -/
def expo (e : Fin 500000) : ℝ :=
  ∑ k : Fin 256, (Tr (ix2 (rowOf src e) k) * hdr (ix2 (rowOf dst e) k)) * war (ix2 (0 : Fin 1) k)

theorem sum_coe (e : Fin 500000) :
    (∑ k : Fin 256, (mulf (F := Ideal) (φ := .f32) (rowsAtR (fun i => (Tr i : EReal)) src) (rowsAtR (fun i => (hdr i : EReal)) dst)) (ix2 e k)
        * (fun i => (war i : EReal)) (ix2 (0 : Fin 1) k)) = ((expo Tr hdr war src dst e : ℝ) : EReal) := by
  unfold expo
  rw [Cert.LibSoftmaxRows.coe_sum]
  refine Finset.sum_congr rfl fun k _ => ?_
  rw [ValueIdx.mulf_apply, rowsAtR_apply, rowsAtR_apply, EReal.coe_mul, EReal.coe_mul]

/-- The reference's score of edge e is the positive real exp z(e). -/
theorem scoreR_real (e : Fin 500000) (u : Fin 1) :
    scoreR (F := Ideal) (mulf (F := Ideal) (φ := .f32) (rowsAtR (fun i => (Tr i : EReal)) src) (rowsAtR (fun i => (hdr i : EReal)) dst)) (fun i => (war i : EReal)) (ix2 e u)
      = ((Real.exp (expo Tr hdr war src dst e) : ℝ) : EReal) := by
  obtain rfl : u = 0 := Subsingleton.elim _ _
  rw [scoreR_apply, sum_coe, Ideal.exp_coe]

/-- The kernel's score of edge e is the same positive real. -/
theorem score_real (e : Fin 500000) (u : Fin 1) :
    Cert.Stages.score (F := Ideal) (Cert.Stages.edgeProd (fun i => (Tr i : EReal)) (fun i => (hdr i : EReal)) src dst) (fun i => (war i : EReal)) (ix2 e u)
      = ((Real.exp (expo Tr hdr war src dst e) : ℝ) : EReal) := by
  unfold Cert.Stages.edgeProd
  rw [score_apply, rowsAt_eq, rowsAt_eq, sum_coe, Ideal.exp_coe]

/-- The kernel's edge type at (n, d): the weighted sum over the edges into n, over the guarded sum of their scores. -/
theorem kernel_apply (n : Fin 100000) (d : Fin 256) :
    Cert.Stages.edgeType (F := Ideal) (fun i => (Tr i : EReal)) (fun i => (hsr i : EReal)) (fun i => (hdr i : EReal)) src dst (fun i => (war i : EReal)) (ix2 n d)
      = Ideal.div (0 + ∑ e ∈ edgesInto dst n, ((hsr (ix2 (rowOf src e) d) : ℝ) : EReal) * ((Real.exp (expo Tr hdr war src dst e) : ℝ) : EReal))
          (guardDiv (0 + ∑ e ∈ edgesInto dst n, ((Real.exp (expo Tr hdr war src dst e) : ℝ) : EReal))) := by
  unfold Cert.Stages.edgeType Cert.Stages.aggregate
  rw [Cert.EdgeReads.hostDivf_apply, Cert.LibUnitAxes.broadcastInDim_a1_ab_apply _ Cert.KernelIdeal.Gen.bcast_S100000x1_S100000x256_0_1 n d,
    guard_apply, denom_eq, numer_eq, rowsAt_eq, numerR_apply, denomR_apply]
  refine congrArg₂ Ideal.div (congrArg (fun z => (0 : EReal) + z) (Finset.sum_congr rfl fun e _ => ?_))
    (congrArg (fun z => guardDiv ((0 : EReal) + z)) (Finset.sum_congr rfl fun e _ => ?_))
  · rw [rowsAtR_apply, score_real]
  · exact score_real Tr hdr war src dst e 0

/-- The reference's edge type at (n, d): every edge into n weighted by its score over the summed scores of n. -/
theorem reference_apply (n : Fin 100000) (d : Fin 256) :
    edgeTypeR (F := Ideal) (fun i => (Tr i : EReal)) (fun i => (hsr i : EReal)) (fun i => (hdr i : EReal)) src dst (fun i => (war i : EReal)) (ix2 n d)
      = 0 + ∑ e ∈ edgesInto dst n, ((hsr (ix2 (rowOf src e) d) : ℝ) : EReal)
          * Ideal.div ((Real.exp (expo Tr hdr war src dst e) : ℝ) : EReal)
              (0 + ∑ e' ∈ edgesInto dst n, ((Real.exp (expo Tr hdr war src dst e') : ℝ) : EReal)) := by
  unfold edgeTypeR aggregateR
  rw [numerR_apply]
  refine congrArg (fun z => (0 : EReal) + z) (Finset.sum_congr rfl fun e he => ?_)
  rw [rowsAtR_apply, attR_apply, scoreR_real, rowOf_of_inRange dst e n ((mem_edgesInto dst n e).mp he), denomR_apply]
  refine congrArg (fun z => ((hsr (ix2 (rowOf src e) d) : ℝ) : EReal)
    * Ideal.div ((Real.exp (expo Tr hdr war src dst e) : ℝ) : EReal) ((0 : EReal) + z)) (Finset.sum_congr rfl fun e' _ => ?_)
  exact scoreR_real Tr hdr war src dst e' 0

/-- THE LAW at an entry: the kernel's edge type is the reference's, and it is a real number. -/
theorem edgeType_apply (n : Fin 100000) (d : Fin 256) :
    Cert.Stages.edgeType (F := Ideal) (fun i => (Tr i : EReal)) (fun i => (hsr i : EReal)) (fun i => (hdr i : EReal)) src dst (fun i => (war i : EReal)) (ix2 n d)
      = edgeTypeR (F := Ideal) (fun i => (Tr i : EReal)) (fun i => (hsr i : EReal)) (fun i => (hdr i : EReal)) src dst (fun i => (war i : EReal)) (ix2 n d)
    ∧ ∃ z : ℝ, edgeTypeR (F := Ideal) (fun i => (Tr i : EReal)) (fun i => (hsr i : EReal)) (fun i => (hdr i : EReal)) src dst (fun i => (war i : EReal)) (ix2 n d) = (z : EReal) := by
  have hpos : ∀ e ∈ edgesInto dst n, 0 < Real.exp (expo Tr hdr war src dst e) := fun e _ => Real.exp_pos _
  have hlaw := agg_law (edgesInto dst n) (fun e => hsr (ix2 (rowOf src e) d)) (fun e => Real.exp (expo Tr hdr war src dst e)) hpos
  obtain ⟨z, hz⟩ := agg_real (edgesInto dst n) (fun e => hsr (ix2 (rowOf src e) d)) (fun e => Real.exp (expo Tr hdr war src dst e)) hpos
  rw [kernel_apply, reference_apply]
  exact ⟨hlaw, z, hlaw.symm.trans hz⟩

end Real

end Cert.EdgeLaw

end
-- ==== Proof.Bridge.lean ====
/-
  The two programs' results are one array.

  Each projected feature table is a tile-by-tile product in the kernel and one whole product in the reference: the same
  sums, real when the inputs are.  Each edge type's aggregation then agrees entry by entry (the aggregation law), every
  entry a real number; a finalized row depends on its own aggregated row only, and on a real row the kernel's
  (x − μ)·rsqrt(σ² + ε) is the reference's (x − μ)/√(σ² + ε); the two finalized tables are stacked the same way.
-/
import proofs.«136471_j9208409883351_2_alg».proof.Proof.KernelFold
import proofs.«136471_j9208409883351_2_alg».proof.Proof.TileProduct
import proofs.«136471_j9208409883351_2_alg».proof.Proof.RowNormTiles
import proofs.«136471_j9208409883351_2_alg».proof.Proof.RefFinalize
import proofs.«136471_j9208409883351_2_alg».proof.Proof.EdgeLaw

set_option maxRecDepth 16384

noncomputable section

namespace Cert.Bridge

open Idealize.ShloMosaic Idealize.ShloMosaic.ValueIdx
open Cert.ReferenceIdeal Cert.ReferenceIdeal.Gen Cert.ReferenceIdeal.Read Cert.EdgeReads Cert.FinalRow

/-! ## Projected features of real tables are real -/

theorem proj_first (x0r : S100000x256.Idx → ℝ) (x6r : S256x256.Idx → ℝ) :
    val_main_v1 (F := Ideal) (fun i => (x0r i : EReal)) (fun i => (x6r i : EReal))
      = fun i => ((∑ k : Fin 256, x0r (lidx_main_v1 i k) * x6r (idx_main_v0 (ridx_main_v1 i k)) : ℝ) : EReal) := by
  funext i
  rw [val_main_v1_apply, Cert.LibSoftmaxRows.coe_sum]
  exact Finset.sum_congr rfl fun k _ => by rw [val_main_v0_apply, EReal.coe_mul]

theorem proj_second (x1r : S100000x256.Idx → ℝ) (x7r : S256x256.Idx → ℝ) :
    val_main_v44 (F := Ideal) (fun i => (x1r i : EReal)) (fun i => (x7r i : EReal))
      = fun i => ((∑ k : Fin 256, x1r (lidx_main_v44 i k) * x7r (idx_main_v43 (ridx_main_v44 i k)) : ℝ) : EReal) := by
  funext i
  rw [val_main_v44_apply, Cert.LibSoftmaxRows.coe_sum]
  exact Finset.sum_congr rfl fun k _ => by rw [val_main_v43_apply, EReal.coe_mul]

/-! ## The two edge types -/

/-- The first edge type (features of a into nodes of b): the kernel's grouping over the whole product is the reference's, and real. -/
theorem agg_first (x0 x1 : (⟨S100000x256, .f32⟩ : BufTy).Contents (Elt Ideal)) (x2 x3 : (⟨S500000, .i32⟩ : BufTy).Contents (Elt Ideal)) (x6 : (⟨S256x256, .f32⟩ : BufTy).Contents (Elt Ideal)) (x8 : (⟨S1x256, .f32⟩ : BufTy).Contents (Elt Ideal))
    (h0 : ∀ i, ∃ z : ℝ, x0 i = (z : EReal)) (h1 : ∀ i, ∃ z : ℝ, x1 i = (z : EReal))
    (h6 : ∀ i, ∃ z : ℝ, x6 i = (z : EReal)) (h8 : ∀ i, ∃ z : ℝ, x8 i = (z : EReal)) (n : Fin 100000) (d : Fin 256) :
    Cert.Stages.edgeType (F := Ideal)
        (Host.dotGeneral (F := Ideal) (φ₁ := .f32) (φ₂ := .f32) dot_S100000x256_S256x256_S100000x256_1_0_0_1_n_n none x0
          (transpose Cert.KernelIdeal.S256x256 [1, 0] x6 Cert.KernelIdeal.Gen.transposes_S256x256_S256x256_1_0))
        x0 x1 x2 x3 x8 (ix2 n d)
      = val_main_v42 (F := Ideal) x0 x1 x2 x3 x6 x8 (ix2 n d)
    ∧ ∃ z : ℝ, val_main_v42 (F := Ideal) x0 x1 x2 x3 x6 x8 (ix2 n d) = (z : EReal) := by
  choose x0r e0 using h0; choose x1r e1 using h1; choose x6r e6 using h6; choose x8r e8 using h8
  obtain rfl : x0 = fun i => (x0r i : EReal) := funext e0
  obtain rfl : x1 = fun i => (x1r i : EReal) := funext e1
  obtain rfl : x6 = fun i => (x6r i : EReal) := funext e6
  obtain rfl : x8 = fun i => (x8r i : EReal) := funext e8
  have hT : Host.dotGeneral (F := Ideal) (φ₁ := .f32) (φ₂ := .f32) dot_S100000x256_S256x256_S100000x256_1_0_0_1_n_n none (fun i => (x0r i : EReal))
      (transpose Cert.KernelIdeal.S256x256 [1, 0] (fun i => (x6r i : EReal)) Cert.KernelIdeal.Gen.transposes_S256x256_S256x256_1_0)
      = val_main_v1 (F := Ideal) (fun i => (x0r i : EReal)) (fun i => (x6r i : EReal)) := rfl
  rw [hT, ref_first, proj_first x0r x6r]
  exact Cert.EdgeLaw.edgeType_apply _ x0r x1r x8r x2 x3 n d

/-- The second edge type (features of b into nodes of a), the two feature tables exchanged. -/
theorem agg_second (x0 x1 : (⟨S100000x256, .f32⟩ : BufTy).Contents (Elt Ideal)) (x4 x5 : (⟨S500000, .i32⟩ : BufTy).Contents (Elt Ideal)) (x7 : (⟨S256x256, .f32⟩ : BufTy).Contents (Elt Ideal)) (x9 : (⟨S1x256, .f32⟩ : BufTy).Contents (Elt Ideal))
    (h0 : ∀ i, ∃ z : ℝ, x0 i = (z : EReal)) (h1 : ∀ i, ∃ z : ℝ, x1 i = (z : EReal))
    (h7 : ∀ i, ∃ z : ℝ, x7 i = (z : EReal)) (h9 : ∀ i, ∃ z : ℝ, x9 i = (z : EReal)) (n : Fin 100000) (d : Fin 256) :
    Cert.Stages.edgeType (F := Ideal)
        (Host.dotGeneral (F := Ideal) (φ₁ := .f32) (φ₂ := .f32) dot_S100000x256_S256x256_S100000x256_1_0_0_1_n_n none x1
          (transpose Cert.KernelIdeal.S256x256 [1, 0] x7 Cert.KernelIdeal.Gen.transposes_S256x256_S256x256_1_0))
        x1 x0 x4 x5 x9 (ix2 n d)
      = val_main_v85 (F := Ideal) x0 x1 x4 x5 x7 x9 (ix2 n d)
    ∧ ∃ z : ℝ, val_main_v85 (F := Ideal) x0 x1 x4 x5 x7 x9 (ix2 n d) = (z : EReal) := by
  choose x0r e0 using h0; choose x1r e1 using h1; choose x7r e7 using h7; choose x9r e9 using h9
  obtain rfl : x0 = fun i => (x0r i : EReal) := funext e0
  obtain rfl : x1 = fun i => (x1r i : EReal) := funext e1
  obtain rfl : x7 = fun i => (x7r i : EReal) := funext e7
  obtain rfl : x9 = fun i => (x9r i : EReal) := funext e9
  have hT : Host.dotGeneral (F := Ideal) (φ₁ := .f32) (φ₂ := .f32) dot_S100000x256_S256x256_S100000x256_1_0_0_1_n_n none (fun i => (x1r i : EReal))
      (transpose Cert.KernelIdeal.S256x256 [1, 0] (fun i => (x7r i : EReal)) Cert.KernelIdeal.Gen.transposes_S256x256_S256x256_1_0)
      = val_main_v44 (F := Ideal) (fun i => (x1r i : EReal)) (fun i => (x7r i : EReal)) := rfl
  rw [hT, ref_second, proj_second x1r x7r]
  exact Cert.EdgeLaw.edgeType_apply _ x1r x0r x9r x4 x5 n d

/-! ## A [256] vector seen as a [1, 256] row -/

theorem row_apply (x : (⟨S256, .f32⟩ : BufTy).Contents (Elt Ideal)) (q : Fin 256) :
    shapeCast Cert.KernelIdeal.S1x256 x Cert.KernelIdeal.Gen.shapeCasts_S256_S1x256 (ix2 (0 : Fin 1) q) = x (ix1 q) := by
  rw [Cert.LibUnitAxes.shapeCast_a_1a_eq_broadcastInDim x Cert.KernelIdeal.Gen.shapeCasts_S256_S1x256 bcast_S256_S1x256_1]
  exact broadcastInDim_apply _ bcast_S256_S1x256_1 x (ix2 (0 : Fin 1) q) (ix1 q) (fun a => match a with
    | ⟨0, _⟩ => by show q.val = if (256 : Nat) = 1 then 0 else q.val; rw [if_neg (by decide)])

end Cert.Bridge

end
-- ==== Proof.FiniteInputs.lean ====
/-
  Finite inputs.  The precondition computes, for each of the eight float arguments x, the conjunction over all
  entries of  |x| < +∞ , and the conjunction of those eight bits; it is stated to be 1.  Read at the extended reals
  (a float is an element of [-∞, +∞]), |x| is max x (-x) and the word 0x7F800000 is +∞, so each entry x satisfies
  max x (-x) < ⊤, that is x ≠ ⊤ and x ≠ ⊥: every entry of every float argument is a real number.
-/
import proofs.«136471_j9208409883351_2_alg».proof.Proof.Gen.Pre_finite_inputs
import proofs.«136471_j9208409883351_2_alg».proof.Proof.LibUnitAxes
import Idealize.ShloMosaic.Lib.ReduceAll
import Idealize.ShloMosaic.PureOps.Ideal.Laws
import Idealize.ShloMosaic.Lib.ValueIdx

noncomputable section

namespace Cert.FiniteInputs

open Cert.Pre_finite_inputs Cert.Pre_finite_inputs.Gen Idealize.ShloMosaic Idealize.ShloMosaic.ValueIdx

/-- The rank-0 shape has one index. -/
instance subsingleton_scalarIdx : Subsingleton S_.Idx := ⟨fun a b => funext fun d => d.elim0⟩

/-- The f32 word 0x7F800000 (exponent all ones, fraction zero, sign clear) denotes +∞. -/
theorem ofBits_inf : Ideal.ofBits .f32 0x7F800000#32 = (⊤ : EReal) := by simp [Ideal.ofBits, Ideal.ieee]

/-- An extended real whose absolute value max x (-x) is below +∞ is neither infinity, so it is a real. -/
theorem real_of_abs_lt_top (x : EReal) (h : max x (-x) < ⊤) : ∃ z : ℝ, x = (z : EReal) := by
  induction x using EReal.rec with
  | bot => simp at h
  | coe r => exact ⟨r, rfl⟩
  | top => simp at h

/-- One entry: the bit of  |x| < +∞  being 1 says that x is a real. -/
theorem real_of_bit (x : EReal)
    (h : FloatOps.cmpf (F := Ideal) (φ := .f32) .olt (FloatOps.hostAbsf (F := Ideal) (φ := .f32) x)
      (FloatOps.ofBits (F := Ideal) .f32 0x7F800000#32) = 1#1) : ∃ z : ℝ, x = (z : EReal) := by
  apply real_of_abs_lt_top
  have h' : Ideal.cmp .olt (max x (-x)) (Ideal.ofBits .f32 0x7F800000#32) = 1#1 := h
  rw [ofBits_inf] at h'
  unfold Ideal.cmp at h'
  by_contra hn
  simp [hn] at h'

/-- One array: if the bit of  |x| < +∞  is 1 at every index, every entry of x is a real. -/
theorem reals_of_bits {s : Shape} (x : FVec Ideal s .f32) (hb : S_.BroadcastsInDim s (![] : Fin 0 → Fin s.rank))
    (h : ∀ i, cmpf .olt (Host.absf x) (broadcastInDim s ![] hb (constant (F := Ideal) S_ .f32 0x7F800000#32)) i = 1#1) :
    ∀ i, ∃ z : ℝ, x i = (z : EReal) := by
  intro i
  have hi := h i
  rw [cmpf_apply, Cert.LibUnitAxes.broadcastInDim_scalar_apply] at hi
  exact real_of_bit (x i) hi

/-- One array's  jnp.all : the conjunction over all entries of the bit of  |x| < +∞  being 1 makes every entry a real. -/
theorem reals_of_all {s : Shape} {axes : List (Fin s.rank)} (x : FVec Ideal s .f32)
    (hb : S_.BroadcastsInDim s (![] : Fin 0 → Fin s.rank)) (hr : s.ReducesTo axes S_) (hu : 0 < S_.numel) (init : IVec S_ 1)
    (e : Host.reduce IntOp.andi
        (cmpf .olt (Host.absf x) (broadcastInDim s ![] hb (constant (F := Ideal) S_ .f32 0x7F800000#32))) init hr hu ix0 = 1#1) :
    ∀ i, ∃ z : ℝ, x i = (z : EReal) :=
  reals_of_bits x hb fun i => Host.reduce_andi_all _ init hr hu ix0 e i

/-- The vector conjunction read at an index is the conjunction of the two bits there. -/
theorem andi_ix0_eq_one (a b : IVec S_ 1) (h : andi a b ix0 = 1#1) : a ix0 = 1#1 ∧ b ix0 = 1#1 :=
  IntOp.andi_eq_one.1 h

/-- The precondition at the extended reals: every entry of each of the eight float arguments is a real. -/
theorem reals_of_pre (x0 x1 : FVec Ideal S100000x256 .f32) (x2 x3 x4 x5 : IVec S500000 32) (x6 x7 : FVec Ideal S256x256 .f32)
    (x8 x9 : FVec Ideal S1x256 .f32) (x10 x11 : FVec Ideal S256 .f32)
    (h : Cert.Pre_finite_inputs.fn (F := Ideal) x0 x1 x2 x3 x4 x5 x6 x7 x8 x9 x10 x11 = (fun _ => 1#1)) :
    (∀ i, ∃ z : ℝ, x0 i = (z : EReal)) ∧ (∀ i, ∃ z : ℝ, x1 i = (z : EReal)) ∧ (∀ i, ∃ z : ℝ, x6 i = (z : EReal))
      ∧ (∀ i, ∃ z : ℝ, x7 i = (z : EReal)) ∧ (∀ i, ∃ z : ℝ, x8 i = (z : EReal)) ∧ (∀ i, ∃ z : ℝ, x9 i = (z : EReal))
      ∧ (∀ i, ∃ z : ℝ, x10 i = (z : EReal)) ∧ (∀ i, ∃ z : ℝ, x11 i = (z : EReal)) := by
  have h0 : Cert.Pre_finite_inputs.fn (F := Ideal) x0 x1 x2 x3 x4 x5 x6 x7 x8 x9 x10 x11 ix0 = 1#1 := congrFun h ix0
  dsimp only [Cert.Pre_finite_inputs.fn, Cert.Pre_finite_inputs.fn_part1, Cert.Pre_finite_inputs.fn_part2] at h0
  obtain ⟨h0, e11⟩ := andi_ix0_eq_one _ _ h0
  obtain ⟨h0, e10⟩ := andi_ix0_eq_one _ _ h0
  obtain ⟨h0, e9⟩ := andi_ix0_eq_one _ _ h0
  obtain ⟨h0, e8⟩ := andi_ix0_eq_one _ _ h0
  obtain ⟨h0, e7⟩ := andi_ix0_eq_one _ _ h0
  obtain ⟨h0, e6⟩ := andi_ix0_eq_one _ _ h0
  obtain ⟨e0, e1⟩ := andi_ix0_eq_one _ _ h0
  exact ⟨reals_of_all x0 _ _ _ _ e0, reals_of_all x1 _ _ _ _ e1, reals_of_all x6 _ _ _ _ e6, reals_of_all x7 _ _ _ _ e7,
    reals_of_all x8 _ _ _ _ e8, reals_of_all x9 _ _ _ _ e9, reals_of_all x10 _ _ _ _ e10, reals_of_all x11 _ _ _ _ e11⟩

end Cert.FiniteInputs

end
-- ==== Proof.Outputs.lean ====
/-
  The kernel's result is the reference's result term.

  Under the precondition every float argument holds real numbers.  Then, entry by entry, each finalized table of the
  kernel — a row tile's finalize formula on the aggregated rows that the fold hands to the region — is the reference's
  finalized table: the aggregated rows agree and are real, and on a real row the two finalize formulas agree.  The
  result stacks the two tables in the same order in both programs.
-/
import proofs.«136471_j9208409883351_2_alg».proof.Proof.Bridge
import proofs.«136471_j9208409883351_2_alg».proof.Proof.FiniteInputs

set_option maxRecDepth 16384

noncomputable section

namespace Cert.Outputs

open Idealize.ShloMosaic Idealize.ShloMosaic.TcCoe Idealize.SL.Sem Idealize.ShloMosaic.ValueIdx
open Cert.KernelIdeal Cert.KernelIdeal.Gen Cert.FinalRow

variable (m : (ℓ : Loc nD τ sig) → Buf (Elt Ideal) ℓ) (ρ : Dev nD → PrngReg) (c : Dev nD)

/-- Two tables that agree at every (row, column) are equal. -/
theorem table_ext {f g : (⟨2, ![100000, 256]⟩ : Shape).Idx → EReal} (h : ∀ (r : Fin 100000) (q : Fin 256), f (ix2 r q) = g (ix2 r q)) : f = g := by
  funext j; rw [eq_ix2 j]; exact h _ _

/-- The finalized table of the nodes of a: region 2's output is the reference's. -/
theorem out_a (hpre : Cert.Pre_finite_inputs.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) = (fun _ => 1#1)) :
    (dat2 (F := Ideal) (V9 m ρ) c).arrAt 3 cfg2.N
      = Cert.ReferenceIdeal.Read.val_main_v110 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg7)) (m ((c.tc : Thread nD τ).loc main_arg9)) (m ((c.tc : Thread nD τ).loc main_arg10)) (m ((c.tc : Thread nD τ).loc main_arg11)) := by
  obtain ⟨h0, h1, h6, h7, h8, h9, h10, h11⟩ := Cert.FiniteInputs.reals_of_pre _ _ _ _ _ _ _ _ _ _ _ _ hpre
  refine table_ext fun r q => ?_
  have hagg := fun k => Cert.Bridge.agg_second (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg7)) (m ((c.tc : Thread nD τ).loc main_arg9)) h0 h1 h7 h9 r k
  rw [Cert.RowNormTiles.final2_apply (V9 m ρ) c r q, Cert.KernelFold.entry2_h, Cert.KernelFold.entry2_g, Cert.KernelFold.entry2_b,
    Cert.TileProduct.product1, Cert.KernelFold.entry1_x, Cert.KernelFold.entry1_w, Cert.Bridge.row_apply, Cert.Bridge.row_apply,
    Cert.RefFinalize.out_a_apply _ _ _ _ _ _ _ _ r q (fun k => (hagg k).2)]
  exact congrArg (fun row => finalRow row _ _ q) (funext fun k => (hagg k).1)

/-- The finalized table of the nodes of b: region 3's output is the reference's. -/
theorem out_b (hpre : Cert.Pre_finite_inputs.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) = (fun _ => 1#1)) :
    (dat3 (F := Ideal) (V10 m ρ) c).arrAt 3 cfg3.N
      = Cert.ReferenceIdeal.Read.val_main_v135 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg8)) (m ((c.tc : Thread nD τ).loc main_arg10)) (m ((c.tc : Thread nD τ).loc main_arg11)) := by
  obtain ⟨h0, h1, h6, h7, h8, h9, h10, h11⟩ := Cert.FiniteInputs.reals_of_pre _ _ _ _ _ _ _ _ _ _ _ _ hpre
  refine table_ext fun r q => ?_
  have hagg := fun k => Cert.Bridge.agg_first (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg8)) h0 h1 h6 h8 r k
  rw [Cert.RowNormTiles.final3_apply (V10 m ρ) c r q, Cert.KernelFold.entry3_h, Cert.KernelFold.entry3_g, Cert.KernelFold.entry3_b,
    Cert.TileProduct.product0, Cert.KernelFold.entry0_x, Cert.KernelFold.entry0_w, Cert.Bridge.row_apply, Cert.Bridge.row_apply,
    Cert.RefFinalize.out_b_apply _ _ _ _ _ _ _ _ r q (fun k => (hagg k).2)]
  exact congrArg (fun row => finalRow row _ _ q) (funext fun k => (hagg k).1)

/-- The result buffer at the end of the fold is the reference's result term of the same arguments. -/
theorem result_eq (hpre : Cert.Pre_finite_inputs.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) = (fun _ => 1#1)) :
    W12 m ρ c (Proc.devRef .tc main_v92)
      = Cert.ReferenceIdeal.Read.val_main_v138 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  rw [Cert.KernelFold.result, out_a m ρ c hpre, out_b m ρ c hpre]
  rfl

end Cert.Outputs

end
-- ==== Proof.lean ====
/-
  Two edge-type attention aggregations over a bipartite graph, each followed by ReLU and a row layer normalization: the
  Pallas program against its jnp reference, as extended reals.

  The kernel computes each projected feature table tile by tile and each finalized table tile by tile, and folds the
  per-edge attention normalization to one division per destination node, guarding the nodes with no incoming edge; the
  reference computes whole products, divides every edge's score by the summed scores of its destination, and normalizes
  with a square root and a quotient.  With finite inputs every edge score is a positive real, so a node's summed score
  is zero exactly when it has no incoming edge (both programs give 0 there) and otherwise the quotient moves across
  the node's finite sum; the finalize formulas agree on real rows.  The three frames are the generated ones (the
  reference's is its generated run with the result dropped); the ideal pass rewrote nothing, so there is nothing to
  preserve.
-/
import proofs.«136471_j9208409883351_2_alg».proof.Defs
import proofs.«136471_j9208409883351_2_alg».proof.Proof.Gen.Kernel
import proofs.«136471_j9208409883351_2_alg».proof.Proof.Gen.Kernel.Skeleton
import proofs.«136471_j9208409883351_2_alg».proof.Proof.Gen.Kernel.Launch
import proofs.«136471_j9208409883351_2_alg».proof.Proof.Gen.Kernel.Points
import proofs.«136471_j9208409883351_2_alg».proof.Proof.Gen.Kernel.Frame
import proofs.«136471_j9208409883351_2_alg».proof.Proof.Gen.KernelIdeal
import proofs.«136471_j9208409883351_2_alg».proof.Proof.Gen.KernelIdeal.Skeleton
import proofs.«136471_j9208409883351_2_alg».proof.Proof.Gen.KernelIdeal.Launch
import proofs.«136471_j9208409883351_2_alg».proof.Proof.Gen.KernelIdeal.Points
import proofs.«136471_j9208409883351_2_alg».proof.Proof.Gen.KernelIdeal.Frame
import proofs.«136471_j9208409883351_2_alg».proof.Proof.Gen.ReferenceIdeal
import proofs.«136471_j9208409883351_2_alg».proof.Proof.Gen.Pre_finite_inputs
import proofs.«136471_j9208409883351_2_alg».proof.Proof.Gen.ReferenceIdeal.Run
import proofs.«136471_j9208409883351_2_alg».proof.Proof.Gen.ReferenceIdeal.Read
import proofs.«136471_j9208409883351_2_alg».proof.Proof.KernelRun
import proofs.«136471_j9208409883351_2_alg».proof.Proof.Outputs
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both idealized programs run and end with the same result array: the
    kernel's result buffer holds the end of its fold, which under the precondition is the reference's result term. -/
theorem algebraic : Cert.algebraic_KernelIdeal_ReferenceIdeal := by
  intro m ρ m' ρ' hpre hagree
  refine ⟨fun c => Cert.KernelIdeal.Gen.W12 m ρ c (Proc.devRef .tc Cert.KernelIdeal.main_v92),
    Cert.KernelIdeal.RunNamed.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v138_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]
  exact (Cert.Outputs.result_eq m ρ c (hpre c)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
